-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_1536" .f32 0x3A2AAAAB#32 ((1 / 1536 : ℝ) : EReal)
  ∧ IdealRules.named_const.Statement Cert.KernelIdeal.κ "inv_1536" .f32 0x3A2AAAAB#32 ((1 / 1536 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S4x512x512 : Shape := ⟨3, ![4, 512, 512]⟩
abbrev S1x1x512 : Shape := ⟨3, ![1, 1, 512]⟩
abbrev S512x20 : Shape := ⟨2, ![512, 20]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S1x1x512 : S_.BroadcastsInDim S1x1x512 (![] : Fin 0 → Fin S1x1x512.rank)
  reducesTo_S1x1x512_S_d0_1_2 : S1x1x512.ReducesTo [0, 1, 2] S_
  bcast_S_S512x20 : S_.BroadcastsInDim S512x20 (![] : Fin 0 → Fin S512x20.rank)
  reducesTo_S512x20_S_d0_1 : S512x20.ReducesTo [0, 1] S_

variable [Facts]

def fn_part1 {F : FTy → Type} [FloatOps F] (main_v13 : IVec S_ 1) (main_v16 : IVec S512x20 1) : IVec S_ 1 :=
  let main_c_5 : IVec S_ 1 := constantI S_ 1 1#1
  let main_v17 : IVec S_ 1 := (fun x v => Host.reduce IntOp.andi x v reducesTo_S512x20_S_d0_1 h_S_) main_v16 main_c_5
  let main_v18 : IVec S_ 1 := andi main_v13 main_v17
  main_v18

def fn {F : FTy → Type} [FloatOps F] (main_arg0 : FVec F S8x4096x512 .f32) (main_arg1 : FVec F S4x512x512 .f32) (main_arg2 : FVec F S1x1x512 .f32) (main_arg3 : FVec F S512x20 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S1x1x512 .f32 := Host.absf main_arg2
  let main_cst_2 : FVec F S_ .f32 := constant S_ .f32 0x7F800000#32
  let main_v10 : FVec F S1x1x512 .f32 := broadcastInDim S1x1x512 ![] bcast_S_S1x1x512 main_cst_2
  let main_v11 : IVec S1x1x512 1 := cmpf .olt main_v9 main_v10
  let main_c_3 : IVec S_ 1 := constantI S_ 1 1#1
  let main_v12 : IVec S_ 1 := (fun x v => Host.reduce IntOp.andi x v reducesTo_S1x1x512_S_d0_1_2 h_S_) main_v11 main_c_3
  let main_v13 : IVec S_ 1 := andi main_v8 main_v12
  let main_v14 : FVec F S512x20 .f32 := Host.absf main_arg3
  let main_cst_4 : FVec F S_ .f32 := constant S_ .f32 0x7F800000#32
  let main_v15 : FVec F S512x20 .f32 := broadcastInDim S512x20 ![] bcast_S_S512x20 main_cst_4
  let main_v16 : IVec S512x20 1 := cmpf .olt main_v14 main_v15
  fn_part1 (F := F) main_v13 main_v16
-- ==== Kernel.lean ====
abbrev S8x4096x512 : Shape := ⟨3, ![8, 4096, 512]⟩
abbrev S4x512x512 : Shape := ⟨3, ![4, 512, 512]⟩
abbrev S1x1x512 : Shape := ⟨3, ![1, 1, 512]⟩
abbrev S512x20 : Shape := ⟨2, ![512, 20]⟩
abbrev S64 : Shape := ⟨1, ![64]⟩
abbrev S64x1 : Shape := ⟨2, ![64, 1]⟩
abbrev S20x512 : Shape := ⟨2, ![20, 512]⟩
abbrev S_ : Shape := ⟨0, ![]⟩
abbrev S64x512 : Shape := ⟨2, ![64, 512]⟩
abbrev S8x256x512 : Shape := ⟨3, ![8, 256, 512]⟩
abbrev S512 : Shape := ⟨1, ![512]⟩
abbrev S1x256x512 : Shape := ⟨3, ![1, 256, 512]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩
abbrev S256x1 : Shape := ⟨2, ![256, 1]⟩
abbrev S256 : Shape := ⟨1, ![256]⟩

abbrev nBuf : Space → Nat
  | .hbm => 19
  | .vmem => 8
  | .smem => 0
  | _ => 0

abbrev bufTy : (tb : Table) → Fin (tcTables nBuf tb) → BufTy
  | .hbm, ⟨0, _⟩ => ⟨S8x4096x512, .f32⟩
  | .hbm, ⟨1, _⟩ => ⟨S4x512x512, .f32⟩
  | .hbm, ⟨2, _⟩ => ⟨S1x1x512, .f32⟩
  | .hbm, ⟨3, _⟩ => ⟨S512x20, .f32⟩
  | .hbm, ⟨4, _⟩ => ⟨S64, .i32⟩
  | .hbm, ⟨5, _⟩ => ⟨S64, .i1⟩
  | .hbm, ⟨6, _⟩ => ⟨S64, .f32⟩
  | .hbm, ⟨7, _⟩ => ⟨S64x1, .f32⟩
  | .hbm, ⟨8, _⟩ => ⟨S20x512, .f32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S64x512, .f32⟩
  | .hbm, ⟨15, _⟩ => ⟨S64x512, .f32⟩
  | .hbm, ⟨16, _⟩ => ⟨S64x512, .f32⟩
  | .hbm, ⟨17, _⟩ => ⟨S4x512x512, .bf16⟩
  | .hbm, ⟨18, _⟩ => ⟨S8x4096x512, .f32⟩
  | .local _ .vmem, ⟨0, _⟩ => ⟨S8x256x512, .f32⟩
  | .local _ .vmem, ⟨1, _⟩ => ⟨S8x256x512, .f32⟩
  | .local _ .vmem, ⟨2, _⟩ => ⟨S4x512x512, .bf16⟩
  | .local _ .vmem, ⟨3, _⟩ => ⟨S1x1x512, .f32⟩
  | .local _ .vmem, ⟨4, _⟩ => ⟨S64x512, .f32⟩
  | .local _ .vmem, ⟨5, _⟩ => ⟨S8x256x512, .f32⟩
  | .local _ .vmem, ⟨6, _⟩ => ⟨S8x256x512, .f32⟩
  | .local _ .vmem, ⟨7, _⟩ => ⟨S8x256x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S64_S64x1_0 : S64.BroadcastsInDim S64x1 (![0] : Fin 1 → Fin S64x1.rank)
  transposes_S512x20_S20x512_1_0 : S512x20.Transposes [1, 0] S20x512
  bcast_S_S64 : S_.BroadcastsInDim S64 (![] : Fin 0 → Fin S64.rank)
  bcast_S64x1_S64x512_0_1 : S64x1.BroadcastsInDim S64x512 (![0, 1] : Fin 2 → Fin S64x512.rank)
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  inb_S8x256x512_S1x256x512_0_0_0 : ∀ a, (![0, 0, 0] : Fin 3 → Nat) a + S1x256x512.size a ≤ S8x256x512.size a
  h_S1x256x512 : 0 < S1x256x512.numel
  shapeCasts_S1x256x512_S256x512 : S1x256x512.ShapeCasts S256x512
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  shapeCasts_S512_S1x512 : S512.ShapeCasts S1x512
  broadcasts_S1x512_S256x512 : S1x512.Broadcasts S256x512
  inb_S64x512_S1x512_0_0 : ∀ a, (![0, 0] : Fin 2 → Nat) a + S1x512.size a ≤ S64x512.size a
  h_S1x512 : 0 < S1x512.numel
  shapeCasts_S1x512_S512 : S1x512.ShapeCasts S512
  shapeCasts_S256x512_S1x256x512 : S256x512.ShapeCasts S1x256x512
  inb_S64x512_S1x512_8_0 : ∀ a, (![8, 0] : Fin 2 → Nat) a + S1x512.size a ≤ S64x512.size a
  inb_S8x256x512_S1x256x512_1_0_0 : ∀ a, (![1, 0, 0] : Fin 3 → Nat) a + S1x256x512.size a ≤ S8x256x512.size a
  inb_S64x512_S1x512_16_0 : ∀ a, (![16, 0] : Fin 2 → Nat) a + S1x512.size a ≤ S64x512.size a
  inb_S8x256x512_S1x256x512_2_0_0 : ∀ a, (![2, 0, 0] : Fin 3 → Nat) a + S1x256x512.size a ≤ S8x256x512.size a
  inb_S64x512_S1x512_24_0 : ∀ a, (![24, 0] : Fin 2 → Nat) a + S1x512.size a ≤ S64x512.size a
  inb_S8x256x512_S1x256x512_3_0_0 : ∀ a, (![3, 0, 0] : Fin 3 → Nat) a + S1x256x512.size a ≤ S8x256x512.size a
  inb_S64x512_S1x512_32_0 : ∀ a, (![32, 0] : Fin 2 → Nat) a + S1x512.size a ≤ S64x512.size a
  inb_S8x256x512_S1x256x512_4_0_0 : ∀ a, (![4, 0, 0] : Fin 3 → Nat) a + S1x256x512.size a ≤ S8x256x512.size a
  inb_S64x512_S1x512_40_0 : ∀ a, (![40, 0] : Fin 2 → Nat) a + S1x512.size a ≤ S64x512.size a
  inb_S8x256x512_S1x256x512_5_0_0 : ∀ a, (![5, 0, 0] : Fin 3 → Nat) a + S1x256x512.size a ≤ S8x256x512.size a
  inb_S64x512_S1x512_48_0 : ∀ a, (![48, 0] : Fin 2 → Nat) a + S1x512.size a ≤ S64x512.size a
  inb_S8x256x512_S1x256x512_6_0_0 : ∀ a, (![6, 0, 0] : Fin 3 → Nat) a + S1x256x512.size a ≤ S8x256x512.size a
  inb_S64x512_S1x512_56_0 : ∀ a, (![56, 0] : Fin 2 → Nat) a + S1x512.size a ≤ S64x512.size a
  inb_S8x256x512_S1x256x512_7_0_0 : ∀ a, (![7, 0, 0] : Fin 3 → Nat) a + S1x256x512.size a ≤ S8x256x512.size a
  inb_S4x512x512_S1x512x512_1_0_0 : ∀ a, (![1, 0, 0] : Fin 3 → Nat) a + S1x512x512.size a ≤ S4x512x512.size a
  inb_S64x512_S1x512_1_0 : ∀ a, (![1, 0] : Fin 2 → Nat) a + S1x512.size a ≤ S64x512.size a
  inb_S64x512_S1x512_9_0 : ∀ a, (![9, 0] : Fin 2 → Nat) a + S1x512.size a ≤ S64x512.size a
  inb_S64x512_S1x512_17_0 : ∀ a, (![17, 0] : Fin 2 → Nat) a + S1x512.size a ≤ S64x512.size a
  inb_S64x512_S1x512_25_0 : ∀ a, (![25, 0] : Fin 2 → Nat) a + S1x512.size a ≤ S64x512.size a
  inb_S64x512_S1x512_33_0 : ∀ a, (![33, 0] : Fin 2 → Nat) a + S1x512.size a ≤ S64x512.size a
  inb_S64x512_S1x512_41_0 : ∀ a, (![41, 0] : Fin 2 → Nat) a + S1x512.size a ≤ S64x512.size a
  inb_S64x512_S1x512_49_0 : ∀ a, (![49, 0] : Fin 2 → Nat) a + S1x512.size a ≤ S64x512.size a
  inb_S64x512_S1x512_57_0 : ∀ a, (![57, 0] : Fin 2 → Nat) a + S1x512.size a ≤ S64x512.size a
  inb_S64x512_S1x512_2_0 : ∀ a, (![2, 0] : Fin 2 → Nat) a + S1x512.size a ≤ S64x512.size a
  inb_S64x512_S1x512_10_0 : ∀ a, (![10, 0] : Fin 2 → Nat) a + S1x512.size a ≤ S64x512.size a
  inb_S64x512_S1x512_18_0 : ∀ a, (![18, 0] : Fin 2 → Nat) a + S1x512.size a ≤ S64x512.size a
  inb_S64x512_S1x512_26_0 : ∀ a, (![26, 0] : Fin 2 → Nat) a + S1x512.size a ≤ S64x512.size a
  inb_S64x512_S1x512_34_0 : ∀ a, (![34, 0] : Fin 2 → Nat) a + S1x512.size a ≤ S64x512.size a
  inb_S64x512_S1x512_42_0 : ∀ a, (![42, 0] : Fin 2 → Nat) a + S1x512.size a ≤ S64x512.size a
  inb_S64x512_S1x512_50_0 : ∀ a, (![50, 0] : Fin 2 → Nat) a + S1x512.size a ≤ S64x512.size a
  inb_S64x512_S1x512_58_0 : ∀ a, (![58, 0] : Fin 2 → Nat) a + S1x512.size a ≤ S64x512.size a
  inb_S64x512_S1x512_3_0 : ∀ a, (![3, 0] : Fin 2 → Nat) a + S1x512.size a ≤ S64x512.size a
  inb_S64x512_S1x512_11_0 : ∀ a, (![11, 0] : Fin 2 → Nat) a + S1x512.size a ≤ S64x512.size a
  inb_S64x512_S1x512_19_0 : ∀ a, (![19, 0] : Fin 2 → Nat) a + S1x512.size a ≤ S64x512.size a
  inb_S64x512_S1x512_27_0 : ∀ a, (![27, 0] : Fin 2 → Nat) a + S1x512.size a ≤ S64x512.size a
  inb_S64x512_S1x512_35_0 : ∀ a, (![35, 0] : Fin 2 → Nat) a + S1x512.size a ≤ S64x512.size a
  inb_S64x512_S1x512_43_0 : ∀ a, (![43, 0] : Fin 2 → Nat) a + S1x512.size a ≤ S64x512.size a
  inb_S64x512_S1x512_51_0 : ∀ a, (![51, 0] : Fin 2 → Nat) a + S1x512.size a ≤ S64x512.size a
  inb_S64x512_S1x512_59_0 : ∀ a, (![59, 0] : Fin 2 → Nat) a + S1x512.size a ≤ S64x512.size a
  inb_S4x512x512_S1x512x512_2_0_0 : ∀ a, (![2, 0, 0] : Fin 3 → Nat) a + S1x512x512.size a ≤ S4x512x512.size a
  inb_S64x512_S1x512_4_0 : ∀ a, (![4, 0] : Fin 2 → Nat) a + S1x512.size a ≤ S64x512.size a
  inb_S64x512_S1x512_12_0 : ∀ a, (![12, 0] : Fin 2 → Nat) a + S1x512.size a ≤ S64x512.size a
  inb_S64x512_S1x512_20_0 : ∀ a, (![20, 0] : Fin 2 → Nat) a + S1x512.size a ≤ S64x512.size a
  inb_S64x512_S1x512_28_0 : ∀ a, (![28, 0] : Fin 2 → Nat) a + S1x512.size a ≤ S64x512.size a
  inb_S64x512_S1x512_36_0 : ∀ a, (![36, 0] : Fin 2 → Nat) a + S1x512.size a ≤ S64x512.size a
  inb_S64x512_S1x512_44_0 : ∀ a, (![44, 0] : Fin 2 → Nat) a + S1x512.size a ≤ S64x512.size a
  inb_S64x512_S1x512_52_0 : ∀ a, (![52, 0] : Fin 2 → Nat) a + S1x512.size a ≤ S64x512.size a
  inb_S64x512_S1x512_60_0 : ∀ a, (![60, 0] : Fin 2 → Nat) a + S1x512.size a ≤ S64x512.size a
  inb_S64x512_S1x512_5_0 : ∀ a, (![5, 0] : Fin 2 → Nat) a + S1x512.size a ≤ S64x512.size a
  inb_S64x512_S1x512_13_0 : ∀ a, (![13, 0] : Fin 2 → Nat) a + S1x512.size a ≤ S64x512.size a
  inb_S64x512_S1x512_21_0 : ∀ a, (![21, 0] : Fin 2 → Nat) a + S1x512.size a ≤ S64x512.size a
  inb_S64x512_S1x512_29_0 : ∀ a, (![29, 0] : Fin 2 → Nat) a + S1x512.size a ≤ S64x512.size a
  inb_S64x512_S1x512_37_0 : ∀ a, (![37, 0] : Fin 2 → Nat) a + S1x512.size a ≤ S64x512.size a
  inb_S64x512_S1x512_45_0 : ∀ a, (![45, 0] : Fin 2 → Nat) a + S1x512.size a ≤ S64x512.size a
  inb_S64x512_S1x512_53_0 : ∀ a, (![53, 0] : Fin 2 → Nat) a + S1x512.size a ≤ S64x512.size a
  inb_S64x512_S1x512_61_0 : ∀ a, (![61, 0] : Fin 2 → Nat) a + S1x512.size a ≤ S64x512.size a
  inb_S64x512_S1x512_6_0 : ∀ a, (![6, 0] : Fin 2 → Nat) a + S1x512.size a ≤ S64x512.size a
  inb_S64x512_S1x512_14_0 : ∀ a, (![14, 0] : Fin 2 → Nat) a + S1x512.size a ≤ S64x512.size a
  inb_S64x512_S1x512_22_0 : ∀ a, (![22, 0] : Fin 2 → Nat) a + S1x512.size a ≤ S64x512.size a
  inb_S64x512_S1x512_30_0 : ∀ a, (![30, 0] : Fin 2 → Nat) a + S1x512.size a ≤ S64x512.size a
  inb_S64x512_S1x512_38_0 : ∀ a, (![38, 0] : Fin 2 → Nat) a + S1x512.size a ≤ S64x512.size a
  inb_S64x512_S1x512_46_0 : ∀ a, (![46, 0] : Fin 2 → Nat) a + S1x512.size a ≤ S64x512.size a
  inb_S64x512_S1x512_54_0 : ∀ a, (![54, 0] : Fin 2 → Nat) a + S1x512.size a ≤ S64x512.size a
  inb_S64x512_S1x512_62_0 : ∀ a, (![62, 0] : Fin 2 → Nat) a + S1x512.size a ≤ S64x512.size a
  inb_S4x512x512_S1x512x512_3_0_0 : ∀ a, (![3, 0, 0] : Fin 3 → Nat) a + S1x512x512.size a ≤ S4x512x512.size a
  inb_S64x512_S1x512_7_0 : ∀ a, (![7, 0] : Fin 2 → Nat) a + S1x512.size a ≤ S64x512.size a
  inb_S64x512_S1x512_15_0 : ∀ a, (![15, 0] : Fin 2 → Nat) a + S1x512.size a ≤ S64x512.size a
  inb_S64x512_S1x512_23_0 : ∀ a, (![23, 0] : Fin 2 → Nat) a + S1x512.size a ≤ S64x512.size a
  inb_S64x512_S1x512_31_0 : ∀ a, (![31, 0] : Fin 2 → Nat) a + S1x512.size a ≤ S64x512.size a
  inb_S64x512_S1x512_39_0 : ∀ a, (![39, 0] : Fin 2 → Nat) a + S1x512.size a ≤ S64x512.size a
  inb_S64x512_S1x512_47_0 : ∀ a, (![47, 0] : Fin 2 → Nat) a + S1x512.size a ≤ S64x512.size a
  inb_S64x512_S1x512_55_0 : ∀ a, (![55, 0] : Fin 2 → Nat) a + S1x512.size a ≤ S64x512.size a
  inb_S64x512_S1x512_63_0 : ∀ a, (![63, 0] : Fin 2 → Nat) a + S1x512.size a ≤ S64x512.size a
  reduces_S256x512_S256 : S256x512.Reduces [1] S256
  shapeCasts_S256_S256x1 : S256.ShapeCasts S256x1
  broadcasts_S256x1_S256x512 : S256x1.Broadcasts S256x512
  gather_S20x512_S64x1_S64x512_1_0_n_n_0_1_1512_wf : GatherDims.WF S20x512 S64x1 S64x512 [1] [0] [] [0] [] 1 ![1, 512]
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S8x4096x512.size a
  hwx0_0 : ∀ i : grid0.Coords, EltTy.bits .f32 = 32 ∨ (Rect.block (s := S8x4096x512) S8x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S4x512x512.size a
  hwx0_1 : ∀ i : grid0.Coords, EltTy.bits .bf16 = 32 ∨ (Rect.block (s := S4x512x512) S4x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S1x1x512.size a
  hwx0_2 : ∀ i : grid0.Coords, EltTy.bits .f32 = 32 ∨ (Rect.block (s := S1x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x512.size a ≤ S8x4096x512.size a
  hwx0_4 : ∀ i : grid0.Coords, EltTy.bits .f32 = 32 ∨ (Rect.block (s := S8x4096x512) S8x256x512.size (cc0_transform_4 i) (hinb0_4 i)).WholeWords (EltTy.packing .f32)

variable [Facts₀]

def gather_S20x512_S64x1_S64x512_1_0_n_n_0_1_1512 : GatherDims S20x512 S64x1 S64x512 where
  offsetDims := [1]
  collapsedSliceDims := [0]
  operandBatchingDims := []
  startIndicesBatchingDims := []
  startIndexMap := [0]
  indexVectorDim := 1
  sliceSizes := ![1, 512]
  wf := gather_S20x512_S64x1_S64x512_1_0_n_n_0_1_1512_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S8x256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S4x512x512 : Shape := ⟨3, ![4, 512, 512]⟩
abbrev S1x1x512 : Shape := ⟨3, ![1, 1, 512]⟩
abbrev S512x20 : Shape := ⟨2, ![512, 20]⟩
abbrev S8 : Shape := ⟨1, ![8]⟩
abbrev S64 : Shape := ⟨1, ![64]⟩
abbrev S64x1x1 : Shape := ⟨3, ![64, 1, 1]⟩
abbrev S1 : Shape := ⟨1, ![1]⟩
abbrev S3 : Shape := ⟨1, ![3]⟩
abbrev S_ : Shape := ⟨0, ![]⟩
abbrev S8x1 : Shape := ⟨2, ![8, 1]⟩
abbrev S8x512x512 : Shape := ⟨3, ![8, 512, 512]⟩
abbrev S20x512 : Shape := ⟨2, ![20, 512]⟩
abbrev S64x1 : Shape := ⟨2, ![64, 1]⟩
abbrev S64x512 : Shape := ⟨2, ![64, 512]⟩
abbrev S64x1x512 : Shape := ⟨3, ![64, 1, 512]⟩
abbrev S64x4096x512 : Shape := ⟨3, ![64, 4096, 512]⟩
abbrev S1x1 : Shape := ⟨2, ![1, 1]⟩
abbrev S1x4096x512 : Shape := ⟨3, ![1, 4096, 512]⟩
abbrev S4096 : Shape := ⟨1, ![4096]⟩
abbrev S1x4096x1 : Shape := ⟨3, ![1, 4096, 1]⟩
abbrev S3x1 : Shape := ⟨2, ![3, 1]⟩
abbrev S3x4096x512 : Shape := ⟨3, ![3, 4096, 512]⟩

abbrev nBuf : Space → Nat
  | .hbm => 155
  | .vmem => 0
  | .smem => 0
  | _ => 0

abbrev hbmTy0_0 (i : Nat) : BufTy := match i % 128 with
  | 0 => ⟨S8x4096x512, .f32⟩
  | 1 => ⟨S4x512x512, .f32⟩
  | 2 => ⟨S1x1x512, .f32⟩
  | 3 => ⟨S512x20, .f32⟩
  | 4 => ⟨S8, .i32⟩
  | 5 => ⟨S8, .i1⟩
  | 6 => ⟨S64, .i32⟩
  | 7 => ⟨S64, .i1⟩
  | 8 => ⟨S64, .f32⟩
  | 9 => ⟨S64x1x1, .f32⟩
  | 10 => ⟨S64, .i32⟩
  | 11 => ⟨S64, .i1⟩
  | 12 => ⟨S64, .i32⟩
  | 13 => ⟨S64, .i1⟩
  | 14 => ⟨S64, .i32⟩
  | 15 => ⟨S1, .i32⟩
  | 16 => ⟨S1, .i1⟩
  | 17 => ⟨S3, .i32⟩
  | 18 => ⟨S3, .i1⟩
  | 19 => ⟨S3, .i32⟩
  | 20 => ⟨S3, .i1⟩
  | 21 => ⟨S1, .i32⟩
  | 22 => ⟨S1, .i1⟩
  | 23 => ⟨S_, .i32⟩
  | 24 => ⟨S8, .i32⟩
  | 25 => ⟨S8, .i32⟩
  | 26 => ⟨S8, .i32⟩
  | 27 => ⟨S8x1, .i32⟩
  | 28 => ⟨S8x512x512, .f32⟩
  | 29 => ⟨S8x4096x512, .f32⟩
  | 30 => ⟨S8x4096x512, .f32⟩
  | 31 => ⟨S8x4096x512, .f32⟩
  | 32 => ⟨S8x4096x512, .f32⟩
  | 33 => ⟨S8x4096x512, .f32⟩
  | 34 => ⟨S_, .f32⟩
  | 35 => ⟨S8x4096x512, .f32⟩
  | 36 => ⟨S8x4096x512, .f32⟩
  | 37 => ⟨S8x4096x512, .f32⟩
  | 38 => ⟨S_, .f32⟩
  | 39 => ⟨S8x4096x512, .f32⟩
  | 40 => ⟨S8x4096x512, .f32⟩
  | 41 => ⟨S8x4096x512, .f32⟩
  | 42 => ⟨S_, .f32⟩
  | 43 => ⟨S8x4096x512, .f32⟩
  | 44 => ⟨S8x4096x512, .f32⟩
  | 45 => ⟨S_, .f32⟩
  | 46 => ⟨S8x4096x512, .f32⟩
  | 47 => ⟨S8x4096x512, .f32⟩
  | 48 => ⟨S8x4096x512, .f32⟩
  | 49 => ⟨S20x512, .f32⟩
  | 50 => ⟨S_, .i32⟩
  | 51 => ⟨S64, .i32⟩
  | 52 => ⟨S64, .i32⟩
  | 53 => ⟨S64, .i32⟩
  | 54 => ⟨S64x1, .i32⟩
  | 55 => ⟨S64x512, .f32⟩
  | 56 => ⟨S64x1x512, .f32⟩
  | 57 => ⟨S64x1x512, .f32⟩
  | 58 => ⟨S64x1x512, .f32⟩
  | 59 => ⟨S_, .i32⟩
  | 60 => ⟨S64, .i32⟩
  | 61 => ⟨S64, .i32⟩
  | 62 => ⟨S64, .i32⟩
  | 63 => ⟨S64x1, .i32⟩
  | 64 => ⟨S64x4096x512, .f32⟩
  | 65 => ⟨S64x4096x512, .f32⟩
  | 66 => ⟨S64x4096x512, .f32⟩
  | 67 => ⟨S_, .i32⟩
  | 68 => ⟨S64, .i32⟩
  | 69 => ⟨S64, .i32⟩
  | 70 => ⟨S64, .i32⟩
  | 71 => ⟨S64x1, .i32⟩
  | 72 => ⟨S64x4096x512, .f32⟩
  | 73 => ⟨S64x4096x512, .f32⟩
  | 74 => ⟨S_, .f32⟩
  | 75 => ⟨S8x4096x512, .f32⟩
  | 76 => ⟨S64x1, .i32⟩
  | 77 => ⟨S8x4096x512, .f32⟩
  | 78 => ⟨S_, .i32⟩
  | 79 => ⟨S1, .i32⟩
  | 80 => ⟨S1, .i32⟩
  | 81 => ⟨S1, .i32⟩
  | 82 => ⟨S1x1, .i32⟩
  | 83 => ⟨S1x4096x512, .f32⟩
  | 84 => ⟨S1x4096x512, .f32⟩
  | 85 => ⟨S_, .f32⟩
  | 86 => ⟨S4096, .f32⟩
  | 87 => ⟨S1x4096x1, .f32⟩
  | 88 => ⟨S_, .f32⟩
  | 89 => ⟨S1x4096x1, .f32⟩
  | 90 => ⟨S1x4096x1, .f32⟩
  | 91 => ⟨S_, .f32⟩
  | 92 => ⟨S1x4096x1, .f32⟩
  | 93 => ⟨S1x4096x1, .f32⟩
  | 94 => ⟨S1x4096x1, .f32⟩
  | 95 => ⟨S1x4096x512, .f32⟩
  | 96 => ⟨S1x4096x512, .f32⟩
  | 97 => ⟨S_, .i32⟩
  | 98 => ⟨S3, .i32⟩
  | 99 => ⟨S3, .i32⟩
  | 100 => ⟨S3, .i32⟩
  | 101 => ⟨S3x1, .i32⟩
  | 102 => ⟨S3x4096x512, .f32⟩
  | 103 => ⟨S3x4096x512, .f32⟩
  | 104 => ⟨S_, .f32⟩
  | 105 => ⟨S4096, .f32⟩
  | 106 => ⟨S1x4096x1, .f32⟩
  | 107 => ⟨S_, .f32⟩
  | 108 => ⟨S1x4096x1, .f32⟩
  | 109 => ⟨S1x4096x1, .f32⟩
  | 110 => ⟨S_, .f32⟩
  | 111 => ⟨S1x4096x1, .f32⟩
  | 112 => ⟨S1x4096x1, .f32⟩
  | 113 => ⟨S1x4096x1, .f32⟩
  | 114 => ⟨S3x4096x512, .f32⟩
  | 115 => ⟨S3x4096x512, .f32⟩
  | 116 => ⟨S_, .i32⟩
  | 117 => ⟨S3, .i32⟩
  | 118 => ⟨S3, .i32⟩
  | 119 => ⟨S3, .i32⟩
  | 120 => ⟨S3x1, .i32⟩
  | 121 => ⟨S3x4096x512, .f32⟩
  | 122 => ⟨S3x4096x512, .f32⟩
  | 123 => ⟨S_, .f32⟩
  | 124 => ⟨S4096, .f32⟩
  | 125 => ⟨S1x4096x1, .f32⟩
  | 126 => ⟨S_, .f32⟩
  | 127 => ⟨S1x4096x1, .f32⟩
  | _ => ⟨S8x4096x512, .f32⟩

abbrev hbmTy0_1 (i : Nat) : BufTy := match i % 128 with
  | 0 => ⟨S1x4096x1, .f32⟩
  | 1 => ⟨S_, .f32⟩
  | 2 => ⟨S1x4096x1, .f32⟩
  | 3 => ⟨S1x4096x1, .f32⟩
  | 4 => ⟨S1x4096x1, .f32⟩
  | 5 => ⟨S3x4096x512, .f32⟩
  | 6 => ⟨S3x4096x512, .f32⟩
  | 7 => ⟨S_, .i32⟩
  | 8 => ⟨S1, .i32⟩
  | 9 => ⟨S1, .i32⟩
  | 10 => ⟨S1, .i32⟩
  | 11 => ⟨S1x1, .i32⟩
  | 12 => ⟨S1x4096x512, .f32⟩
  | 13 => ⟨S1x4096x512, .f32⟩
  | 14 => ⟨S_, .f32⟩
  | 15 => ⟨S4096, .f32⟩
  | 16 => ⟨S1x4096x1, .f32⟩
  | 17 => ⟨S_, .f32⟩
  | 18 => ⟨S1x4096x1, .f32⟩
  | 19 => ⟨S1x4096x1, .f32⟩
  | 20 => ⟨S_, .f32⟩
  | 21 => ⟨S1x4096x1, .f32⟩
  | 22 => ⟨S1x4096x1, .f32⟩
  | 23 => ⟨S1x4096x1, .f32⟩
  | 24 => ⟨S1x4096x512, .f32⟩
  | 25 => ⟨S1x4096x512, .f32⟩
  | 26 => ⟨S8x4096x512, .f32⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_cst : Ref sig .tc := ⟨.hbm, 8, rfl⟩
abbrev main_v0 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_c_7 : Ref sig .tc := ⟨.hbm, 14, rfl⟩
abbrev main_c_8 : Ref sig .tc := ⟨.hbm, 15, rfl⟩
abbrev main_c_9 : Ref sig .tc := ⟨.hbm, 16, rfl⟩
abbrev main_c_10 : Ref sig .tc := ⟨.hbm, 17, rfl⟩
abbrev main_c_11 : Ref sig .tc := ⟨.hbm, 18, rfl⟩
abbrev main_c_12 : Ref sig .tc := ⟨.hbm, 19, rfl⟩
abbrev main_c_13 : Ref sig .tc := ⟨.hbm, 20, rfl⟩
abbrev main_c_14 : Ref sig .tc := ⟨.hbm, 21, rfl⟩
abbrev main_c_15 : Ref sig .tc := ⟨.hbm, 22, rfl⟩
abbrev main_c_16 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_17 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_18 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_19 : Ref sig .tc := ⟨.hbm, 42, rfl⟩
abbrev main_v17 : Ref sig .tc := ⟨.hbm, 43, rfl⟩
abbrev main_v18 : Ref sig .tc := ⟨.hbm, 44, rfl⟩
abbrev main_cst_20 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_21 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_22 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_23 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_24 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_25 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_26 : Ref sig .tc := ⟨.hbm, 85, rfl⟩
abbrev main_v53 : Ref sig .tc := ⟨.hbm, 86, rfl⟩
abbrev main_v54 : Ref sig .tc := ⟨.hbm, 87, rfl⟩
abbrev main_cst_27 : Ref sig .tc := ⟨.hbm, 88, rfl⟩
abbrev main_v55 : Ref sig .tc := ⟨.hbm, 89, rfl⟩
abbrev main_v56 : Ref sig .tc := ⟨.hbm, 90, rfl⟩
abbrev main_cst_28 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_29 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_30 : Ref sig .tc := ⟨.hbm, 104, rfl⟩
abbrev main_v68 : Ref sig .tc := ⟨.hbm, 105, rfl⟩
abbrev main_v69 : Ref sig .tc := ⟨.hbm, 106, rfl⟩
abbrev main_cst_31 : Ref sig .tc := ⟨.hbm, 107, rfl⟩
abbrev main_v70 : Ref sig .tc := ⟨.hbm, 108, rfl⟩
abbrev main_v71 : Ref sig .tc := ⟨.hbm, 109, rfl⟩
abbrev main_cst_32 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_33 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_34 : Ref sig .tc := ⟨.hbm, 123, rfl⟩
abbrev main_v83 : Ref sig .tc := ⟨.hbm, 124, rfl⟩
abbrev main_v84 : Ref sig .tc := ⟨.hbm, 125, rfl⟩
abbrev main_cst_35 : Ref sig .tc := ⟨.hbm, 126, rfl⟩
abbrev main_v85 : Ref sig .tc := ⟨.hbm, 127, rfl⟩
abbrev main_v86 : Ref sig .tc := ⟨.hbm, 128, rfl⟩
abbrev main_cst_36 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_37 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_38 : Ref sig .tc := ⟨.hbm, 142, rfl⟩
abbrev main_v98 : Ref sig .tc := ⟨.hbm, 143, rfl⟩
abbrev main_v99 : Ref sig .tc := ⟨.hbm, 144, rfl⟩
abbrev main_cst_39 : Ref sig .tc := ⟨.hbm, 145, rfl⟩
abbrev main_v100 : Ref sig .tc := ⟨.hbm, 146, rfl⟩
abbrev main_v101 : Ref sig .tc := ⟨.hbm, 147, rfl⟩
abbrev main_cst_40 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩

abbrev nD : Nat := 1
abbrev τ : Topo := Topo.v7x

variable {F : FTy → Type} [FloatOps F]

class Facts₀ : Prop where
  bcast_S64_S64x1x1_0 : S64.BroadcastsInDim S64x1x1 (![0] : Fin 1 → Fin S64x1x1.rank)
  bcast_S_S8 : S_.BroadcastsInDim S8 (![] : Fin 0 → Fin S8.rank)
  bcast_S8_S8x1_0 : S8.BroadcastsInDim S8x1 (![0] : Fin 1 → Fin S8x1.rank)
  bcast_S1x1x512_S8x4096x512_0_1_2 : S1x1x512.BroadcastsInDim S8x4096x512 (![0, 1, 2] : Fin 3 → Fin S8x4096x512.rank)
  bcast_S_S8x4096x512 : S_.BroadcastsInDim S8x4096x512 (![] : Fin 0 → Fin S8x4096x512.rank)
  transposes_S512x20_S20x512_1_0 : S512x20.Transposes [1, 0] S20x512
  bcast_S_S64 : S_.BroadcastsInDim S64 (![] : Fin 0 → Fin S64.rank)
  bcast_S64_S64x1_0 : S64.BroadcastsInDim S64x1 (![0] : Fin 1 → Fin S64x1.rank)
  bcast_S64x512_S64x1x512_0_2 : S64x512.BroadcastsInDim S64x1x512 (![0, 2] : Fin 2 → Fin S64x1x512.rank)
  bcast_S64x1x1_S64x1x512_0_1_2 : S64x1x1.BroadcastsInDim S64x1x512 (![0, 1, 2] : Fin 3 → Fin S64x1x512.rank)
  bcast_S64x1x512_S64x4096x512_0_1_2 : S64x1x512.BroadcastsInDim S64x4096x512 (![0, 1, 2] : Fin 3 → Fin S64x4096x512.rank)
  bcast_S_S1 : S_.BroadcastsInDim S1 (![] : Fin 0 → Fin S1.rank)
  bcast_S1_S1x1_0 : S1.BroadcastsInDim S1x1 (![0] : Fin 1 → Fin S1x1.rank)
  reducesTo_S1x4096x512_S4096_d0_2 : S1x4096x512.ReducesTo [0, 2] S4096
  h_S_ : 0 < S_.numel
  bcast_S4096_S1x4096x1_1 : S4096.BroadcastsInDim S1x4096x1 (![1] : Fin 1 → Fin S1x4096x1.rank)
  bcast_S_S1x4096x1 : S_.BroadcastsInDim S1x4096x1 (![] : Fin 0 → Fin S1x4096x1.rank)
  bcast_S1x4096x1_S1x4096x512_0_1_2 : S1x4096x1.BroadcastsInDim S1x4096x512 (![0, 1, 2] : Fin 3 → Fin S1x4096x512.rank)
  bcast_S_S3 : S_.BroadcastsInDim S3 (![] : Fin 0 → Fin S3.rank)
  bcast_S3_S3x1_0 : S3.BroadcastsInDim S3x1 (![0] : Fin 1 → Fin S3x1.rank)
  reducesTo_S3x4096x512_S4096_d0_2 : S3x4096x512.ReducesTo [0, 2] S4096
  bcast_S1x4096x1_S3x4096x512_0_1_2 : S1x4096x1.BroadcastsInDim S3x4096x512 (![0, 1, 2] : Fin 3 → Fin S3x4096x512.rank)
  concatenates_S1x4096x512_S3x4096x512_S3x4096x512_S1x4096x512_S8x4096x512_d0 : Shape.Concatenates [S1x4096x512, S3x4096x512, S3x4096x512, S1x4096x512] S8x4096x512 0
  gather_S4x512x512_S8x1_S8x512x512_12_0_n_n_0_1_1512512_wf : GatherDims.WF S4x512x512 S8x1 S8x512x512 [1, 2] [0] [] [0] [] 1 ![1, 512, 512]
  dot_S8x4096x512_S8x512x512_S8x4096x512_2_1_1_2_0_0_wf : DotDims.WF S8x4096x512 S8x512x512 S8x4096x512 [2] [1] [1] [2] [0] [0]
  gather_S20x512_S64x1_S64x512_1_0_n_n_0_1_1512_wf : GatherDims.WF S20x512 S64x1 S64x512 [1] [0] [] [0] [] 1 ![1, 512]
  gather_S8x4096x512_S64x1_S64x4096x512_12_0_n_n_0_1_14096512_wf : GatherDims.WF S8x4096x512 S64x1 S64x4096x512 [1, 2] [0] [] [0] [] 1 ![1, 4096, 512]
  scatter_S8x4096x512_S64x1_S64x4096x512_12_0_0_1_wf : ScatterDims.WF S8x4096x512 S64x1 S64x4096x512 [1, 2] [0] [0] 1
  gather_S8x4096x512_S1x1_S1x4096x512_12_0_n_n_0_1_14096512_wf : GatherDims.WF S8x4096x512 S1x1 S1x4096x512 [1, 2] [0] [] [0] [] 1 ![1, 4096, 512]
  gather_S8x4096x512_S3x1_S3x4096x512_12_0_n_n_0_1_14096512_wf : GatherDims.WF S8x4096x512 S3x1 S3x4096x512 [1, 2] [0] [] [0] [] 1 ![1, 4096, 512]

variable [Facts₀]

def gather_S4x512x512_S8x1_S8x512x512_12_0_n_n_0_1_1512512 : GatherDims S4x512x512 S8x1 S8x512x512 where
  offsetDims := [1, 2]
  collapsedSliceDims := [0]
  operandBatchingDims := []
  startIndicesBatchingDims := []
  startIndexMap := [0]
  indexVectorDim := 1
  sliceSizes := ![1, 512, 512]
  wf := gather_S4x512x512_S8x1_S8x512x512_12_0_n_n_0_1_1512512_wf
def dot_S8x4096x512_S8x512x512_S8x4096x512_2_1_1_2_0_0 : DotDims S8x4096x512 S8x512x512 S8x4096x512 where
  lhsContracting := [2]
  rhsContracting := [1]
  lhsNonContracting := [1]
  rhsNonContracting := [2]
  lhsBatch := [0]
  rhsBatch := [0]
  wf := dot_S8x4096x512_S8x512x512_S8x4096x512_2_1_1_2_0_0_wf
def gather_S20x512_S64x1_S64x512_1_0_n_n_0_1_1512 : GatherDims S20x512 S64x1 S64x512 where
  offsetDims := [1]
  collapsedSliceDims := [0]
  operandBatchingDims := []
  startIndicesBatchingDims := []
  startIndexMap := [0]
  indexVectorDim := 1
  sliceSizes := ![1, 512]
  wf := gather_S20x512_S64x1_S64x512_1_0_n_n_0_1_1512_wf
def gather_S8x4096x512_S64x1_S64x4096x512_12_0_n_n_0_1_14096512 : GatherDims S8x4096x512 S64x1 S64x4096x512 where
  offsetDims := [1, 2]
  collapsedSliceDims := [0]
  operandBatchingDims := []
  startIndicesBatchingDims := []
  startIndexMap := [0]
  indexVectorDim := 1
  sliceSizes := ![1, 4096, 512]
  wf := gather_S8x4096x512_S64x1_S64x4096x512_12_0_n_n_0_1_14096512_wf
def scatter_S8x4096x512_S64x1_S64x4096x512_12_0_0_1 : ScatterDims S8x4096x512 S64x1 S64x4096x512 where
  updateWindowDims := [1, 2]
  insertedWindowDims := [0]
  scatterDimsToOperandDims := [0]
  indexVectorDim := 1
  wf := scatter_S8x4096x512_S64x1_S64x4096x512_12_0_0_1_wf
def gather_S8x4096x512_S1x1_S1x4096x512_12_0_n_n_0_1_14096512 : GatherDims S8x4096x512 S1x1 S1x4096x512 where
  offsetDims := [1, 2]
  collapsedSliceDims := [0]
  operandBatchingDims := []
  startIndicesBatchingDims := []
  startIndexMap := [0]
  indexVectorDim := 1
  sliceSizes := ![1, 4096, 512]
  wf := gather_S8x4096x512_S1x1_S1x4096x512_12_0_n_n_0_1_14096512_wf
def gather_S8x4096x512_S3x1_S3x4096x512_12_0_n_n_0_1_14096512 : GatherDims S8x4096x512 S3x1 S3x4096x512 where
  offsetDims := [1, 2]
  collapsedSliceDims := [0]
  operandBatchingDims := []
  startIndicesBatchingDims := []
  startIndexMap := [0]
  indexVectorDim := 1
  sliceSizes := ![1, 4096, 512]
  wf := gather_S8x4096x512_S3x1_S3x4096x512_12_0_n_n_0_1_14096512_wf

class Facts : Prop extends Facts₀ where

variable [Facts]
-- ==== Proof.Spec.lean ====
/-
  The result of the fused layer as one function of the argument arrays, index by index, on the extended reals.

  Everything is local to one sample (one row b of the [8, 4096, 512] arrays): write xr j i for the input's blade j,
  feature i at that sample. For blade j and output feature o the grade-wise linear map followed by the tanh form of
  GELU is
      act j o = gelu (sum_i xr j i * W (grade j) i o + bias o),   gelu u = u * (1/2 * (1 + tanh (c1 * (u + c0 * (u * (u * u)))))).
  The steerable geometric product has 64 Cayley terms e = 8 * left + right,
      term e f = (sp e f * xr (left e) f) * act (right e) f,       sp e f = sign e * gp f (path e),
  and blade k of the product is the sum of the eight terms whose product blade is k. Each grade's blades are then
  scaled by the reciprocal root of the grade's mean square (over its blades and all 512 features) plus a small constant.

  Two arrangements of the same row are stated. `rowK` adds the eight terms of blade k in the order of the right
  factor (the Cayley table is a Latin square with (a xor b) xor b = a, so for right factor j the left factor is
  prodT (8 k + j)), adds the blades' squared lanes one after the other, multiplies by the reciprocal count and by the
  reciprocal root. `rowR` sums over the terms selected by their product blade, sums the squares over the grade's
  blades, divides by the count and by the root.
-/
import Idealize.ShloMosaic.PureOps.Ideal
import Idealize.ShloMosaic.Lib.ValueIdx

noncomputable section

namespace Cert.GradeNorm

open Idealize.ShloMosaic Idealize.ShloMosaic.ValueIdx

/-! ## The tables of the algebra -/

/-- The grade of blade j (scalar, three vectors, three bivectors, the pseudoscalar): also the weight matrix blade j uses. -/
def gradeT : Fin 8 → Fin 4 := ![0, 1, 1, 1, 2, 2, 2, 3]

/-- The Cayley table: the blade of (left blade i) * (right blade j), at position 8 i + j. -/
def prodT : Fin 64 → Fin 8 := ![0, 1, 2, 3, 4, 5, 6, 7, 1, 0, 4, 5, 2, 3, 7, 6, 2, 4, 0, 6, 1, 7, 3, 5, 3, 5, 6, 0, 7, 1, 2, 4, 4, 2, 1, 7, 0, 6, 5, 3, 5, 3, 7, 1, 6, 0, 4, 2, 6, 7, 3, 2, 5, 4, 0, 1, 7, 6, 5, 4, 3, 2, 1, 0]

/-- The left factor's blade of term e. -/
def leftT (e : Fin 64) : Fin 8 := ⟨e.val / 8, by omega⟩

/-- The right factor's blade of term e. -/
def rightT (e : Fin 64) : Fin 8 := ⟨e.val % 8, by omega⟩

/-- The grade path (left grade, right grade, product grade) of term e, one of twenty. -/
def pathT : Fin 64 → Fin 20 := ![0, 1, 1, 1, 2, 2, 2, 3, 4, 5, 6, 6, 7, 7, 8, 9, 4, 6, 5, 6, 7, 8, 7, 9, 4, 6, 6, 5, 8, 7, 7, 9, 10, 11, 11, 12, 13, 14, 14, 15, 10, 11, 12, 11, 14, 13, 14, 15, 10, 12, 11, 11, 14, 14, 13, 15, 16, 17, 17, 17, 18, 18, 18, 19]

/-- The reordering sign of term e, as the float word of 1 or -1. -/
def signW : Fin 64 → BitVec 32 := ![0x3F800000#32, 0x3F800000#32, 0x3F800000#32, 0x3F800000#32, 0x3F800000#32, 0x3F800000#32, 0x3F800000#32, 0x3F800000#32, 0x3F800000#32, 0x3F800000#32, 0x3F800000#32, 0x3F800000#32, 0x3F800000#32, 0x3F800000#32, 0x3F800000#32, 0x3F800000#32, 0x3F800000#32, 0xBF800000#32, 0x3F800000#32, 0x3F800000#32, 0xBF800000#32, 0xBF800000#32, 0x3F800000#32, 0xBF800000#32, 0x3F800000#32, 0xBF800000#32, 0xBF800000#32, 0x3F800000#32, 0x3F800000#32, 0xBF800000#32, 0xBF800000#32, 0x3F800000#32, 0x3F800000#32, 0xBF800000#32, 0x3F800000#32, 0x3F800000#32, 0xBF800000#32, 0xBF800000#32, 0x3F800000#32, 0xBF800000#32, 0x3F800000#32, 0xBF800000#32, 0xBF800000#32, 0x3F800000#32, 0x3F800000#32, 0xBF800000#32, 0xBF800000#32, 0x3F800000#32, 0x3F800000#32, 0x3F800000#32, 0xBF800000#32, 0x3F800000#32, 0xBF800000#32, 0x3F800000#32, 0xBF800000#32, 0xBF800000#32, 0x3F800000#32, 0x3F800000#32, 0xBF800000#32, 0x3F800000#32, 0xBF800000#32, 0x3F800000#32, 0xBF800000#32, 0xBF800000#32]

/-- The term of blade k whose right factor is j: its left factor is the blade prodT (8 k + j). -/
def kIdx (k j : Fin 8) : Fin 64 :=
  ⟨8 * (prodT ⟨8 * k.val + j.val, by omega⟩).val + j.val, by omega⟩

/-! ## The constants, as the float words both programs print -/

/-- 0.044715 -/
abbrev c0 : EReal := Ideal.ofBits .f32 0x3D372713#32
/-- sqrt (2 / pi), rounded -/
abbrev c1 : EReal := Ideal.ofBits .f32 0x3F4C422A#32
/-- 1 -/
abbrev cOne : EReal := Ideal.ofBits .f32 0x3F800000#32
/-- 1/2 -/
abbrev cHalf : EReal := Ideal.ofBits .f32 0x3F000000#32
/-- the small constant under the root, 1e-6 rounded -/
abbrev cEps : EReal := Ideal.ofBits .f32 0x358637BD#32
/-- 1/512, exact -/
abbrev w512 : EReal := Ideal.ofBits .f32 0x3B000000#32
/-- 1/1536, the rational -/
abbrev w1536 : EReal := ((1 / 1536 : ℝ) : EReal)

/-- The tanh form of GELU. -/
def gelu (u : EReal) : EReal := u * (cHalf * (cOne + Ideal.tanh (c1 * (u + c0 * (u * (u * u))))))

/-! ## One sample -/

section Row

variable (xr : Fin 8 → Fin 512 → EReal) (W : Fin 4 → Fin 512 → Fin 512 → EReal) (bias : Fin 512 → EReal)
  (sp : Fin 64 → Fin 512 → EReal)

/-- The grade-wise linear map of blade j at output feature o. -/
def lin (j : Fin 8) (o : Fin 512) : EReal := (∑ i : Fin 512, xr j i * W (gradeT j) i o) + bias o

/-- The activated blade j at feature o. -/
def act (j : Fin 8) (o : Fin 512) : EReal := gelu (lin xr W bias j o)

/-- Cayley term e at feature f. -/
def term (e : Fin 64) (f : Fin 512) : EReal := (sp e f * xr (leftT e) f) * act xr W bias (rightT e) f

/-- The sum of a lane's squares. -/
def lane (a : Fin 512 → EReal) : EReal := ∑ f : Fin 512, a f * a f

/-- Blade k of the product, the eight terms added in the order of the right factor, from zero. -/
def accK (k : Fin 8) (f : Fin 512) : EReal :=
  0 + term xr W bias sp (kIdx k 0) f + term xr W bias sp (kIdx k 1) f + term xr W bias sp (kIdx k 2) f
    + term xr W bias sp (kIdx k 3) f + term xr W bias sp (kIdx k 4) f + term xr W bias sp (kIdx k 5) f
    + term xr W bias sp (kIdx k 6) f + term xr W bias sp (kIdx k 7) f

/-- The reciprocal root of a one-blade grade's mean square plus the small constant. -/
def invK1 (k : Fin 8) : EReal :=
  Ideal.rsqrt ((0 + lane (accK xr W bias sp k)) * w512 + cEps)

/-- The same for a three-blade grade, the blades' lanes added one after the other. -/
def invK3 (k1 k2 k3 : Fin 8) : EReal :=
  Ideal.rsqrt ((0 + lane (accK xr W bias sp k1) + lane (accK xr W bias sp k2) + lane (accK xr W bias sp k3)) * w1536 + cEps)

/-- The scale of blade k. -/
def invK : Fin 8 → EReal
  | 0 => invK1 xr W bias sp 0
  | 1 => invK3 xr W bias sp 1 2 3
  | 2 => invK3 xr W bias sp 1 2 3
  | 3 => invK3 xr W bias sp 1 2 3
  | 4 => invK3 xr W bias sp 4 5 6
  | 5 => invK3 xr W bias sp 4 5 6
  | 6 => invK3 xr W bias sp 4 5 6
  | 7 => invK1 xr W bias sp 7

/-- The row in the first arrangement. -/
def rowK (k : Fin 8) (f : Fin 512) : EReal := accK xr W bias sp k f * invK xr W bias sp k

/-- Blade k of the product: the terms whose product blade is k. -/
def accR (k : Fin 8) (f : Fin 512) : EReal :=
  ∑ e ∈ Finset.univ.filter (fun e : Fin 64 => prodT e = k), term xr W bias sp e f

/-- The number of (blade, feature) pairs of a grade. -/
def cntT : Fin 4 → ℝ := ![512, 1536, 1536, 512]

/-- The mean square of grade g. -/
def msR (g : Fin 4) : EReal :=
  Ideal.div (∑ k ∈ Finset.univ.filter (fun k : Fin 8 => gradeT k = g), lane (accR xr W bias sp k)) ((cntT g : ℝ) : EReal)

/-- The row in the second arrangement. -/
def rowR (k : Fin 8) (f : Fin 512) : EReal :=
  Ideal.div (accR xr W bias sp k f) (Ideal.sqrt (msR xr W bias sp (gradeT k) + cEps))

end Row

/-! ## The arrays -/

abbrev SX : Shape := ⟨3, ![8, 4096, 512]⟩
abbrev SW : Shape := ⟨3, ![4, 512, 512]⟩
abbrev SB : Shape := ⟨3, ![1, 1, 512]⟩
abbrev SG : Shape := ⟨2, ![512, 20]⟩

/-- Sample b of the input. -/
def xrow (x : FVec Ideal SX .f32) (b : Fin 4096) : Fin 8 → Fin 512 → EReal := fun j i => x (ix3 j b i)
/-- The four weight matrices. -/
def wmat (w : FVec Ideal SW .f32) : Fin 4 → Fin 512 → Fin 512 → EReal := fun g i o => w (ix3 g i o)
/-- The bias row. -/
def bvec (b : FVec Ideal SB .f32) : Fin 512 → EReal := fun o => b (ix3 (0 : Fin 1) (0 : Fin 1) o)
/-- The signed path weight of term e at feature f. -/
def spw (gp : FVec Ideal SG .f32) : Fin 64 → Fin 512 → EReal := fun e f => Ideal.ofBits .f32 (signW e) * gp (ix2 f (pathT e))

/-- The result array, first arrangement. -/
def GK (x : FVec Ideal SX .f32) (w : FVec Ideal SW .f32) (b : FVec Ideal SB .f32) (gp : FVec Ideal SG .f32) : FVec Ideal SX .f32 :=
  fun i => rowK (xrow x (i 1)) (wmat w) (bvec b) (spw gp) (i 0) (i 2)

/-- The result array, second arrangement. -/
def GR (x : FVec Ideal SX .f32) (w : FVec Ideal SW .f32) (b : FVec Ideal SB .f32) (gp : FVec Ideal SG .f32) : FVec Ideal SX .f32 :=
  fun i => rowR (xrow x (i 1)) (wmat w) (bvec b) (spw gp) (i 0) (i 2)

theorem GK_apply (x : FVec Ideal SX .f32) (w : FVec Ideal SW .f32) (b : FVec Ideal SB .f32) (gp : FVec Ideal SG .f32)
    (k : Fin 8) (r : Fin 4096) (f : Fin 512) :
    GK x w b gp (ix3 k r f) = rowK (xrow x r) (wmat w) (bvec b) (spw gp) k f := rfl

theorem GR_apply (x : FVec Ideal SX .f32) (w : FVec Ideal SW .f32) (b : FVec Ideal SB .f32) (gp : FVec Ideal SG .f32)
    (k : Fin 8) (r : Fin 4096) (f : Fin 512) :
    GR x w b gp (ix3 k r f) = rowR (xrow x r) (wmat w) (bvec b) (spw gp) k f := rfl

/-! ## One block of 256 samples -/

abbrev SXb : Shape := ⟨3, ![8, 256, 512]⟩
abbrev SP : Shape := ⟨2, ![64, 512]⟩

/-- The first arrangement over a block of 256 samples, from the block of the input, the four weight matrices, the
    bias row and the 64 signed path-weight rows. -/
def blockK (x0 : FVec Ideal SXb .f32) (x1 : FVec Ideal SW .bf16) (x2 : FVec Ideal SB .f32) (x3 : FVec Ideal SP .f32) :
    FVec Ideal SXb .f32 :=
  fun i => rowK (fun j q => x0 (ix3 j (i 1) q)) (fun g a o => x1 (ix3 g a o))
    (fun o => x2 (ix3 (0 : Fin 1) (0 : Fin 1) o)) (fun e f => x3 (ix2 e f)) (i 0) (i 2)

theorem blockK_apply (x0 : FVec Ideal SXb .f32) (x1 : FVec Ideal SW .bf16) (x2 : FVec Ideal SB .f32) (x3 : FVec Ideal SP .f32)
    (k : Fin 8) (p : Fin 256) (q : Fin 512) :
    blockK x0 x1 x2 x3 (ix3 k p q)
      = rowK (fun j q' => x0 (ix3 j p q')) (fun g a o => x1 (ix3 g a o))
          (fun o => x2 (ix3 (0 : Fin 1) (0 : Fin 1) o)) (fun e f => x3 (ix2 e f)) k q := rfl

end Cert.GradeNorm

end
-- ==== Proof.LibRsqrtBlocks.lean ====
/-
  Two general facts about the extended reals, with no program in sight.

  * `Cert.Lib.mul_rsqrt_eq_div_sqrt`: at the ideal instance, a value times the reciprocal square root of `v` is the value
    divided by the square root of `v`, for EVERY extended real value and every `0 < v ≤ +∞` (at `v = +∞` both sides are
    `0`). With `Cert.Lib.mul_self_nonneg` (a square is nonnegative, infinite values included) this joins a normaliser
    written `(x − mean) · rsqrt (var + ε)` to one written `(x − mean) / sqrt (var + ε)` without any finiteness: a variance
    is a sum of squares over a positive real, so `var + ε > 0` for `ε > 0`.
  * `Cert.Lib.sum_blocks` / `Cert.Lib.sum_div_mod`: a sum over `N = a · b` consecutive indices is the double sum over `a`
    blocks of `b` (`Cert.Lib.blockEquiv a b : Fin a × Fin b ≃ Fin N`, `(i, j) ↦ i · b + j`, inverse `k ↦ (k / b, k % b)`):
    a contraction accumulated block by block over a grid axis against one whole contraction, or heads laid side by
    side against the concatenated lanes. Stated for sums in the extended reals; only commutativity and associativity
    of `+` are used.

  Imports only the ideal instance's operations.
-/
import Idealize.ShloMosaic.PureOps.Ideal

noncomputable section

open scoped BigOperators

namespace Cert.Lib

open Idealize.ShloMosaic

/-- A square is nonnegative on the extended reals: `(±∞)·(±∞) = +∞`. -/
theorem mul_self_nonneg (y : EReal) : 0 ≤ y * y := by
  induction y using EReal.rec with
  | bot => simp [EReal.bot_mul_bot]
  | top => simp [EReal.top_mul_top]
  | coe r => rw [← EReal.coe_mul]; exact_mod_cast _root_.mul_self_nonneg r

/-- Times the reciprocal square root is over the square root, for every `x` and every `0 < v ≤ +∞`. -/
theorem mul_rsqrt_eq_div_sqrt (x v : EReal) (hv : 0 < v) : x * Ideal.rsqrt v = Ideal.div x (Ideal.sqrt v) := by
  induction v using EReal.rec with
  | bot => exact absurd hv (by simp)
  | top =>
    show x * (0 : EReal) = Ideal.div x ⊤
    rw [mul_zero, Ideal.div, if_neg EReal.top_ne_zero, EReal.inv_top, mul_zero]
  | coe r =>
    have hr : 0 < r := by exact_mod_cast hv
    have hs : Real.sqrt r ≠ 0 := (Real.sqrt_pos.mpr hr).ne'
    have hs' : ((Real.sqrt r : ℝ) : EReal) ≠ 0 := by exact_mod_cast hs
    show x * (if r < 0 then ⊥ else if r = 0 then ⊤ else (((Real.sqrt r)⁻¹ : ℝ) : EReal))
      = Ideal.div x (if r < 0 then ⊥ else ((Real.sqrt r : ℝ) : EReal))
    rw [if_neg (not_lt.mpr hr.le), if_neg hr.ne', if_neg (not_lt.mpr hr.le), Ideal.div, if_neg hs', EReal.coe_inv]

/-! ## A long sum as blocks -/

/-- `a` blocks of `b` consecutive indices. -/
def blockEquiv {N : ℕ} (a b : ℕ) (hb : 0 < b) (hN : N = a * b) : Fin a × Fin b ≃ Fin N where
  toFun p := ⟨p.1.val * b + p.2.val, by
    subst hN
    calc p.1.val * b + p.2.val < p.1.val * b + b := Nat.add_lt_add_left p.2.isLt _
      _ = (p.1.val + 1) * b := (Nat.succ_mul _ _).symm
      _ ≤ a * b := Nat.mul_le_mul_right _ p.1.isLt⟩
  invFun k := (⟨k.val / b, (Nat.div_lt_iff_lt_mul hb).mpr (hN ▸ k.isLt)⟩, ⟨k.val % b, Nat.mod_lt _ hb⟩)
  left_inv p := by
    refine Prod.ext (Fin.ext ?_) (Fin.ext ?_)
    · show (p.1.val * b + p.2.val) / b = p.1.val
      rw [Nat.add_comm, Nat.add_mul_div_right _ _ hb, Nat.div_eq_of_lt p.2.isLt, Nat.zero_add]
    · show (p.1.val * b + p.2.val) % b = p.2.val
      rw [Nat.add_comm, Nat.add_mul_mod_self_right, Nat.mod_eq_of_lt p.2.isLt]
  right_inv k := Fin.ext (Nat.div_add_mod' k.val b)

/-- A sum over `a · b` consecutive indices, block by block. -/
theorem sum_blocks {N : ℕ} (a b : ℕ) (hb : 0 < b) (hN : N = a * b) (f : Fin N → EReal) :
    ∑ k, f k = ∑ i : Fin a, ∑ j : Fin b, f (blockEquiv a b hb hN (i, j)) := by
  rw [← (blockEquiv a b hb hN).sum_comp, Fintype.sum_prod_type]

/-- The same with the summand written over (block, position): `k` is in block `k / b` at position `k % b`. -/
theorem sum_div_mod {N : ℕ} (a b : ℕ) (hb : 0 < b) (hN : N = a * b) (g : Fin a → Fin b → EReal) :
    ∑ k : Fin N, g ((blockEquiv a b hb hN).symm k).1 ((blockEquiv a b hb hN).symm k).2 = ∑ i : Fin a, ∑ j : Fin b, g i j := by
  rw [sum_blocks a b hb hN]
  refine Finset.sum_congr rfl fun i _ => Finset.sum_congr rfl fun j _ => ?_
  rw [Equiv.symm_apply_apply]

end Cert.Lib

end
-- ==== Proof.RowAlgebra.lean ====
/-
  The two arrangements of one sample's row agree on the extended reals, with no finiteness assumed.

  * Blade k of the product. The Cayley table is a Latin square: for each product blade k the map j ↦ kIdx k j
    (right factor j, left factor prodT (8 k + j)) is a bijection from the eight blades onto the terms whose product
    blade is k. So the sum over the selected terms is the eight terms added one after the other from zero; only
    commutativity and associativity of + are used, which hold at the infinities.
  * The grades. The blades of grade 0, 1, 2, 3 are {0}, {1, 2, 3}, {4, 5, 6}, {7}, so the sum of the lanes' squares
    over a grade's blades is one lane, or three lanes added one after the other.
  * The scale. The word 0x3B000000 denotes 1/512 exactly and the word under the root denotes a positive real, and
    dividing by a nonzero real c is multiplying by 1/c also at the infinities. A sum of squares is nonnegative
    (an infinite square is +∞), so the root's argument s * (1/c) + eps is positive, possibly +∞, and there a value
    times the reciprocal root is the value over the root (at +∞ both sides are 0).
  * The eight blades are then read off case by case, and the result arrays agree index by index.
-/
import proofs.«174987_j30442728194568_2_alg».proof.Proof.Spec
import proofs.«174987_j30442728194568_2_alg».proof.Proof.LibRsqrtBlocks

noncomputable section

open scoped BigOperators

namespace Cert.GradeNorm.RowAlgebra

open Idealize.ShloMosaic Idealize.ShloMosaic.ValueIdx

/-! ## The terms of one product blade -/

/-- The terms whose product blade is k are exactly the eight terms kIdx k j. -/
theorem filter_prod_eq_image (k : Fin 8) :
    Finset.univ.filter (fun e : Fin 64 => prodT e = k) = Finset.univ.image (kIdx k) := by
  revert k; decide

/-- For each product blade k the map j ↦ kIdx k j is injective. -/
theorem kIdx_injective (k : Fin 8) : Function.Injective (kIdx k) := by
  revert k; decide

/-- The sum over the terms of product blade k is the eight terms kIdx k 0 … kIdx k 7 added in turn from zero. -/
theorem sum_prod_filter (t : Fin 64 → EReal) (k : Fin 8) :
    ∑ e ∈ Finset.univ.filter (fun e : Fin 64 => prodT e = k), t e
      = 0 + t (kIdx k 0) + t (kIdx k 1) + t (kIdx k 2) + t (kIdx k 3) + t (kIdx k 4) + t (kIdx k 5)
          + t (kIdx k 6) + t (kIdx k 7) := by
  rw [filter_prod_eq_image, Finset.sum_image (fun a _ b _ h => kIdx_injective k h), Fin.sum_univ_eight, zero_add]

/-! ## The grade sums -/

/-- Grade 0 is blade 0. -/
theorem grade_sum0 (h : Fin 8 → EReal) :
    ∑ k ∈ Finset.univ.filter (fun k : Fin 8 => gradeT k = 0), h k = h 0 := by
  rw [show Finset.univ.filter (fun k : Fin 8 => gradeT k = 0) = {0} by decide, Finset.sum_singleton]

/-- Grade 3 is blade 7. -/
theorem grade_sum3 (h : Fin 8 → EReal) :
    ∑ k ∈ Finset.univ.filter (fun k : Fin 8 => gradeT k = 3), h k = h 7 := by
  rw [show Finset.univ.filter (fun k : Fin 8 => gradeT k = 3) = {7} by decide, Finset.sum_singleton]

/-- Grade 1 is the blades 1, 2, 3. -/
theorem grade_sum1 (h : Fin 8 → EReal) :
    ∑ k ∈ Finset.univ.filter (fun k : Fin 8 => gradeT k = 1), h k = h 1 + h 2 + h 3 := by
  rw [show Finset.univ.filter (fun k : Fin 8 => gradeT k = 1) = {1, 2, 3} by decide,
    Finset.sum_insert (by decide), Finset.sum_insert (by decide), Finset.sum_singleton, add_assoc]

/-- Grade 2 is the blades 4, 5, 6. -/
theorem grade_sum2 (h : Fin 8 → EReal) :
    ∑ k ∈ Finset.univ.filter (fun k : Fin 8 => gradeT k = 2), h k = h 4 + h 5 + h 6 := by
  rw [show Finset.univ.filter (fun k : Fin 8 => gradeT k = 2) = {4, 5, 6} by decide,
    Finset.sum_insert (by decide), Finset.sum_insert (by decide), Finset.sum_singleton, add_assoc]

/-! ## The constants -/

/-- The word 0x3B000000 denotes 2^(-9) = 1/512. -/
theorem w512_eq : w512 = ((1 / 512 : ℝ) : EReal) := by
  simp [Ideal.ofBits, Ideal.ieee, -EReal.coe_mul]; norm_num

/-- The small constant under the root is a positive real. -/
theorem cEps_pos : 0 < cEps := by
  simp [Ideal.ofBits, Ideal.ieee, -EReal.coe_mul]

/-! ## One sample -/

/-- A lane's sum of squares is nonnegative, infinite entries included. -/
theorem lane_nonneg (a : Fin 512 → EReal) : 0 ≤ lane a :=
  Finset.sum_nonneg fun f _ => Cert.Lib.mul_self_nonneg (a f)

/-- A value times the reciprocal root of (s times 1/c, plus the small constant) is the value over the root of
    (s over c, plus the small constant), for a nonnegative s (possibly infinite) and a positive real c. -/
theorem scale_eq (a s : EReal) (hs : 0 ≤ s) (c : ℝ) (hc : 0 < c) (wc : EReal) (hw : wc = ((1 / c : ℝ) : EReal)) :
    a * Ideal.rsqrt (s * wc + cEps) = Ideal.div a (Ideal.sqrt (Ideal.div s ((c : ℝ) : EReal) + cEps)) := by
  subst hw
  rw [Ideal.div_coe hc.ne' s]
  exact Cert.Lib.mul_rsqrt_eq_div_sqrt a _
    (cEps_pos.trans_le (le_add_of_nonneg_left (EReal.mul_nonneg hs (EReal.coe_nonneg.mpr (one_div_pos.mpr hc).le))))

section Row

variable (xr : Fin 8 → Fin 512 → EReal) (W : Fin 4 → Fin 512 → Fin 512 → EReal) (bias : Fin 512 → EReal)
  (sp : Fin 64 → Fin 512 → EReal)

/-- Blade k of the product is the same sum in both arrangements. -/
theorem accK_eq_accR : accK xr W bias sp = accR xr W bias sp := by
  funext k f
  unfold accK accR
  exact (sum_prod_filter (fun e => term xr W bias sp e f) k).symm

/-- A one-blade grade. -/
theorem one_blade (k : Fin 8) (g : Fin 4)
    (hsum : ∀ h : Fin 8 → EReal, ∑ k' ∈ Finset.univ.filter (fun k' : Fin 8 => gradeT k' = g), h k' = h k)
    (hc : cntT g = 512) (f : Fin 512) :
    accK xr W bias sp k f * invK1 xr W bias sp k
      = Ideal.div (accR xr W bias sp k f) (Ideal.sqrt (msR xr W bias sp g + cEps)) := by
  unfold invK1 msR
  rw [hsum, hc, zero_add, accK_eq_accR]
  exact scale_eq _ _ (lane_nonneg _) 512 (by norm_num) w512 w512_eq

/-- A three-blade grade. -/
theorem three_blade (k k1 k2 k3 : Fin 8) (g : Fin 4)
    (hsum : ∀ h : Fin 8 → EReal,
      ∑ k' ∈ Finset.univ.filter (fun k' : Fin 8 => gradeT k' = g), h k' = h k1 + h k2 + h k3)
    (hc : cntT g = 1536) (f : Fin 512) :
    accK xr W bias sp k f * invK3 xr W bias sp k1 k2 k3
      = Ideal.div (accR xr W bias sp k f) (Ideal.sqrt (msR xr W bias sp g + cEps)) := by
  unfold invK3 msR
  rw [hsum, hc, zero_add, accK_eq_accR]
  exact scale_eq _ _ (add_nonneg (add_nonneg (lane_nonneg _) (lane_nonneg _)) (lane_nonneg _)) 1536 (by norm_num)
    w1536 rfl

end Row

end Cert.GradeNorm.RowAlgebra

namespace Cert.GradeNorm

open Idealize.ShloMosaic Idealize.ShloMosaic.ValueIdx RowAlgebra

/-- The two arrangements of a sample's row agree at every blade and feature. -/
theorem rowK_eq_rowR (xr : Fin 8 → Fin 512 → EReal) (W : Fin 4 → Fin 512 → Fin 512 → EReal) (bias : Fin 512 → EReal)
    (sp : Fin 64 → Fin 512 → EReal) (k : Fin 8) (f : Fin 512) :
    rowK xr W bias sp k f = rowR xr W bias sp k f := by
  match k with
  | 0 => exact one_blade xr W bias sp 0 0 grade_sum0 rfl f
  | 1 => exact three_blade xr W bias sp 1 1 2 3 1 grade_sum1 rfl f
  | 2 => exact three_blade xr W bias sp 2 1 2 3 1 grade_sum1 rfl f
  | 3 => exact three_blade xr W bias sp 3 1 2 3 1 grade_sum1 rfl f
  | 4 => exact three_blade xr W bias sp 4 4 5 6 2 grade_sum2 rfl f
  | 5 => exact three_blade xr W bias sp 5 4 5 6 2 grade_sum2 rfl f
  | 6 => exact three_blade xr W bias sp 6 4 5 6 2 grade_sum2 rfl f
  | 7 => exact one_blade xr W bias sp 7 3 grade_sum3 rfl f

/-- The two result arrays agree. -/
theorem GK_eq_GR (x : FVec Ideal SX .f32) (w : FVec Ideal SW .f32) (b : FVec Ideal SB .f32) (gp : FVec Ideal SG .f32) :
    GK x w b gp = GR x w b gp := by
  funext i
  exact rowK_eq_rowR (xrow x (i 1)) (wmat w) (bvec b) (spw gp) (i 0) (i 2)

end Cert.GradeNorm

end
-- ==== Proof.LibIndexedRows.lean ====
/-
  Reading a row gather, an accumulating row scatter and a joined pair of flat arrays at one index.

  A table T has N rows and F columns; a list of E start indices, each a machine word read as a signed integer,
  names rows of it.

  Gather. The gathered array has one row per start index: its entry (e, f) is T (r, f), where r is the e-th start
  index clamped into [0, N - 1] (a negative index reads row 0, an index past the end reads the last row). The
  flat version (a table with N entries and no columns) is the same statement without f.

  Accumulating scatter. Update row e is added to the table's row whose number is the e-th start index; an index
  that is not a row number (negative, or N and above) adds nowhere. Row e keeps its columns: entry (e, q) of the
  updates lands on (n, f) exactly when the index is n and q = f. So entry (n, f) of the result is the table's
  entry plus the sum, over the updates e whose index is n, of the update's entry (e, f). The sum is over the
  extended reals, where addition is commutative and associative, so no finiteness is needed.

  Joining. Two flat arrays u (length a) and v (length b) joined end to end: position j < a reads u j, position
  a + k reads v k.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

/-- Update rows [E, F] scattered into a table [N, F] through start indices [E, 1]: entry (e, q) of the updates
    lands on (n, f) exactly when its start index, read signed, is n and the column is kept, q = f. -/
theorem resultIdx_rows {N F E w : Nat} (d : ScatterDims ⟨2, ![N, F]⟩ ⟨2, ![E, 1]⟩ ⟨2, ![E, F]⟩)
    (h1 : d.updateWindowDims = [1]) (h2 : d.insertedWindowDims = [0]) (h3 : d.scatterDimsToOperandDims = [0])
    (h4 : d.indexVectorDim = 1) (idx : IVec ⟨2, ![E, 1]⟩ w) (e : Fin E) (q : Fin F) (n : Fin N) (f : Fin F) :
    d.resultIdx? (ix2 e q) idx = some (ix2 n f) ↔ (idx (ix2 e 0)).toInt = (n.val : Int) ∧ q = f := by
  obtain ⟨uw, iw, sd, iv, wf⟩ := d
  simp only at h1 h2 h3 h4
  subst h1 h2 h3 h4
  have hs0 : ScatterDims.start ⟨[1], [0], [0], 1, wf⟩ (ix2 e q) idx 0 = (idx (ix2 e 0)).toInt := by
    unfold ScatterDims.start
    rw [dif_pos (by simp)]
    congr 2
    funext b
    match b with
    | ⟨0, _⟩ => rfl
    | ⟨1, _⟩ => rfl
  have hs1 : ScatterDims.start ⟨[1], [0], [0], 1, wf⟩ (ix2 e q) idx 1 = 0 := by
    unfold ScatterDims.start
    rw [dif_neg (by simp)]
  have hw0 : ScatterDims.window ⟨[1], [0], [0], 1, wf⟩ (ix2 e q) 0 = 0 := by
    unfold ScatterDims.window
    rw [dif_neg (by simp [ScatterDims.sKept, Shape.kept])]
  have hw1 : ScatterDims.window ⟨[1], [0], [0], 1, wf⟩ (ix2 e q) 1 = q.val := by
    unfold ScatterDims.window
    rw [dif_pos (by simp [ScatterDims.sKept, Shape.kept])]
    rfl
  unfold ScatterDims.resultIdx?
  constructor
  · intro h
    split at h
    · rename_i hc
      have hc0 := hc 0
      rw [hs0, hw0] at hc0
      have e0 := congrArg Fin.val (congrFun (Option.some.inj h) 0)
      have e1 := congrArg Fin.val (congrFun (Option.some.inj h) 1)
      simp only [hs0, hw0] at e0
      simp only [hs1, hw1] at e1
      have hN : (n.val : Int) < (N : Int) := by exact_mod_cast n.isLt
      refine ⟨?_, Fin.ext ?_⟩
      · change ((idx (ix2 e 0)).toInt + ((0 : Nat) : Int)).toNat = n.val at e0
        change 0 ≤ (idx (ix2 e 0)).toInt + ((0 : Nat) : Int) ∧ _ at hc0
        omega
      · change ((0 : Int) + ((q.val : Nat) : Int)).toNat = f.val at e1
        omega
    · exact absurd h (by simp)
  · rintro ⟨h, rfl⟩
    refine (dif_pos ?_).trans ?_
    · intro a
      match a with
      | ⟨0, _⟩ =>
        have := n.isLt
        show 0 ≤ ScatterDims.start ⟨[1], [0], [0], 1, wf⟩ (ix2 e q) idx 0 + ((ScatterDims.window ⟨[1], [0], [0], 1, wf⟩ (ix2 e q) 0 : Nat) : Int)
          ∧ ScatterDims.start ⟨[1], [0], [0], 1, wf⟩ (ix2 e q) idx 0 + ((ScatterDims.window ⟨[1], [0], [0], 1, wf⟩ (ix2 e q) 0 : Nat) : Int) < (N : Int)
        rw [hs0, hw0]
        omega
      | ⟨1, _⟩ =>
        have := q.isLt
        show 0 ≤ ScatterDims.start ⟨[1], [0], [0], 1, wf⟩ (ix2 e q) idx 1 + ((ScatterDims.window ⟨[1], [0], [0], 1, wf⟩ (ix2 e q) 1 : Nat) : Int)
          ∧ ScatterDims.start ⟨[1], [0], [0], 1, wf⟩ (ix2 e q) idx 1 + ((ScatterDims.window ⟨[1], [0], [0], 1, wf⟩ (ix2 e q) 1 : Nat) : Int) < (F : Int)
        rw [hs1, hw1]
        omega
    · congr 1
      funext a
      match a with
      | ⟨0, _⟩ =>
        apply Fin.ext
        show (ScatterDims.start ⟨[1], [0], [0], 1, wf⟩ (ix2 e q) idx 0 + ((ScatterDims.window ⟨[1], [0], [0], 1, wf⟩ (ix2 e q) 0 : Nat) : Int)).toNat = n.val
        rw [hs0, hw0]
        omega
      | ⟨1, _⟩ =>
        apply Fin.ext
        show (ScatterDims.start ⟨[1], [0], [0], 1, wf⟩ (ix2 e q) idx 1 + ((ScatterDims.window ⟨[1], [0], [0], 1, wf⟩ (ix2 e q) 1 : Nat) : Int)).toNat = q.val
        rw [hs1, hw1]
        omega

/-- Entry (n, f) of an accumulating row scatter: the table's entry plus the sum, over the updates whose start
    index is n, of the update's entry in column f. -/
theorem hostScatterAdd_rows_apply {N F E w : Nat} (d : ScatterDims ⟨2, ![N, F]⟩ ⟨2, ![E, 1]⟩ ⟨2, ![E, F]⟩)
    (h1 : d.updateWindowDims = [1]) (h2 : d.insertedWindowDims = [0]) (h3 : d.scatterDimsToOperandDims = [0])
    (h4 : d.indexVectorDim = 1) (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd d x idx upd (ix2 n f)
      = x (ix2 n f) + ∑ e ∈ Finset.univ.filter (fun e : Fin E => (idx (ix2 e 0)).toInt = (n.val : Int)), upd (ix2 e f) := by
  unfold Ideal.hostScatterAdd
  congr 1
  have key : ∀ j : (⟨2, ![E, F]⟩ : Shape).Idx, d.resultIdx? j idx = some (ix2 n f) ↔
      (idx (ix2 (j 0 : Fin E) 0)).toInt = (n.val : Int) ∧ (j 1 : Fin F) = f := fun j => by
    conv_lhs => rw [eq_ix2 j]
    exact resultIdx_rows d h1 h2 h3 h4 idx _ _ n f
  refine Finset.sum_nbij' (fun j => (j 0 : Fin E)) (fun e => ix2 e f) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e f)).2 ⟨(Finset.mem_filter.1 he).2, rfl⟩⟩
  · intro j hj
    have hf := ((key j).1 (Finset.mem_filter.1 hj).2).2
    show ix2 (j 0 : Fin E) f = j
    rw [← hf]
    exact (eq_ix2 j).symm
  · intro e _
    rfl
  · intro j hj
    have hf := ((key j).1 (Finset.mem_filter.1 hj).2).2
    show upd j = upd (ix2 (j 0 : Fin E) f)
    rw [← hf]
    exact congrArg upd (eq_ix2 j)

/-- The row a start index selects: read signed, clamped into [0, N - 1]. -/
def clampRow (N : Nat) (hN : 0 < N) {w : Nat} (v : BitVec w) : Fin N := ⟨min v.toInt.toNat (N - 1), by omega⟩

/-- Entry (e, f) of a row gather: the table's entry in column f of the row the e-th start index selects. -/
theorem rowGather_apply {N F E w : Nat} (hN : 0 < N) {α : Type} (g : GatherDims ⟨2, ![N, F]⟩ ⟨2, ![E, 1]⟩ ⟨2, ![E, F]⟩)
    (h1 : g.offsetDims = [1]) (h2 : g.collapsedSliceDims = [0]) (h3 : g.operandBatchingDims = [])
    (h4 : g.startIndexMap = [0]) (h5 : g.indexVectorDim = 1) (h6 : g.sliceSizes = ![1, F])
    (T : (⟨2, ![N, F]⟩ : Shape).Idx → α) (idx : IVec ⟨2, ![E, 1]⟩ w) (e : Fin E) (f : Fin F) :
    Host.gather g T idx (ix2 e f) = T (ix2 (clampRow N hN (idx (ix2 e 0))) f) := by
  obtain ⟨od, cd, ob, sb, sm, iv, ss, wf⟩ := g
  simp only at h1 h2 h3 h4 h5 h6
  subst h1 h2 h3 h4 h5 h6
  unfold Host.gather
  congr 1
  funext a
  refine Fin.ext ?_
  match a with
  | ⟨0, _⟩ =>
    show GatherDims.start (⟨[1], [0], [], sb, [0], 1, ![1, F], wf⟩ : GatherDims ⟨2, ![N, F]⟩ ⟨2, ![E, 1]⟩ ⟨2, ![E, F]⟩) (ix2 e f) idx 0
      + GatherDims.batchCoord (⟨[1], [0], [], sb, [0], 1, ![1, F], wf⟩ : GatherDims ⟨2, ![N, F]⟩ ⟨2, ![E, 1]⟩ ⟨2, ![E, F]⟩) (ix2 e f) 0
      + GatherDims.offCoord (⟨[1], [0], [], sb, [0], 1, ![1, F], wf⟩ : GatherDims ⟨2, ![N, F]⟩ ⟨2, ![E, 1]⟩ ⟨2, ![E, F]⟩) (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], sb, [0], 1, ![1, F], wf⟩ : GatherDims ⟨2, ![N, F]⟩ ⟨2, ![E, 1]⟩ ⟨2, ![E, F]⟩) (ix2 e f)
        ⟨List.idxOf (0 : Fin 2) [0], List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show GatherDims.start (⟨[1], [0], [], sb, [0], 1, ![1, F], wf⟩ : GatherDims ⟨2, ![N, F]⟩ ⟨2, ![E, 1]⟩ ⟨2, ![E, F]⟩) (ix2 e f) idx 1
      + GatherDims.batchCoord (⟨[1], [0], [], sb, [0], 1, ![1, F], wf⟩ : GatherDims ⟨2, ![N, F]⟩ ⟨2, ![E, 1]⟩ ⟨2, ![E, F]⟩) (ix2 e f) 1
      + GatherDims.offCoord (⟨[1], [0], [], sb, [0], 1, ![1, F], wf⟩ : GatherDims ⟨2, ![N, F]⟩ ⟨2, ![E, 1]⟩ ⟨2, ![E, F]⟩) (ix2 e f) 1 = f.val
    rw [GatherDims.batchCoord_eq_zero _ _ _ List.not_mem_nil]
    unfold GatherDims.start
    rw [dif_neg (by simp)]
    unfold GatherDims.offCoord
    rw [dif_pos (by simp [GatherDims.sKept, Shape.kept])]
    simp only [Nat.zero_add, Nat.add_zero]
    rfl

/-- Entry e of a flat gather: the table's entry at the position the e-th start index selects. -/
theorem flatGather_apply {N E w : Nat} (hN : 0 < N) {α : Type} (g : GatherDims ⟨1, ![N]⟩ ⟨2, ![E, 1]⟩ ⟨1, ![E]⟩)
    (h1 : g.offsetDims = []) (h2 : g.collapsedSliceDims = [0]) (h3 : g.operandBatchingDims = [])
    (h4 : g.startIndexMap = [0]) (h5 : g.indexVectorDim = 1) (h6 : g.sliceSizes = ![1])
    (T : (⟨1, ![N]⟩ : Shape).Idx → α) (idx : IVec ⟨2, ![E, 1]⟩ w) (e : Fin E) :
    Host.gather g T idx (ix1 e) = T (ix1 (clampRow N hN (idx (ix2 e 0)))) := by
  obtain ⟨od, cd, ob, sb, sm, iv, ss, wf⟩ := g
  simp only at h1 h2 h3 h4 h5 h6
  subst h1 h2 h3 h4 h5 h6
  unfold Host.gather
  congr 1
  funext a
  obtain rfl : a = 0 := Subsingleton.elim _ _
  refine Fin.ext ?_
  show GatherDims.start (⟨[], [0], [], sb, [0], 1, ![1], wf⟩ : GatherDims ⟨1, ![N]⟩ ⟨2, ![E, 1]⟩ ⟨1, ![E]⟩) (ix1 e) idx 0
    + GatherDims.batchCoord (⟨[], [0], [], sb, [0], 1, ![1], wf⟩ : GatherDims ⟨1, ![N]⟩ ⟨2, ![E, 1]⟩ ⟨1, ![E]⟩) (ix1 e) 0
    + GatherDims.offCoord (⟨[], [0], [], sb, [0], 1, ![1], wf⟩ : GatherDims ⟨1, ![N]⟩ ⟨2, ![E, 1]⟩ ⟨1, ![E]⟩) (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : GatherDims.siIdx (⟨[], [0], [], sb, [0], 1, ![1], wf⟩ : GatherDims ⟨1, ![N]⟩ ⟨2, ![E, 1]⟩ ⟨1, ![E]⟩) (ix1 e)
      ⟨List.idxOf (0 : Fin 1) [0], List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Two flat arrays joined end to end, read at a position j inside the first: the first array's entry j. -/
theorem concat1_apply_left {a b c : Nat} {α : Type} (u : (⟨1, ![a]⟩ : Shape).Idx → α) (v : (⟨1, ![b]⟩ : Shape).Idx → α)
    (h : Shape.Concatenates [⟨1, ![a]⟩, ⟨1, ![b]⟩] ⟨1, ![c]⟩ 0) (j : Fin c) (k : Fin a) (hk : j.val = k.val) :
    concatenate ⟨1, ![c]⟩ 0 [⟨⟨1, ![a]⟩, u⟩, ⟨⟨1, ![b]⟩, v⟩] h (ix1 j) = u (ix1 k) :=
  concatenate_pair_apply_left 0 u v h (ix1 j) rfl (ix1 k) fun ax => by
    match ax with
    | ⟨0, _⟩ => exact hk.symm

/-- … and read at position a + k, past the first array: the second array's entry k. -/
theorem concat1_apply_right {a b c : Nat} {α : Type} (u : (⟨1, ![a]⟩ : Shape).Idx → α) (v : (⟨1, ![b]⟩ : Shape).Idx → α)
    (h : Shape.Concatenates [⟨1, ![a]⟩, ⟨1, ![b]⟩] ⟨1, ![c]⟩ 0) (j : Fin c) (k : Fin b) (hk : j.val = a + k.val) :
    concatenate ⟨1, ![c]⟩ 0 [⟨⟨1, ![a]⟩, u⟩, ⟨⟨1, ![b]⟩, v⟩] h (ix1 j) = v (ix1 k) :=
  concatenate_pair_apply_right 0 u v h (ix1 j) rfl rfl (ix1 k)
    (fun ax hax => by
      match ax, hax with
      | ⟨0, _⟩, hax => exact absurd rfl hax)
    (by show k.val + a = j.val; omega)

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.KernelHost.lean ====
/-
  The two arrays the host prepares before the fused layer runs, read at an index.

  The signed path-weight table: row e of the 64 Cayley terms, feature f, holds sign e * gp (f, path e). The program
  builds it by transposing the [512, 20] weight array, gathering row path e of the transpose for each term e (the start
  indices are the literal path table; the select that would shift negative indices by 20 has an all-false mask, so it
  keeps the table as it is, and every entry is already a row number below 20, so the clamp changes nothing), spreading
  the literal sign table over the features and multiplying. The weight matrices: the change of float format is the
  identity on extended reals, so the converted array is the argument itself.
-/
import proofs.«174987_j30442728194568_2_alg».proof.Proof.Gen.KernelIdeal.Frame.Runs
import proofs.«174987_j30442728194568_2_alg».proof.Proof.Spec
import proofs.«174987_j30442728194568_2_alg».proof.Proof.LibIndexedRows
import proofs.«174987_j30442728194568_2_alg».proof.Proof.LibHostSpread
import Idealize.ShloMosaic.Lib.ValueIdx
import Idealize.ShloMosaic.Lib.ValueLayout
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Cert.GradeNorm

/-! ## The literal tables -/

/-- A position of the flat 64-entry layout is its one coordinate. -/
theorem flat64 (e : Fin 64) : (S64.rowMajor (ix1 e) : Fin 64) = e := Fin.ext (Shape.rowMajor_val_one _)

/-- The program's literal sign table is the specification's. -/
theorem sign_lit : ∀ e : Fin 64, lit1 e = signW e := by decide +kernel

/-- The program's literal path table, each entry read as a signed row number and clamped into the 20 rows, is the
    specification's: every entry is already a row number. -/
theorem path_lit : ∀ e : Fin 64, Cert.Lib.clampRow 20 (by decide) (lit0 e) = pathT e := by decide +kernel

/-! ## The signed path-weight table at an index -/

/-- The host's operations on the [512, 20] weight array gp, read at (e, f): sign e * gp (f, path e). -/
theorem spath_apply (gp : FVec Ideal S512x20 .f32) (e : Fin 64) (f : Fin 512) :
    mulf (broadcastInDim S64x512 ![0, 1] bcast_S64x1_S64x512_0_1
        (broadcastInDim S64x1 ![0] bcast_S64_S64x1_0 (fun i => (FloatOps.ofBits .f32 (lit1 (S64.rowMajor i)) : Ideal .f32))))
      (Host.gather gather_S20x512_S64x1_S64x512_1_0_n_n_0_1_1512
        (transpose S20x512 [1, 0] gp transposes_S512x20_S20x512_1_0)
        (broadcastInDim S64x1 ![0] bcast_S64_S64x1_0
          (select (constantI S64 1 0#1)
            (addi (fun i => lit0 (S64.rowMajor i)) (broadcastInDim S64 ![] bcast_S_S64 (constantI S_ 32 20#32)))
            (fun i => lit0 (S64.rowMajor i))))) (ix2 e f)
      = spw gp e f := by
  have hs : broadcastInDim S64x512 ![0, 1] bcast_S64x1_S64x512_0_1
        (broadcastInDim S64x1 ![0] bcast_S64_S64x1_0 (fun i => (FloatOps.ofBits .f32 (lit1 (S64.rowMajor i)) : Ideal .f32))) (ix2 e f)
      = Ideal.ofBits .f32 (signW e) := by
    rw [Cert.Lib.spread_a1_ab_apply, Cert.Lib.spread_a_a1_apply]
    show Ideal.ofBits .f32 (lit1 (S64.rowMajor (ix1 e))) = _
    rw [flat64, sign_lit]
  have hi : broadcastInDim S64x1 ![0] bcast_S64_S64x1_0
          (select (constantI S64 1 0#1)
            (addi (fun i => lit0 (S64.rowMajor i)) (broadcastInDim S64 ![] bcast_S_S64 (constantI S_ 32 20#32)))
            (fun i => lit0 (S64.rowMajor i))) (ix2 e (0 : Fin 1)) = lit0 e := by
    rw [Cert.Lib.spread_a_a1_apply, select_apply, constantI_apply, select_zero, flat64]
  have hg : Host.gather gather_S20x512_S64x1_S64x512_1_0_n_n_0_1_1512
        (transpose S20x512 [1, 0] gp transposes_S512x20_S20x512_1_0)
        (broadcastInDim S64x1 ![0] bcast_S64_S64x1_0
          (select (constantI S64 1 0#1)
            (addi (fun i => lit0 (S64.rowMajor i)) (broadcastInDim S64 ![] bcast_S_S64 (constantI S_ 32 20#32)))
            (fun i => lit0 (S64.rowMajor i)))) (ix2 e f) = gp (ix2 f (pathT e)) := by
    rw [Cert.Lib.rowGather_apply (by decide : 0 < 20) _ rfl rfl rfl rfl rfl rfl, hi, path_lit, transpose_ix2_apply]
  rw [mulf_apply, hs, hg]
  rfl

variable (m : (ℓ : Loc nD τ sig) → Buf (Elt Ideal) ℓ)

/-- The path-weight window's array, as the fused layer finds it, is the specification's signed path weights of the
    fourth argument. -/
theorem V_spath_apply (c : Dev nD) (e : Fin 64) (f : Fin 512) :
    (V m c main_v8 : S64x512.Idx → EReal) (ix2 e f) = spw (m ((c.tc : Thread nD τ).loc main_arg3)) e f := by
  have h : (V m c main_v8 : S64x512.Idx → EReal) = mulf (broadcastInDim S64x512 ![0, 1] bcast_S64x1_S64x512_0_1
        (broadcastInDim S64x1 ![0] bcast_S64_S64x1_0 (fun i => (FloatOps.ofBits .f32 (lit1 (S64.rowMajor i)) : Ideal .f32))))
      (Host.gather gather_S20x512_S64x1_S64x512_1_0_n_n_0_1_1512
        (transpose S20x512 [1, 0] (m ((c.tc : Thread nD τ).loc main_arg3)) transposes_S512x20_S20x512_1_0)
        (broadcastInDim S64x1 ![0] bcast_S64_S64x1_0
          (select (constantI S64 1 0#1)
            (addi (fun i => lit0 (S64.rowMajor i)) (broadcastInDim S64 ![] bcast_S_S64 (constantI S_ 32 20#32)))
            (fun i => lit0 (S64.rowMajor i))))) := by
    dsimp only [Gen.V, Gen.hostOps0]; after_results; rfl
  rw [h]
  exact spath_apply (m ((c.tc : Thread nD τ).loc main_arg3)) e f

/-- The weight window's array, as the fused layer finds it, is the second argument. -/
theorem V_weights_apply (c : Dev nD) (y : S4x512x512.Idx) :
    (V m c main_v9 : S4x512x512.Idx → EReal) y = (m ((c.tc : Thread nD τ).loc main_arg1) : S4x512x512.Idx → EReal) y := by
  have h : (V m c main_v9 : S4x512x512.Idx → EReal) = truncf (F := Ideal) .bf16 (m ((c.tc : Thread nD τ).loc main_arg1)) bitsLt_bf16_f32 := by
    dsimp only [Gen.V, Gen.hostOps0]; after_results
  rw [h]
  rfl

end Cert.KernelIdeal.KValue

end
-- ==== Proof.KernelArray.lean ====
/-
  The fused layer's run as one function of the argument arrays.

  The layer is computed over a grid of 16 points; point t reads samples 256 t … 256 t + 255 of the input (all eight
  blades, all 512 features), the whole weight array, bias row and signed path-weight table, and writes the same samples
  of the result. A row of the result depends on the same row of the input only, so if what a point leaves in its block
  is the first arrangement over that block of 256 samples (the hypothesis of the last theorem), then what it writes
  back is block t of the first arrangement over the whole arrays; sample r lies in the block of point r / 256, so the
  16 blocks cover the result, which therefore ends as the first arrangement of the arguments; the arguments end
  unchanged.
-/
import proofs.«174987_j30442728194568_2_alg».proof.Proof.Gen.KernelIdeal.Value
import proofs.«174987_j30442728194568_2_alg».proof.Proof.Spec
import proofs.«174987_j30442728194568_2_alg».proof.Proof.KernelHost
import Idealize.ShloMosaic.Lib.ValueIdx
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

open Cert.GradeNorm

variable (m : (ℓ : Loc nD τ sig) → Buf (Elt Ideal) ℓ) (ρ : Dev nD → PrngReg)

/-- The per-block statement the array is assembled from: what the body leaves in the output's block is the first
    arrangement over the block of 256 samples. -/
abbrev BlockValue : Prop := ∀ (c : Dev nD) (i : grid0.Coords) (arg1 : Memref sig .tc .vmem S8x256x512 .f32) (harg1 : arg1.IsWhole) (arg2 : Memref sig .tc .vmem S4x512x512 .bf16) (harg2 : arg2.IsWhole) (arg3 : Memref sig .tc .vmem S1x1x512 .f32) (harg3 : arg3.IsWhole) (arg4 : Memref sig .tc .vmem S64x512 .f32) (harg4 : arg4.IsWhole) (arg5 : Memref sig .tc .vmem S8x256x512 .f32) (harg5 : arg5.IsWhole) (arg6 : Memref sig .tc .vmem S8x256x512 .f32) (harg6 : arg6.IsWhole)
        (x0 : Vec Ideal S8x256x512 .f32) (x1 : Vec Ideal S4x512x512 .bf16) (x2 : Vec Ideal S1x1x512 .f32) (x3 : Vec Ideal S64x512 .f32),
        out0_A_4 (F := Ideal) c i arg1 harg1 arg2 harg2 arg3 harg3 arg4 harg4 arg5 harg5 arg6 harg6 x0 x1 x2 x3 = Cert.GradeNorm.blockK x0 x1 x2 x3

/-! ## One block inside the array -/

/-- Block T of the first arrangement is the first arrangement of block T: a row of the result depends on the same
    row of the input only, so when the block's input rows are the array's rows 256 T + p, its weights, bias and path
    weights the array's, entry (k, p, q) of the block is entry (k, 256 T + p, q) of the array. -/
theorem block_at (x : FVec Ideal SX .f32) (w : FVec Ideal SW .f32) (b : FVec Ideal SB .f32) (gp : FVec Ideal SG .f32)
    (x0 : FVec Ideal SXb .f32) (x1 : FVec Ideal SW .bf16) (x2 : FVec Ideal SB .f32) (x3 : FVec Ideal SP .f32) (T : Nat)
    (h0 : ∀ (y : SXb.Idx) (k : SX.Idx), (k 0).val = (y 0).val → (k 1).val = 256 * T + (y 1).val → (k 2).val = (y 2).val → x0 y = x k)
    (h1 : ∀ y : SW.Idx, x1 y = w y) (h2 : ∀ y : SB.Idx, x2 y = b y)
    (h3 : ∀ (e : Fin 64) (f : Fin 512), x3 (ix2 e f) = spw gp e f)
    (y : SXb.Idx) (k : SX.Idx) (hk0 : (k 0).val = (y 0).val) (hk1 : (k 1).val = 256 * T + (y 1).val) (hk2 : (k 2).val = (y 2).val) :
    blockK x0 x1 x2 x3 y = GK x w b gp k := by
  obtain ⟨a, p, q, rfl⟩ : ∃ (a : Fin 8) (p : Fin 256) (q : Fin 512), y = ix3 a p q := ⟨y 0, y 1, y 2, eq_ix3 y⟩
  obtain ⟨a', r, q', rfl⟩ : ∃ (a' : Fin 8) (r : Fin 4096) (q' : Fin 512), k = ix3 a' r q' := ⟨k 0, k 1, k 2, eq_ix3 k⟩
  obtain rfl : a' = a := Fin.ext hk0
  obtain rfl : q' = q := Fin.ext hk2
  have hr : r.val = 256 * T + p.val := hk1
  rw [blockK_apply, GK_apply]
  have e0 : (fun (j : Fin 8) (i : Fin 512) => x0 (ix3 j p i)) = xrow x r :=
    funext fun j => funext fun i => h0 (ix3 j p i) (ix3 j r i) rfl hr rfl
  have e1 : (fun (g : Fin 4) (i o : Fin 512) => x1 (ix3 g i o)) = wmat w :=
    funext fun g => funext fun i => funext fun o => h1 (ix3 g i o)
  have e2 : (fun (o : Fin 512) => x2 (ix3 (0 : Fin 1) (0 : Fin 1) o)) = bvec b :=
    funext fun o => h2 (ix3 (0 : Fin 1) (0 : Fin 1) o)
  have e3 : (fun (e : Fin 64) (f : Fin 512) => x3 (ix2 e f)) = spw gp :=
    funext fun e => funext fun f => h3 e f
  rw [e0, e1, e2, e3]

/-! ## The windows' blocks inside their arrays -/

/-- The printed index maps over the 16 grid points: the input and the output move along the sample axis with the
    point, one block per point; the weights, the bias and the path weights stay at block zero. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-- The input's block at point t is samples 256 t … 256 t + 255 of the first argument. -/
theorem iblk0_apply (c : Dev nD) (t : Fin cfg0.N) (y : S8x256x512.Idx) (k : S8x4096x512.Idx)
    (hk0 : (k 0).val = (y 0).val) (hk1 : (k 1).val = 256 * t.val + (y 1).val) (hk2 : (k 2).val = (y 2).val) :
    (iblk m c 0 t : Vec Ideal S8x256x512 .f32) y = (m ((c.tc : Thread nD τ).loc main_arg0) : S8x4096x512.Idx → EReal) k := by
  obtain ⟨e00, e01, e02, -⟩ := idx_facts t
  unfold iblk
  rw [View.read_apply]
  show V m c main_arg0 _ = m ((c.tc : Thread nD τ).loc main_arg0) _
  rw [V_main_arg0]
  congr 1
  funext a
  apply Fin.ext
  match a with
  | ⟨0, _⟩ => show win0_0.index t (0 : Fin 3) * 8 + 1 * (y 0).val = (k 0).val; rw [e00, hk0]; omega
  | ⟨1, _⟩ => show win0_0.index t (1 : Fin 3) * 256 + 1 * (y 1).val = (k 1).val; rw [e01, hk1]; omega
  | ⟨2, _⟩ => show win0_0.index t (2 : Fin 3) * 512 + 1 * (y 2).val = (k 2).val; rw [e02, hk2]; omega

/-- The weights' block at every point is the whole second argument. -/
theorem iblk1_apply (c : Dev nD) (t : Fin cfg0.N) (y : S4x512x512.Idx) :
    (iblk m c 1 t : Vec Ideal S4x512x512 .bf16) y = (m ((c.tc : Thread nD τ).loc main_arg1) : S4x512x512.Idx → EReal) y := by
  obtain ⟨-, -, -, e10, e11, e12, -⟩ := idx_facts t
  unfold iblk
  rw [View.read_apply]
  show (V m c main_v9 : S4x512x512.Idx → EReal) _ = _
  rw [V_weights_apply]
  congr 1
  funext a
  apply Fin.ext
  match a with
  | ⟨0, _⟩ => show win0_1.index t (0 : Fin 3) * 4 + 1 * (y 0).val = (y 0).val; rw [e10]; omega
  | ⟨1, _⟩ => show win0_1.index t (1 : Fin 3) * 512 + 1 * (y 1).val = (y 1).val; rw [e11]; omega
  | ⟨2, _⟩ => show win0_1.index t (2 : Fin 3) * 512 + 1 * (y 2).val = (y 2).val; rw [e12]; omega

/-- The bias's block at every point is the whole third argument. -/
theorem iblk2_apply (c : Dev nD) (t : Fin cfg0.N) (y : S1x1x512.Idx) :
    (iblk m c 2 t : Vec Ideal S1x1x512 .f32) y = (m ((c.tc : Thread nD τ).loc main_arg2) : S1x1x512.Idx → EReal) y := by
  obtain ⟨-, -, -, -, -, -, e20, e21, e22, -⟩ := idx_facts t
  unfold iblk
  rw [View.read_apply]
  show V m c main_arg2 _ = m ((c.tc : Thread nD τ).loc main_arg2) _
  rw [V_main_arg2]
  congr 1
  funext a
  apply Fin.ext
  match a with
  | ⟨0, _⟩ => show win0_2.index t (0 : Fin 3) * 1 + 1 * (y 0).val = (y 0).val; rw [e20]; omega
  | ⟨1, _⟩ => show win0_2.index t (1 : Fin 3) * 1 + 1 * (y 1).val = (y 1).val; rw [e21]; omega
  | ⟨2, _⟩ => show win0_2.index t (2 : Fin 3) * 512 + 1 * (y 2).val = (y 2).val; rw [e22]; omega

/-- The path weights' block at every point is the whole table the host prepared: the signed path weights of the
    fourth argument. -/
theorem iblk3_apply (c : Dev nD) (t : Fin cfg0.N) (e : Fin 64) (f : Fin 512) :
    (iblk m c 3 t : Vec Ideal S64x512 .f32) (ix2 e f) = spw (m ((c.tc : Thread nD τ).loc main_arg3)) e f := by
  obtain ⟨-, -, -, -, -, -, -, -, -, e30, e31, -⟩ := idx_facts t
  unfold iblk
  rw [View.read_apply]
  show (V m c main_v8 : S64x512.Idx → EReal) _ = _
  rw [← V_spath_apply m c e f]
  congr 1
  funext a
  apply Fin.ext
  match a with
  | ⟨0, _⟩ => show win0_3.index t (0 : Fin 2) * 64 + 1 * e.val = e.val; rw [e30]; omega
  | ⟨1, _⟩ => show win0_3.index t (1 : Fin 2) * 512 + 1 * f.val = f.val; rw [e31]; omega

/-! ## What a point writes back, the cover, the array -/

/-- What point t writes back is block t of the first arrangement of the argument arrays. -/
theorem flushed_eq (hblk : BlockValue) (c : Dev nD) (t : Fin cfg0.N) :
    (dats m 0 c).flushed 4 t = ((cfg0.win 4).blk t).view.read (Elt Ideal)
      (GK (m ((c.tc : Thread nD τ).loc main_arg0)) (m ((c.tc : Thread nD τ).loc main_arg1))
        (m ((c.tc : Thread nD τ).loc main_arg2)) (m ((c.tc : Thread nD τ).loc main_arg3))) := by
  obtain ⟨-, -, -, -, -, -, -, -, -, -, -, e40, e41, e42⟩ := idx_facts t
  rw [Value.flushed4_A,
    hblk c (grid0.coords t) (ms0_0 t) (hs0_0 t) (ms0_1 t) (hs0_1 t) (ms0_2 t) (hs0_2 t) (ms0_3 t) (hs0_3 t) (ms0_4 t) (hs0_4 t)
      scM0_0 (Memref.isWhole_whole _) (iblk m c 0 t) (iblk m c 1 t) (iblk m c 2 t) (iblk m c 3 t)]
  funext y
  rw [View.read_apply]
  show blockK (iblk m c 0 t) (iblk m c 1 t) (iblk m c 2 t) (iblk m c 3 t) ((cfg0.win 4).xinj (grid0.coords t) y)
    = GK _ _ _ _ (((cfg0.win 4).blk t).view.emb y)
  refine block_at _ _ _ _ (iblk m c 0 t) (iblk m c 1 t) (iblk m c 2 t) (iblk m c 3 t) t.val
    (fun y k h0 h1 h2 => iblk0_apply m c t y k h0 h1 h2) (fun y => iblk1_apply m c t y) (fun y => iblk2_apply m c t y)
    (fun e f => iblk3_apply m c t e f) _ _ ?_ ?_ ?_
  · show win0_4.index t (0 : Fin 3) * 8 + 1 * (y 0).val = (y 0).val; rw [e40]; omega
  · show win0_4.index t (1 : Fin 3) * 256 + 1 * (y 1).val = 256 * t.val + (y 1).val; rw [e41]; omega
  · show win0_4.index t (2 : Fin 3) * 512 + 1 * (y 2).val = (y 2).val; rw [e42]; omega

/-- An index of the result array is in point t's block iff each coordinate is in the block's range on its axis. -/
theorem mem_blk (t : Fin cfg0.N) (i : S8x4096x512.Idx) :
    i ∈ ((cfg0.win 4).blk t).view.set ↔ ∀ a : Fin 3, win0_4.index t a * S8x256x512.size a ≤ (i a).val
      ∧ (i a).val < win0_4.index t a * S8x256x512.size a + S8x256x512.size a := by
  show i ∈ ((View.whole main_v10).slice (win0_4.rect t)).set ↔ _
  rw [View.set_slice_whole, Rect.mem_set_unit]
  exact Iff.rfl

/-- Every sample r of the result is in the block of point r / 256. -/
theorem covered (i : S8x4096x512.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 512 := (i 2).isLt
  have hN : cfg0.N = 16 := N_0
  have ht : (i 1).val / 256 < cfg0.N := by rw [hN]; omega
  obtain ⟨-, -, -, -, -, -, -, -, -, -, -, e40, e41, e42⟩ := idx_facts ⟨(i 1).val / 256, ht⟩
  refine ⟨⟨(i 1).val / 256, ht⟩, flush0_4 _, ?_⟩
  rw [mem_blk]
  intro a
  match a with
  | ⟨0, _⟩ =>
    show win0_4.index ⟨(i 1).val / 256, ht⟩ (0 : Fin 3) * 8 ≤ (i 0).val ∧ (i 0).val < win0_4.index ⟨(i 1).val / 256, ht⟩ (0 : Fin 3) * 8 + 8
    rw [e40]; omega
  | ⟨1, _⟩ =>
    show win0_4.index ⟨(i 1).val / 256, ht⟩ (1 : Fin 3) * 256 ≤ (i 1).val ∧ (i 1).val < win0_4.index ⟨(i 1).val / 256, ht⟩ (1 : Fin 3) * 256 + 256
    rw [e41]; show (i 1).val / 256 * 256 ≤ (i 1).val ∧ (i 1).val < (i 1).val / 256 * 256 + 256; omega
  | ⟨2, _⟩ =>
    show win0_4.index ⟨(i 1).val / 256, ht⟩ (2 : Fin 3) * 512 ≤ (i 2).val ∧ (i 2).val < win0_4.index ⟨(i 1).val / 256, ht⟩ (2 : Fin 3) * 512 + 512
    rw [e42]; omega

/-- The result array after the run is the first arrangement of the argument arrays. -/
theorem final (hblk : BlockValue) (c : Dev nD) :
    (dats m 0 c).arrAt 4 cfg0.N = GK (m ((c.tc : Thread nD τ).loc main_arg0)) (m ((c.tc : Thread nD τ).loc main_arg1))
        (m ((c.tc : Thread nD τ).loc main_arg2)) (m ((c.tc : Thread nD τ).loc main_arg3)) :=
  (dats m 0 c).arrAt_eq_of_cover 4 _ (fun t _ => flushed_eq m hblk c t) covered

/-! ## The run -/

theorem run_of_block
    (hblk : ∀ (c : Dev nD) (i : grid0.Coords) (arg1 : Memref sig .tc .vmem S8x256x512 .f32) (harg1 : arg1.IsWhole) (arg2 : Memref sig .tc .vmem S4x512x512 .bf16) (harg2 : arg2.IsWhole) (arg3 : Memref sig .tc .vmem S1x1x512 .f32) (harg3 : arg3.IsWhole) (arg4 : Memref sig .tc .vmem S64x512 .f32) (harg4 : arg4.IsWhole) (arg5 : Memref sig .tc .vmem S8x256x512 .f32) (harg5 : arg5.IsWhole) (arg6 : Memref sig .tc .vmem S8x256x512 .f32) (harg6 : arg6.IsWhole)
        (x0 : Vec Ideal S8x256x512 .f32) (x1 : Vec Ideal S4x512x512 .bf16) (x2 : Vec Ideal S1x1x512 .f32) (x3 : Vec Ideal S64x512 .f32),
        out0_A_4 (F := Ideal) c i arg1 harg1 arg2 harg2 arg3 harg3 arg4 harg4 arg5 harg5 arg6 harg6 x0 x1 x2 x3 = Cert.GradeNorm.blockK x0 x1 x2 x3)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10)
          = Cert.GradeNorm.GK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final m hblk c), (h c).2⟩) (Value.run_blocks m ρ)

end Cert.KernelIdeal.KValue

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibHeadLayout.lean ====
/-
  Three readings at an index that a kernel's head meets when a matrix product with a one-column matrix is written as a
  broadcast multiply and a sum over the lanes.

  * The sum over the lanes of a [a, b] block, started from zero, read at row p, is the sum over k of the block's entries
    (p, k): over the extended reals a reduction from the neutral element is the plain finite sum.
  * A one-column matrix [a, 1] recast as a row [1, a] reads, at (·, q), the column's entry (q, 0): the recast keeps the
    row-major order, and both shapes list the same a numbers in it.
  * A one-entry vector recast as a one-entry matrix reads its entry.
-/
import Idealize.ShloMosaic.Lib.Pipeline.Value
import Idealize.ShloMosaic.Lib.ValueIdx
import Idealize.ShloMosaic.PureOps.Ideal.Laws

noncomputable section

namespace Cert.Lib

open Idealize.ShloMosaic Idealize.ShloMosaic.ValueIdx

/-- Summing the lanes of an [a, b] array from zero: at row p the result is the sum over k of the entries (p, k). -/
theorem lane_sum_zero_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  refine Finset.sum_congr rfl fun k _ => congrArg src ?_
  funext c; apply Fin.ext
  fin_cases c <;> rfl

variable {α : Type}

/-- An [a, 1] column recast as a [1, a] row reads, at (u, q), the column at (q, 0). -/
theorem shapeCast_a1_1a_apply {a : ℕ} (x : (⟨2, ![a, 1]⟩ : Shape).Idx → α) (h : (⟨2, ![a, 1]⟩ : Shape).ShapeCasts ⟨2, ![1, a]⟩)
    (u : Fin 1) (q : Fin a) : shapeCast ⟨2, ![1, a]⟩ x h (ix2 u q) = x (ix2 q (0 : Fin 1)) :=
  shapeCast_apply x h _ _ (by
    have hu : u.val = 0 := by omega
    rw [Shape.rowMajor_val_two, Shape.rowMajor_val_two]
    show q.val * 1 + 0 = u.val * a + q.val
    rw [hu, Nat.zero_mul, Nat.zero_add, Nat.mul_one, Nat.add_zero])

/-- A one-entry vector recast as a [1, 1] matrix reads, everywhere, its entry. -/
theorem shapeCast_1_11_apply (x : (⟨1, ![1]⟩ : Shape).Idx → α) (h : (⟨1, ![1]⟩ : Shape).ShapeCasts ⟨2, ![1, 1]⟩)
    (u w : Fin 1) : shapeCast ⟨2, ![1, 1]⟩ x h (ix2 u w) = x (ix1 (0 : Fin 1)) :=
  shapeCast_apply x h _ _ (by
    have hu : u.val = 0 := by omega
    have hw : w.val = 0 := by omega
    rw [Shape.rowMajor_val_one, Shape.rowMajor_val_two]
    show 0 = u.val * 1 + w.val
    rw [hu, hw])

end Cert.Lib

end
-- ==== Proof.KernelOps.lean ====
/-
  The idealized kernel body's vector operations read at an index, on the extended reals, for the shapes of one block
  of 256 samples, and where its loads read:
  * the matrix product of a [256,512] block with a [512,512] matrix into zero is the sum over the contracted feature;
    the bias block cast to a vector; pointwise tanh and reciprocal root; the sum over the lanes of a [256,512] block;
  * a unit rectangle that selects slab k of an [8,256,512] block (matrix g of the weights, row e of the path table)
    places the index (u,p,q) at (k,p,q);
  * the accumulator scratch holds 8 slabs: after a list of slab stores a load of slab k reads the latest store into
    slab k, and after the one store that fills the whole block it reads that block's slab k;
  * the named reciprocal count is the rational 1/1536.
-/
import proofs.«174987_j30442728194568_2_alg».proof.Proof.Gen.KernelIdeal.Frame
import proofs.«174987_j30442728194568_2_alg».proof.Proof.Spec
import proofs.«174987_j30442728194568_2_alg».proof.Proof.LibPlainMatmul
import proofs.«174987_j30442728194568_2_alg».proof.Proof.LibColumnLayout
import proofs.«174987_j30442728194568_2_alg».proof.Proof.LibHeadLayout
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.KValue

open Cert.KernelIdeal Cert.KernelIdeal.Gen Idealize.ShloMosaic Idealize.ShloMosaic.ValueIdx

/-! ## The vector operations at an index -/

/-- The body's product record is the plain [256,512] x [512,512] one. -/
theorem dot_plain : dot_S256x512_S512x512_S256x512_1_0_0_1_n_n = DotDims.plain 256 512 512 := rfl

/-- Entry (p, q) of the block's product with a weight matrix, accumulated into zero: the sum over the feature c. -/
theorem matmul_at {φ₁ φ₂ : FTy} (A : FVec Ideal S256x512 φ₁) (B : FVec Ideal S512x512 φ₂) (p : Fin 256) (q : Fin 512) :
    matmul dot_S256x512_S512x512_S256x512_1_0_0_1_n_n none A B (constant (F := Ideal) S256x512 .f32 0x00000000#32) (ix2 p q)
      = ∑ c : Fin 512, A (ix2 p c) * B (ix2 c q) := by
  rw [dot_plain]; exact Cert.Lib.matmul_plain_zero_apply none A B p q

/-- The [1,1,512] bias block cast to a vector reads its entry (0,0,q). -/
theorem shapeCast_11a_a_apply {α : Type} (x : S1x1x512.Idx → α) (h : S1x1x512.ShapeCasts S512) (q : Fin 512) :
    shapeCast S512 x h (ix1 q) = x (ix3 (0 : Fin 1) (0 : Fin 1) q) :=
  shapeCast_apply x h _ _ (by
    rw [Shape.rowMajor_val_three, Shape.rowMajor_val_one]
    show (0 * 1 + 0) * 512 + q.val = q.val
    omega)

theorem tanh_apply {s : Shape} {φ : FTy} (a : FVec Ideal s φ) (i : s.Idx) : tanh a i = Ideal.tanh (a i) := rfl
theorem rsqrt_apply {s : Shape} {φ : FTy} (a : FVec Ideal s φ) (i : s.Idx) : rsqrt a i = Ideal.rsqrt (a i) := rfl

/-- The sum of a [256,512] block's lanes from zero, at row p: the sum over the features (stated with the body's own
    evidence terms for the format and the zero word, so that it applies to the body's reductions as they stand). -/
theorem lane_at (src : FVec Ideal S256x512 .f32) (h : S256x512.Reduces [1] S256) (p : Fin 256) :
    multiReduction .add [1] S256 src 0x00000000#32 h Cert.KernelIdeal.k0_part33._proof_2 Cert.KernelIdeal.k0_part33._proof_3 (ix1 p)
      = ∑ k : Fin 512, src (ix2 p k) :=
  Cert.Lib.lane_sum_zero_apply src h _ _ p

/-- The exact sum over the lanes of a [256,512] block, at row p. -/
theorem reduce_at (x : FVec Ideal S256x512 .f32) (h : S256x512.Reduces [1] S256) (p : Fin 256) :
    Ideal.reduceAdd h x (ix1 p) = ∑ k : Fin 512, x (ix2 p k) :=
  lane_at x h p

/-- The body's named reciprocal count is the rational 1/1536. -/
theorem inv_n : Named.named (F := Ideal) Cert.KernelIdeal.κ "inv_1536" (φ := .f32) 0x3A2AAAAB#32 = ((1 / 1536 : ℝ) : EReal) :=
  IdealRules.named_const.ideal_named_scalar _ _ _ _ rfl

/-! ## Where a unit rectangle of a block places an index -/

theorem idx_slab (k : Nat)
    (inb : ∀ a, (![k, 0, 0] : Fin 3 → Nat) a + (![1, 256, 512] : Fin 3 → Nat) a ≤ S8x256x512.size a)
    (u : Fin 1) (p : Fin 256) (q : Fin 512) :
    (Rect.unit (s := S8x256x512) ![k, 0, 0] ![1, 256, 512] inb).idx (ix3 u p q)
      = ix3 (⟨k, by have := inb 0; simp at this; omega⟩ : Fin 8) p q := by
  funext a; apply Fin.ext
  match a with
  | ⟨0, _⟩ => show k + 1 * u.val = k; omega
  | ⟨1, _⟩ => show 0 + 1 * p.val = p.val; omega
  | ⟨2, _⟩ => show 0 + 1 * q.val = q.val; omega

theorem idx_mat (g : Nat)
    (inb : ∀ a, (![g, 0, 0] : Fin 3 → Nat) a + (![1, 512, 512] : Fin 3 → Nat) a ≤ S4x512x512.size a)
    (u : Fin 1) (a' : Fin 512) (b : Fin 512) :
    (Rect.unit (s := S4x512x512) ![g, 0, 0] ![1, 512, 512] inb).idx (ix3 u a' b)
      = ix3 (⟨g, by have := inb 0; simp at this; omega⟩ : Fin 4) a' b := by
  funext a; apply Fin.ext
  match a with
  | ⟨0, _⟩ => show g + 1 * u.val = g; omega
  | ⟨1, _⟩ => show 0 + 1 * a'.val = a'.val; omega
  | ⟨2, _⟩ => show 0 + 1 * b.val = b.val; omega

theorem idx_bias
    (inb : ∀ a, (![0, 0, 0] : Fin 3 → Nat) a + (![1, 1, 512] : Fin 3 → Nat) a ≤ S1x1x512.size a)
    (u v : Fin 1) (q : Fin 512) :
    (Rect.unit (s := S1x1x512) ![0, 0, 0] ![1, 1, 512] inb).idx (ix3 u v q) = ix3 (0 : Fin 1) (0 : Fin 1) q := by
  funext a; apply Fin.ext
  match a with
  | ⟨0, _⟩ => show 0 + 1 * u.val = 0; omega
  | ⟨1, _⟩ => show 0 + 1 * v.val = 0; omega
  | ⟨2, _⟩ => show 0 + 1 * q.val = q.val; omega

theorem idx_row (r : Nat)
    (inb : ∀ a, (![r, 0] : Fin 2 → Nat) a + (![1, 512] : Fin 2 → Nat) a ≤ S64x512.size a)
    (u : Fin 1) (q : Fin 512) :
    (Rect.unit (s := S64x512) ![r, 0] ![1, 512] inb).idx (ix2 u q)
      = ix2 (⟨r, by have := inb 0; simp at this; omega⟩ : Fin 64) q := by
  funext a; apply Fin.ext
  match a with
  | ⟨0, _⟩ => show r + 1 * u.val = r; omega
  | ⟨1, _⟩ => show 0 + 1 * q.val = q.val; omega

/-! ## Loads from the accumulator scratch after a list of slab stores -/

theorem hz3 : (![0, 0, 0] : Fin 3 → Nat) = fun _ => 0 := funext fun a => by fin_cases a <;> rfl

/-- A load of slab k right after a store into slab k reads what was stored. -/
theorem readCov_hit {κ : Kind} {sp : Space} (v : View sig κ sp S8x256x512 .f32) (k : Nat)
    (inb inb' : ∀ a, (![k, 0, 0] : Fin 3 → Nat) a + (![1, 256, 512] : Fin 3 → Nat) a ≤ S8x256x512.size a)
    (w : (Rect.unit (s := S8x256x512) ![k, 0, 0] ![1, 256, 512] inb).shape.Idx → Elt Ideal .f32)
    (L : List (View.Piece (Elt Ideal) S8x256x512 .f32)) :
    v.readCov (⟨Rect.unit (s := S8x256x512) ![k, 0, 0] ![1, 256, 512] inb, w⟩ :: L)
        (Rect.unit (s := S8x256x512) ![k, 0, 0] ![1, 256, 512] inb').toLoadRect = w :=
  View.readCov_cons_toLoadRect v _ w L

/-- A load of slab k after a store into another slab reads what the earlier stores left. -/
theorem readCov_skip {κ : Kind} {sp : Space} (v : View sig κ sp S8x256x512 .f32) (k k' : Nat) (hne : k ≠ k')
    (inb : ∀ a, (![k, 0, 0] : Fin 3 → Nat) a + (![1, 256, 512] : Fin 3 → Nat) a ≤ S8x256x512.size a)
    (inb' : ∀ a, (![k', 0, 0] : Fin 3 → Nat) a + (![1, 256, 512] : Fin 3 → Nat) a ≤ S8x256x512.size a)
    (w : (Rect.unit (s := S8x256x512) ![k', 0, 0] ![1, 256, 512] inb').shape.Idx → Elt Ideal .f32)
    (L : List (View.Piece (Elt Ideal) S8x256x512 .f32)) :
    v.readCov (⟨Rect.unit (s := S8x256x512) ![k', 0, 0] ![1, 256, 512] inb', w⟩ :: L)
        (Rect.unit (s := S8x256x512) ![k, 0, 0] ![1, 256, 512] inb).toLoadRect
      = v.readCov L (Rect.unit (s := S8x256x512) ![k, 0, 0] ![1, 256, 512] inb).toLoadRect :=
  View.readCov_cons_of_disjoint v _ L _ (Rect.unit_disjoint (s := S8x256x512) (inb := inb') (inb' := inb) (0 : Fin 3) (by
    show k' + 1 ≤ k ∨ k + 1 ≤ k'
    omega))

/-- A load of slab k from the scratch filled by one store of the whole block reads the block's slab k. -/
theorem readCov_fill {κ : Kind} {sp : Space} (v : View sig κ sp S8x256x512 .f32) (k : Nat)
    (inb : ∀ a, (![k, 0, 0] : Fin 3 → Nat) a + (![1, 256, 512] : Fin 3 → Nat) a ≤ S8x256x512.size a)
    (inb0 : ∀ a, (![0, 0, 0] : Fin 3 → Nat) a + (![8, 256, 512] : Fin 3 → Nat) a ≤ S8x256x512.size a)
    (w : S8x256x512.Idx → Elt Ideal .f32) (u : Fin 1) (p : Fin 256) (q : Fin 512) :
    v.readCov [(⟨Rect.unit (s := S8x256x512) ![0, 0, 0] ![8, 256, 512] inb0, w⟩ : View.Piece (Elt Ideal) S8x256x512 .f32)]
        (Rect.unit (s := S8x256x512) ![k, 0, 0] ![1, 256, 512] inb).toLoadRect (ix3 u p q)
      = w (ix3 (⟨k, by have := inb 0; simp at this; omega⟩ : Fin 8) p q) := by
  rw [View.readCov_eq_canon']
  show View.canon [(⟨Rect.unit (s := S8x256x512) ![0, 0, 0] S8x256x512.size inb0, w⟩ : View.Piece (Elt Ideal) S8x256x512 .f32)] _ = _
  rw [View.canon_unit_zero hz3]
  exact congrArg w (idx_slab k inb u p q)

/-! ## Reading a value of the body's run at an index -/

open Lean Elab Tactic Meta in
/-- `simp only`, side conditions on literals by `decide`, with every named intermediate value of the body's symbolic
    run and every payload definition of the body unfolded, and the given lemmas. -/
elab "run_simp" "[" ls:Lean.Parser.Tactic.simpLemma,* "]" : tactic => do
  let env ← getEnv
  let runPre := `Cert.KernelIdeal.Gen.kernelRun0_A.sl
  let genNs := `Cert.KernelIdeal.Gen
  let mut ids : Array (TSyntax `Lean.Parser.Tactic.simpLemma) := #[]
  for (n, ci) in env.constants.map₁.toList do
    let isPay := match n with
      | .str p s => p == genNs && s.startsWith "k0_pay"
      | _ => false
    if runPre.isPrefixOf n || isPay then
      if let .defnInfo _ := ci then
        let id := mkIdent n
        ids := ids.push (← `(Lean.Parser.Tactic.simpLemma| $id:ident))
  let all := ids ++ ls.getElems
  evalTactic (← `(tactic| simp (disch := decide) only [$all,*]))

end Cert.KernelIdeal.KValue

end
-- ==== Proof.KernelPiece0.lean ====
/-
  Slab 0 of the block the idealized kernel body leaves (the scalar blade): at sample p and feature q it is blade 0 of the
  row in the kernel's arrangement — the eight Cayley terms of blade 0 added in the order of the right factor from
  zero, times the reciprocal root of the grade's mean square plus the small constant — of the input block's sample p,
  the four weight matrices, the bias row and the 64 signed path-weight rows.
-/
import proofs.«174987_j30442728194568_2_alg».proof.Proof.KernelOps

set_option maxRecDepth 16384

noncomputable section

namespace Cert.KernelIdeal.KValue

open Cert.KernelIdeal Cert.KernelIdeal.Gen Idealize.ShloMosaic Idealize.ShloMosaic.ValueIdx

theorem piece0 (c : Dev nD) (i : grid0.Coords) (arg1 : Memref sig .tc .vmem S8x256x512 .f32) (harg1 : arg1.IsWhole) (arg2 : Memref sig .tc .vmem S4x512x512 .bf16) (harg2 : arg2.IsWhole) (arg3 : Memref sig .tc .vmem S1x1x512 .f32) (harg3 : arg3.IsWhole) (arg4 : Memref sig .tc .vmem S64x512 .f32) (harg4 : arg4.IsWhole) (arg5 : Memref sig .tc .vmem S8x256x512 .f32) (harg5 : arg5.IsWhole) (arg6 : Memref sig .tc .vmem S8x256x512 .f32) (harg6 : arg6.IsWhole)
    (x0 : Vec Ideal S8x256x512 .f32) (x1 : Vec Ideal S4x512x512 .bf16) (x2 : Vec Ideal S1x1x512 .f32) (x3 : Vec Ideal S64x512 .f32) (u : Fin 1) (p : Fin 256) (q : Fin 512) :
    (kernelRun0_A.sl.v1098 (F := Ideal) c arg1 harg1 arg2 harg2 arg3 harg3 arg4 harg4 arg6 x0 x1 x2 x3) (ix3 u p q)
      = Cert.GradeNorm.rowK (fun j q' => x0 (ix3 j p q')) (fun g a o => x1 (ix3 g a o))
          (fun o => x2 (ix3 (0 : Fin 1) (0 : Fin 1) o)) (fun e f => x3 (ix2 e f)) 0 q := by
  run_simp [mulf_apply, addf_apply, tanh_apply, rsqrt_apply, broadcast_apply, truncf_apply, matmul_at, shapeCast_1ab_ab_apply, shapeCast_ab_1ab_apply,
    shapeCast_11a_a_apply, shapeCast_a_1a_apply, shapeCast_1a_a_apply, broadcastTo_1b_ab_apply, View.readAt_eq_ld, Memref.IsWhole.read_unread,
    View.ld, idx_slab, idx_mat, idx_bias, idx_row, Ideal.ofBits_def, readCov_hit, readCov_skip, readCov_fill, shapeCast_self,
    Cert.Lib.shapeCast_a_a1_apply, Cert.Lib.broadcastTo_a1_ab_apply, multiReduction, Ideal.reduceAdd_def, reduce_at, inv_n, Scalar.ofBits, Ideal.ofBits_zero_f32]
  rfl

end Cert.KernelIdeal.KValue

end
-- ==== Proof.KernelPiece1.lean ====
/-
  Slab 1 of the block the idealized kernel body leaves (the first vector blade): at sample p and feature q it is blade 1 of the
  row in the kernel's arrangement — the eight Cayley terms of blade 1 added in the order of the right factor from
  zero, times the reciprocal root of the grade's mean square plus the small constant — of the input block's sample p,
  the four weight matrices, the bias row and the 64 signed path-weight rows.
-/
import proofs.«174987_j30442728194568_2_alg».proof.Proof.KernelOps

set_option maxRecDepth 16384

noncomputable section

namespace Cert.KernelIdeal.KValue

open Cert.KernelIdeal Cert.KernelIdeal.Gen Idealize.ShloMosaic Idealize.ShloMosaic.ValueIdx

theorem piece1 (c : Dev nD) (i : grid0.Coords) (arg1 : Memref sig .tc .vmem S8x256x512 .f32) (harg1 : arg1.IsWhole) (arg2 : Memref sig .tc .vmem S4x512x512 .bf16) (harg2 : arg2.IsWhole) (arg3 : Memref sig .tc .vmem S1x1x512 .f32) (harg3 : arg3.IsWhole) (arg4 : Memref sig .tc .vmem S64x512 .f32) (harg4 : arg4.IsWhole) (arg5 : Memref sig .tc .vmem S8x256x512 .f32) (harg5 : arg5.IsWhole) (arg6 : Memref sig .tc .vmem S8x256x512 .f32) (harg6 : arg6.IsWhole)
    (x0 : Vec Ideal S8x256x512 .f32) (x1 : Vec Ideal S4x512x512 .bf16) (x2 : Vec Ideal S1x1x512 .f32) (x3 : Vec Ideal S64x512 .f32) (u : Fin 1) (p : Fin 256) (q : Fin 512) :
    (kernelRun0_A.sl.v1135 (F := Ideal) c arg1 harg1 arg2 harg2 arg3 harg3 arg4 harg4 arg6 x0 x1 x2 x3) (ix3 u p q)
      = Cert.GradeNorm.rowK (fun j q' => x0 (ix3 j p q')) (fun g a o => x1 (ix3 g a o))
          (fun o => x2 (ix3 (0 : Fin 1) (0 : Fin 1) o)) (fun e f => x3 (ix2 e f)) 1 q := by
  run_simp [mulf_apply, addf_apply, tanh_apply, rsqrt_apply, broadcast_apply, truncf_apply, matmul_at, shapeCast_1ab_ab_apply, shapeCast_ab_1ab_apply,
    shapeCast_11a_a_apply, shapeCast_a_1a_apply, shapeCast_1a_a_apply, broadcastTo_1b_ab_apply, View.readAt_eq_ld, Memref.IsWhole.read_unread,
    View.ld, idx_slab, idx_mat, idx_bias, idx_row, Ideal.ofBits_def, readCov_hit, readCov_skip, readCov_fill, shapeCast_self,
    Cert.Lib.shapeCast_a_a1_apply, Cert.Lib.broadcastTo_a1_ab_apply, multiReduction, Ideal.reduceAdd_def, reduce_at, inv_n, Scalar.ofBits, Ideal.ofBits_zero_f32]
  rfl

end Cert.KernelIdeal.KValue

end
-- ==== Proof.KernelPiece2.lean ====
/-
  Slab 2 of the block the idealized kernel body leaves (the second vector blade): at sample p and feature q it is blade 2 of the
  row in the kernel's arrangement — the eight Cayley terms of blade 2 added in the order of the right factor from
  zero, times the reciprocal root of the grade's mean square plus the small constant — of the input block's sample p,
  the four weight matrices, the bias row and the 64 signed path-weight rows.
-/
import proofs.«174987_j30442728194568_2_alg».proof.Proof.KernelOps

set_option maxRecDepth 16384

noncomputable section

namespace Cert.KernelIdeal.KValue

open Cert.KernelIdeal Cert.KernelIdeal.Gen Idealize.ShloMosaic Idealize.ShloMosaic.ValueIdx

theorem piece2 (c : Dev nD) (i : grid0.Coords) (arg1 : Memref sig .tc .vmem S8x256x512 .f32) (harg1 : arg1.IsWhole) (arg2 : Memref sig .tc .vmem S4x512x512 .bf16) (harg2 : arg2.IsWhole) (arg3 : Memref sig .tc .vmem S1x1x512 .f32) (harg3 : arg3.IsWhole) (arg4 : Memref sig .tc .vmem S64x512 .f32) (harg4 : arg4.IsWhole) (arg5 : Memref sig .tc .vmem S8x256x512 .f32) (harg5 : arg5.IsWhole) (arg6 : Memref sig .tc .vmem S8x256x512 .f32) (harg6 : arg6.IsWhole)
    (x0 : Vec Ideal S8x256x512 .f32) (x1 : Vec Ideal S4x512x512 .bf16) (x2 : Vec Ideal S1x1x512 .f32) (x3 : Vec Ideal S64x512 .f32) (u : Fin 1) (p : Fin 256) (q : Fin 512) :
    (kernelRun0_A.sl.v1142 (F := Ideal) c arg1 harg1 arg2 harg2 arg3 harg3 arg4 harg4 arg6 x0 x1 x2 x3) (ix3 u p q)
      = Cert.GradeNorm.rowK (fun j q' => x0 (ix3 j p q')) (fun g a o => x1 (ix3 g a o))
          (fun o => x2 (ix3 (0 : Fin 1) (0 : Fin 1) o)) (fun e f => x3 (ix2 e f)) 2 q := by
  run_simp [mulf_apply, addf_apply, tanh_apply, rsqrt_apply, broadcast_apply, truncf_apply, matmul_at, shapeCast_1ab_ab_apply, shapeCast_ab_1ab_apply,
    shapeCast_11a_a_apply, shapeCast_a_1a_apply, shapeCast_1a_a_apply, broadcastTo_1b_ab_apply, View.readAt_eq_ld, Memref.IsWhole.read_unread,
    View.ld, idx_slab, idx_mat, idx_bias, idx_row, Ideal.ofBits_def, readCov_hit, readCov_skip, readCov_fill, shapeCast_self,
    Cert.Lib.shapeCast_a_a1_apply, Cert.Lib.broadcastTo_a1_ab_apply, multiReduction, Ideal.reduceAdd_def, reduce_at, inv_n, Scalar.ofBits, Ideal.ofBits_zero_f32]
  rfl

end Cert.KernelIdeal.KValue

end
-- ==== Proof.KernelPiece3.lean ====
/-
  Slab 3 of the block the idealized kernel body leaves (the third vector blade): at sample p and feature q it is blade 3 of the
  row in the kernel's arrangement — the eight Cayley terms of blade 3 added in the order of the right factor from
  zero, times the reciprocal root of the grade's mean square plus the small constant — of the input block's sample p,
  the four weight matrices, the bias row and the 64 signed path-weight rows.
-/
import proofs.«174987_j30442728194568_2_alg».proof.Proof.KernelOps

set_option maxRecDepth 16384

noncomputable section

namespace Cert.KernelIdeal.KValue

open Cert.KernelIdeal Cert.KernelIdeal.Gen Idealize.ShloMosaic Idealize.ShloMosaic.ValueIdx

theorem piece3 (c : Dev nD) (i : grid0.Coords) (arg1 : Memref sig .tc .vmem S8x256x512 .f32) (harg1 : arg1.IsWhole) (arg2 : Memref sig .tc .vmem S4x512x512 .bf16) (harg2 : arg2.IsWhole) (arg3 : Memref sig .tc .vmem S1x1x512 .f32) (harg3 : arg3.IsWhole) (arg4 : Memref sig .tc .vmem S64x512 .f32) (harg4 : arg4.IsWhole) (arg5 : Memref sig .tc .vmem S8x256x512 .f32) (harg5 : arg5.IsWhole) (arg6 : Memref sig .tc .vmem S8x256x512 .f32) (harg6 : arg6.IsWhole)
    (x0 : Vec Ideal S8x256x512 .f32) (x1 : Vec Ideal S4x512x512 .bf16) (x2 : Vec Ideal S1x1x512 .f32) (x3 : Vec Ideal S64x512 .f32) (u : Fin 1) (p : Fin 256) (q : Fin 512) :
    (kernelRun0_A.sl.v1149 (F := Ideal) c arg1 harg1 arg2 harg2 arg3 harg3 arg4 harg4 arg6 x0 x1 x2 x3) (ix3 u p q)
      = Cert.GradeNorm.rowK (fun j q' => x0 (ix3 j p q')) (fun g a o => x1 (ix3 g a o))
          (fun o => x2 (ix3 (0 : Fin 1) (0 : Fin 1) o)) (fun e f => x3 (ix2 e f)) 3 q := by
  run_simp [mulf_apply, addf_apply, tanh_apply, rsqrt_apply, broadcast_apply, truncf_apply, matmul_at, shapeCast_1ab_ab_apply, shapeCast_ab_1ab_apply,
    shapeCast_11a_a_apply, shapeCast_a_1a_apply, shapeCast_1a_a_apply, broadcastTo_1b_ab_apply, View.readAt_eq_ld, Memref.IsWhole.read_unread,
    View.ld, idx_slab, idx_mat, idx_bias, idx_row, Ideal.ofBits_def, readCov_hit, readCov_skip, readCov_fill, shapeCast_self,
    Cert.Lib.shapeCast_a_a1_apply, Cert.Lib.broadcastTo_a1_ab_apply, multiReduction, Ideal.reduceAdd_def, reduce_at, inv_n, Scalar.ofBits, Ideal.ofBits_zero_f32]
  rfl

end Cert.KernelIdeal.KValue

end
-- ==== Proof.KernelPiece4.lean ====
/-
  Slab 4 of the block the idealized kernel body leaves (the first bivector blade): at sample p and feature q it is blade 4 of the
  row in the kernel's arrangement — the eight Cayley terms of blade 4 added in the order of the right factor from
  zero, times the reciprocal root of the grade's mean square plus the small constant — of the input block's sample p,
  the four weight matrices, the bias row and the 64 signed path-weight rows.
-/
import proofs.«174987_j30442728194568_2_alg».proof.Proof.KernelOps

set_option maxRecDepth 16384

noncomputable section

namespace Cert.KernelIdeal.KValue

open Cert.KernelIdeal Cert.KernelIdeal.Gen Idealize.ShloMosaic Idealize.ShloMosaic.ValueIdx

theorem piece4 (c : Dev nD) (i : grid0.Coords) (arg1 : Memref sig .tc .vmem S8x256x512 .f32) (harg1 : arg1.IsWhole) (arg2 : Memref sig .tc .vmem S4x512x512 .bf16) (harg2 : arg2.IsWhole) (arg3 : Memref sig .tc .vmem S1x1x512 .f32) (harg3 : arg3.IsWhole) (arg4 : Memref sig .tc .vmem S64x512 .f32) (harg4 : arg4.IsWhole) (arg5 : Memref sig .tc .vmem S8x256x512 .f32) (harg5 : arg5.IsWhole) (arg6 : Memref sig .tc .vmem S8x256x512 .f32) (harg6 : arg6.IsWhole)
    (x0 : Vec Ideal S8x256x512 .f32) (x1 : Vec Ideal S4x512x512 .bf16) (x2 : Vec Ideal S1x1x512 .f32) (x3 : Vec Ideal S64x512 .f32) (u : Fin 1) (p : Fin 256) (q : Fin 512) :
    (k0_pay127 (F := Ideal) (kernelRun0_A.sl.v1158 (F := Ideal) c arg1 harg1 arg2 harg2 arg3 harg3 arg4 harg4 arg6 x0 x1 x2 x3) (kernelRun0_A.sl.v1160 (F := Ideal) c arg1 harg1 arg2 harg2 arg3 harg3 arg4 harg4 arg6 x0 x1 x2 x3) (kernelRun0_A.sl.v1161 (F := Ideal) c arg1 harg1 arg2 harg2 arg3 harg3 arg4 harg4 arg6 x0 x1 x2 x3) (kernelRun0_A.sl.v1167 (F := Ideal) c arg1 harg1 arg2 harg2 arg3 harg3 arg4 harg4 arg6 x0 x1 x2 x3) (kernelRun0_A.sl.v1167 (F := Ideal) c arg1 harg1 arg2 harg2 arg3 harg3 arg4 harg4 arg6 x0 x1 x2 x3) (kernelRun0_A.sl.v1180 (F := Ideal) c arg1 harg1 arg2 harg2 arg3 harg3 arg4 harg4 arg6 x0 x1 x2 x3)) (ix3 u p q)
      = Cert.GradeNorm.rowK (fun j q' => x0 (ix3 j p q')) (fun g a o => x1 (ix3 g a o))
          (fun o => x2 (ix3 (0 : Fin 1) (0 : Fin 1) o)) (fun e f => x3 (ix2 e f)) 4 q := by
  run_simp [mulf_apply, addf_apply, tanh_apply, rsqrt_apply, broadcast_apply, truncf_apply, matmul_at, shapeCast_1ab_ab_apply, shapeCast_ab_1ab_apply,
    shapeCast_11a_a_apply, shapeCast_a_1a_apply, shapeCast_1a_a_apply, broadcastTo_1b_ab_apply, View.readAt_eq_ld, Memref.IsWhole.read_unread,
    View.ld, idx_slab, idx_mat, idx_bias, idx_row, Ideal.ofBits_def, readCov_hit, readCov_skip, readCov_fill, shapeCast_self,
    Cert.Lib.shapeCast_a_a1_apply, Cert.Lib.broadcastTo_a1_ab_apply, multiReduction, Ideal.reduceAdd_def, reduce_at, inv_n, Scalar.ofBits, Ideal.ofBits_zero_f32]
  rfl

end Cert.KernelIdeal.KValue

end
-- ==== Proof.KernelPiece5.lean ====
/-
  Slab 5 of the block the idealized kernel body leaves (the second bivector blade): at sample p and feature q it is blade 5 of the
  row in the kernel's arrangement — the eight Cayley terms of blade 5 added in the order of the right factor from
  zero, times the reciprocal root of the grade's mean square plus the small constant — of the input block's sample p,
  the four weight matrices, the bias row and the 64 signed path-weight rows.
-/
import proofs.«174987_j30442728194568_2_alg».proof.Proof.KernelOps

set_option maxRecDepth 16384

noncomputable section

namespace Cert.KernelIdeal.KValue

open Cert.KernelIdeal Cert.KernelIdeal.Gen Idealize.ShloMosaic Idealize.ShloMosaic.ValueIdx

theorem piece5 (c : Dev nD) (i : grid0.Coords) (arg1 : Memref sig .tc .vmem S8x256x512 .f32) (harg1 : arg1.IsWhole) (arg2 : Memref sig .tc .vmem S4x512x512 .bf16) (harg2 : arg2.IsWhole) (arg3 : Memref sig .tc .vmem S1x1x512 .f32) (harg3 : arg3.IsWhole) (arg4 : Memref sig .tc .vmem S64x512 .f32) (harg4 : arg4.IsWhole) (arg5 : Memref sig .tc .vmem S8x256x512 .f32) (harg5 : arg5.IsWhole) (arg6 : Memref sig .tc .vmem S8x256x512 .f32) (harg6 : arg6.IsWhole)
    (x0 : Vec Ideal S8x256x512 .f32) (x1 : Vec Ideal S4x512x512 .bf16) (x2 : Vec Ideal S1x1x512 .f32) (x3 : Vec Ideal S64x512 .f32) (u : Fin 1) (p : Fin 256) (q : Fin 512) :
    (k0_pay128 (F := Ideal) (kernelRun0_A.sl.v1158 (F := Ideal) c arg1 harg1 arg2 harg2 arg3 harg3 arg4 harg4 arg6 x0 x1 x2 x3) (kernelRun0_A.sl.v1160 (F := Ideal) c arg1 harg1 arg2 harg2 arg3 harg3 arg4 harg4 arg6 x0 x1 x2 x3) (kernelRun0_A.sl.v1161 (F := Ideal) c arg1 harg1 arg2 harg2 arg3 harg3 arg4 harg4 arg6 x0 x1 x2 x3) (kernelRun0_A.sl.v1167 (F := Ideal) c arg1 harg1 arg2 harg2 arg3 harg3 arg4 harg4 arg6 x0 x1 x2 x3) (kernelRun0_A.sl.v1167 (F := Ideal) c arg1 harg1 arg2 harg2 arg3 harg3 arg4 harg4 arg6 x0 x1 x2 x3) (kernelRun0_A.sl.v1161 (F := Ideal) c arg1 harg1 arg2 harg2 arg3 harg3 arg4 harg4 arg6 x0 x1 x2 x3)) (ix3 u p q)
      = Cert.GradeNorm.rowK (fun j q' => x0 (ix3 j p q')) (fun g a o => x1 (ix3 g a o))
          (fun o => x2 (ix3 (0 : Fin 1) (0 : Fin 1) o)) (fun e f => x3 (ix2 e f)) 5 q := by
  run_simp [mulf_apply, addf_apply, tanh_apply, rsqrt_apply, broadcast_apply, truncf_apply, matmul_at, shapeCast_1ab_ab_apply, shapeCast_ab_1ab_apply,
    shapeCast_11a_a_apply, shapeCast_a_1a_apply, shapeCast_1a_a_apply, broadcastTo_1b_ab_apply, View.readAt_eq_ld, Memref.IsWhole.read_unread,
    View.ld, idx_slab, idx_mat, idx_bias, idx_row, Ideal.ofBits_def, readCov_hit, readCov_skip, readCov_fill, shapeCast_self,
    Cert.Lib.shapeCast_a_a1_apply, Cert.Lib.broadcastTo_a1_ab_apply, multiReduction, Ideal.reduceAdd_def, reduce_at, inv_n, Scalar.ofBits, Ideal.ofBits_zero_f32]
  rfl

end Cert.KernelIdeal.KValue

end
-- ==== Proof.KernelPiece6.lean ====
/-
  Slab 6 of the block the idealized kernel body leaves (the third bivector blade): at sample p and feature q it is blade 6 of the
  row in the kernel's arrangement — the eight Cayley terms of blade 6 added in the order of the right factor from
  zero, times the reciprocal root of the grade's mean square plus the small constant — of the input block's sample p,
  the four weight matrices, the bias row and the 64 signed path-weight rows.
-/
import proofs.«174987_j30442728194568_2_alg».proof.Proof.KernelOps

set_option maxRecDepth 16384

noncomputable section

namespace Cert.KernelIdeal.KValue

open Cert.KernelIdeal Cert.KernelIdeal.Gen Idealize.ShloMosaic Idealize.ShloMosaic.ValueIdx

theorem piece6 (c : Dev nD) (i : grid0.Coords) (arg1 : Memref sig .tc .vmem S8x256x512 .f32) (harg1 : arg1.IsWhole) (arg2 : Memref sig .tc .vmem S4x512x512 .bf16) (harg2 : arg2.IsWhole) (arg3 : Memref sig .tc .vmem S1x1x512 .f32) (harg3 : arg3.IsWhole) (arg4 : Memref sig .tc .vmem S64x512 .f32) (harg4 : arg4.IsWhole) (arg5 : Memref sig .tc .vmem S8x256x512 .f32) (harg5 : arg5.IsWhole) (arg6 : Memref sig .tc .vmem S8x256x512 .f32) (harg6 : arg6.IsWhole)
    (x0 : Vec Ideal S8x256x512 .f32) (x1 : Vec Ideal S4x512x512 .bf16) (x2 : Vec Ideal S1x1x512 .f32) (x3 : Vec Ideal S64x512 .f32) (u : Fin 1) (p : Fin 256) (q : Fin 512) :
    (k0_pay129 (F := Ideal) (kernelRun0_A.sl.r_4 (F := Ideal) c arg1 harg1 arg2 harg2 arg3 harg3 arg4 harg4 arg6 x0 x1 x2 x3) (kernelRun0_A.sl.v1167 (F := Ideal) c arg1 harg1 arg2 harg2 arg3 harg3 arg4 harg4 arg6 x0 x1 x2 x3)) (ix3 u p q)
      = Cert.GradeNorm.rowK (fun j q' => x0 (ix3 j p q')) (fun g a o => x1 (ix3 g a o))
          (fun o => x2 (ix3 (0 : Fin 1) (0 : Fin 1) o)) (fun e f => x3 (ix2 e f)) 6 q := by
  run_simp [mulf_apply, addf_apply, tanh_apply, rsqrt_apply, broadcast_apply, truncf_apply, matmul_at, shapeCast_1ab_ab_apply, shapeCast_ab_1ab_apply,
    shapeCast_11a_a_apply, shapeCast_a_1a_apply, shapeCast_1a_a_apply, broadcastTo_1b_ab_apply, View.readAt_eq_ld, Memref.IsWhole.read_unread,
    View.ld, idx_slab, idx_mat, idx_bias, idx_row, Ideal.ofBits_def, readCov_hit, readCov_skip, readCov_fill, shapeCast_self,
    Cert.Lib.shapeCast_a_a1_apply, Cert.Lib.broadcastTo_a1_ab_apply, multiReduction, Ideal.reduceAdd_def, reduce_at, inv_n, Scalar.ofBits, Ideal.ofBits_zero_f32]
  rfl

end Cert.KernelIdeal.KValue

end
-- ==== Proof.KernelPiece7.lean ====
/-
  Slab 7 of the block the idealized kernel body leaves (the pseudoscalar blade): at sample p and feature q it is blade 7 of the
  row in the kernel's arrangement — the eight Cayley terms of blade 7 added in the order of the right factor from
  zero, times the reciprocal root of the grade's mean square plus the small constant — of the input block's sample p,
  the four weight matrices, the bias row and the 64 signed path-weight rows.
-/
import proofs.«174987_j30442728194568_2_alg».proof.Proof.KernelOps

set_option maxRecDepth 16384

noncomputable section

namespace Cert.KernelIdeal.KValue

open Cert.KernelIdeal Cert.KernelIdeal.Gen Idealize.ShloMosaic Idealize.ShloMosaic.ValueIdx

theorem piece7 (c : Dev nD) (i : grid0.Coords) (arg1 : Memref sig .tc .vmem S8x256x512 .f32) (harg1 : arg1.IsWhole) (arg2 : Memref sig .tc .vmem S4x512x512 .bf16) (harg2 : arg2.IsWhole) (arg3 : Memref sig .tc .vmem S1x1x512 .f32) (harg3 : arg3.IsWhole) (arg4 : Memref sig .tc .vmem S64x512 .f32) (harg4 : arg4.IsWhole) (arg5 : Memref sig .tc .vmem S8x256x512 .f32) (harg5 : arg5.IsWhole) (arg6 : Memref sig .tc .vmem S8x256x512 .f32) (harg6 : arg6.IsWhole)
    (x0 : Vec Ideal S8x256x512 .f32) (x1 : Vec Ideal S4x512x512 .bf16) (x2 : Vec Ideal S1x1x512 .f32) (x3 : Vec Ideal S64x512 .f32) (u : Fin 1) (p : Fin 256) (q : Fin 512) :
    (k0_pay1 (F := Ideal) (k0_pay130 (F := Ideal)) (kernelRun0_A.sl.r_5 (F := Ideal) c arg1 harg1 arg2 harg2 arg3 harg3 arg4 harg4 arg6 x0 x1 x2 x3) (kernelRun0_A.sl.v1202 (F := Ideal) c arg1 harg1 arg2 harg2 arg3 harg3 arg4 harg4 arg6 x0 x1 x2 x3) (kernelRun0_A.sl.v1215 (F := Ideal) c arg1 harg1 arg2 harg2 arg3 harg3 arg4 harg4 arg6 x0 x1 x2 x3)) (ix3 u p q)
      = Cert.GradeNorm.rowK (fun j q' => x0 (ix3 j p q')) (fun g a o => x1 (ix3 g a o))
          (fun o => x2 (ix3 (0 : Fin 1) (0 : Fin 1) o)) (fun e f => x3 (ix2 e f)) 7 q := by
  run_simp [mulf_apply, addf_apply, tanh_apply, rsqrt_apply, broadcast_apply, truncf_apply, matmul_at, shapeCast_1ab_ab_apply, shapeCast_ab_1ab_apply,
    shapeCast_11a_a_apply, shapeCast_a_1a_apply, shapeCast_1a_a_apply, broadcastTo_1b_ab_apply, View.readAt_eq_ld, Memref.IsWhole.read_unread,
    View.ld, idx_slab, idx_mat, idx_bias, idx_row, Ideal.ofBits_def, readCov_hit, readCov_skip, readCov_fill, shapeCast_self,
    Cert.Lib.shapeCast_a_a1_apply, Cert.Lib.broadcastTo_a1_ab_apply, multiReduction, Ideal.reduceAdd_def, reduce_at, inv_n, Scalar.ofBits, Ideal.ofBits_zero_f32]
  rfl

end Cert.KernelIdeal.KValue

end
-- ==== Proof.KernelBlock.lean ====
/-
  The block the idealized kernel body leaves in the output's staging buffer is ONE function of the four input blocks:
  the body writes it as eight slabs, one per blade, and slab k at (p, q) is blade k of sample p's row in the kernel's
  arrangement; the eight slabs tile the block, so the block read back is that function at every index.
-/
import proofs.«174987_j30442728194568_2_alg».proof.Proof.KernelPiece0
import proofs.«174987_j30442728194568_2_alg».proof.Proof.KernelPiece1
import proofs.«174987_j30442728194568_2_alg».proof.Proof.KernelPiece2
import proofs.«174987_j30442728194568_2_alg».proof.Proof.KernelPiece3
import proofs.«174987_j30442728194568_2_alg».proof.Proof.KernelPiece4
import proofs.«174987_j30442728194568_2_alg».proof.Proof.KernelPiece5
import proofs.«174987_j30442728194568_2_alg».proof.Proof.KernelPiece6
import proofs.«174987_j30442728194568_2_alg».proof.Proof.KernelPiece7
import Idealize.ShloMosaic.Lib.Pipeline.Value

set_option maxRecDepth 16384

noncomputable section

namespace Cert.KernelIdeal.KValue

open Cert.KernelIdeal Cert.KernelIdeal.Gen Idealize.ShloMosaic Idealize.ShloMosaic.ValueIdx

/-- Where the rectangle of slab k embeds the index (u, p, q) of a [1,256,512] slab: at (k, p, q). -/
theorem emb_slab (k : Nat)
    (inb : ∀ a, (![k, 0, 0] : Fin 3 → Nat) a + (![1, 256, 512] : Fin 3 → Nat) a ≤ S8x256x512.size a)
    (u : Fin 1) (p : Fin 256) (q : Fin 512) :
    (Rect.unit (s := S8x256x512) ![k, 0, 0] ![1, 256, 512] inb).emb (ix3 u p q)
      = ix3 (⟨k, by have := inb 0; simp at this; omega⟩ : Fin 8) p q :=
  idx_slab k inb u p q

theorem out_block (c : Dev nD) (i : grid0.Coords) (arg1 : Memref sig .tc .vmem S8x256x512 .f32) (harg1 : arg1.IsWhole) (arg2 : Memref sig .tc .vmem S4x512x512 .bf16) (harg2 : arg2.IsWhole) (arg3 : Memref sig .tc .vmem S1x1x512 .f32) (harg3 : arg3.IsWhole) (arg4 : Memref sig .tc .vmem S64x512 .f32) (harg4 : arg4.IsWhole) (arg5 : Memref sig .tc .vmem S8x256x512 .f32) (harg5 : arg5.IsWhole) (arg6 : Memref sig .tc .vmem S8x256x512 .f32) (harg6 : arg6.IsWhole)
    (x0 : Vec Ideal S8x256x512 .f32) (x1 : Vec Ideal S4x512x512 .bf16) (x2 : Vec Ideal S1x1x512 .f32) (x3 : Vec Ideal S64x512 .f32) :
    out0_A_4 (F := Ideal) c i arg1 harg1 arg2 harg2 arg3 harg3 arg4 harg4 arg5 harg5 arg6 harg6 x0 x1 x2 x3 = Cert.GradeNorm.blockK x0 x1 x2 x3 := by
  unfold out0_A_4
  rw [View.read_writes_eq_canon _ _ _ (cover0_A_4 c i arg1 harg1 arg2 harg2 arg3 harg3 arg4 harg4 arg5 harg5 arg6 harg6 x0 x1 x2 x3)]
  funext y
  refine View.canon_apply_of_pieces (Cert.GradeNorm.blockK x0 x1 x2 x3) _ ?_ y (cover0_A_4 c i arg1 harg1 arg2 harg2 arg3 harg3 arg4 harg4 arg5 harg5 arg6 harg6 x0 x1 x2 x3 y)
  unfold kernelRun0_A
  dsimp only
  intro pc hpc x
  simp only [List.mem_cons, List.not_mem_nil, or_false] at hpc
  rcases hpc with rfl | rfl | rfl | rfl | rfl | rfl | rfl | rfl
  · obtain ⟨u, p, q, rfl⟩ : ∃ (u : Fin 1) (p : Fin 256) (q : Fin 512), x = ix3 u p q := ⟨x 0, x 1, x 2, eq_ix3 x⟩
    rw [emb_slab, Cert.GradeNorm.blockK_apply]
    exact piece7 c i arg1 harg1 arg2 harg2 arg3 harg3 arg4 harg4 arg5 harg5 arg6 harg6 x0 x1 x2 x3 u p q
  · obtain ⟨u, p, q, rfl⟩ : ∃ (u : Fin 1) (p : Fin 256) (q : Fin 512), x = ix3 u p q := ⟨x 0, x 1, x 2, eq_ix3 x⟩
    rw [emb_slab, Cert.GradeNorm.blockK_apply]
    exact piece6 c i arg1 harg1 arg2 harg2 arg3 harg3 arg4 harg4 arg5 harg5 arg6 harg6 x0 x1 x2 x3 u p q
  · obtain ⟨u, p, q, rfl⟩ : ∃ (u : Fin 1) (p : Fin 256) (q : Fin 512), x = ix3 u p q := ⟨x 0, x 1, x 2, eq_ix3 x⟩
    rw [emb_slab, Cert.GradeNorm.blockK_apply]
    exact piece5 c i arg1 harg1 arg2 harg2 arg3 harg3 arg4 harg4 arg5 harg5 arg6 harg6 x0 x1 x2 x3 u p q
  · obtain ⟨u, p, q, rfl⟩ : ∃ (u : Fin 1) (p : Fin 256) (q : Fin 512), x = ix3 u p q := ⟨x 0, x 1, x 2, eq_ix3 x⟩
    rw [emb_slab, Cert.GradeNorm.blockK_apply]
    exact piece4 c i arg1 harg1 arg2 harg2 arg3 harg3 arg4 harg4 arg5 harg5 arg6 harg6 x0 x1 x2 x3 u p q
  · obtain ⟨u, p, q, rfl⟩ : ∃ (u : Fin 1) (p : Fin 256) (q : Fin 512), x = ix3 u p q := ⟨x 0, x 1, x 2, eq_ix3 x⟩
    rw [emb_slab, Cert.GradeNorm.blockK_apply]
    exact piece3 c i arg1 harg1 arg2 harg2 arg3 harg3 arg4 harg4 arg5 harg5 arg6 harg6 x0 x1 x2 x3 u p q
  · obtain ⟨u, p, q, rfl⟩ : ∃ (u : Fin 1) (p : Fin 256) (q : Fin 512), x = ix3 u p q := ⟨x 0, x 1, x 2, eq_ix3 x⟩
    rw [emb_slab, Cert.GradeNorm.blockK_apply]
    exact piece2 c i arg1 harg1 arg2 harg2 arg3 harg3 arg4 harg4 arg5 harg5 arg6 harg6 x0 x1 x2 x3 u p q
  · obtain ⟨u, p, q, rfl⟩ : ∃ (u : Fin 1) (p : Fin 256) (q : Fin 512), x = ix3 u p q := ⟨x 0, x 1, x 2, eq_ix3 x⟩
    rw [emb_slab, Cert.GradeNorm.blockK_apply]
    exact piece1 c i arg1 harg1 arg2 harg2 arg3 harg3 arg4 harg4 arg5 harg5 arg6 harg6 x0 x1 x2 x3 u p q
  · obtain ⟨u, p, q, rfl⟩ : ∃ (u : Fin 1) (p : Fin 256) (q : Fin 512), x = ix3 u p q := ⟨x 0, x 1, x 2, eq_ix3 x⟩
    rw [emb_slab, Cert.GradeNorm.blockK_apply]
    exact piece0 c i arg1 harg1 arg2 harg2 arg3 harg3 arg4 harg4 arg5 harg5 arg6 harg6 x0 x1 x2 x3 u p q

end Cert.KernelIdeal.KValue

end
-- ==== Proof.RefRunOps.lean ====
/-
  The reference program as the list of its 151 host operations, in the order it runs them, and the facts about
  that list a run of the program needs: the program is the straight line of exactly these operations, its signature
  scopes no buffer and no semaphore, and every operation touches TensorCore buffers only.
-/
import proofs.«174987_j30442728194568_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 151 operations, in order. -/
abbrev ops : List (HloOp τ sig (Elt F)) :=
  [ StableHlo.nullary main_c (fun i => lit0 (S8.rowMajor i)),
    StableHlo.nullary main_c_0 (constantI S8 1 0#1),
    StableHlo.nullary main_c_1 (fun i => lit1 (S64.rowMajor i)),
    StableHlo.nullary main_c_2 (constantI S64 1 0#1),
    StableHlo.nullary main_cst (fun i => FloatOps.ofBits .f32 (lit2 (S64.rowMajor i))),
    StableHlo.unary main_cst main_v0 (broadcastInDim S64x1x1 ![0] bcast_S64_S64x1x1_0 : (⟨S64, .f32⟩ : BufTy).Contents (Elt F) → (⟨S64x1x1, .f32⟩ : BufTy).Contents (Elt F)),
    StableHlo.nullary main_c_3 (fun i => lit3 (S64.rowMajor i)),
    StableHlo.nullary main_c_4 (constantI S64 1 0#1),
    StableHlo.nullary main_c_5 (fun i => lit4 (S64.rowMajor i)),
    StableHlo.nullary main_c_6 (constantI S64 1 0#1),
    StableHlo.nullary main_c_7 (fun i => lit5 (S64.rowMajor i)),
    StableHlo.nullary main_c_8 (constantI S1 32 0#32),
    StableHlo.nullary main_c_9 (constantI S1 1 0#1),
    StableHlo.nullary main_c_10 (fun i => lit6 (S3.rowMajor i)),
    StableHlo.nullary main_c_11 (constantI S3 1 0#1),
    StableHlo.nullary main_c_12 (fun i => lit7 (S3.rowMajor i)),
    StableHlo.nullary main_c_13 (constantI S3 1 0#1),
    StableHlo.nullary main_c_14 (constantI S1 32 7#32),
    StableHlo.nullary main_c_15 (constantI S1 1 0#1),
    StableHlo.nullary main_c_16 (constantI S_ 32 4#32),
    StableHlo.unary main_c_16 main_v1 (broadcastInDim S8 ![] bcast_S_S8 : (⟨S_, .i32⟩ : BufTy).Contents (Elt F) → (⟨S8, .i32⟩ : BufTy).Contents (Elt F)),
    StableHlo.binary main_c main_v1 main_v2 (addi : (⟨S8, .i32⟩ : BufTy).Contents (Elt F) → (⟨S8, .i32⟩ : BufTy).Contents (Elt F) → (⟨S8, .i32⟩ : BufTy).Contents (Elt F)),
    StableHlo.ternary main_c_0 main_v2 main_c main_v3 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v3 main_v4 (broadcastInDim S8x1 ![0] bcast_S8_S8x1_0 : (⟨S8, .i32⟩ : BufTy).Contents (Elt F) → (⟨S8x1, .i32⟩ : BufTy).Contents (Elt F)),
    StableHlo.binary main_arg1 main_v4 main_v5 ((fun x i => Host.gather gather_S4x512x512_S8x1_S8x512x512_12_0_n_n_0_1_1512512 x i) : (⟨S4x512x512, .f32⟩ : BufTy).Contents (Elt F) → (⟨S8x1, .i32⟩ : BufTy).Contents (Elt F) → (⟨S8x512x512, .f32⟩ : BufTy).Contents (Elt F)),
    StableHlo.binary main_arg0 main_v5 main_v6 ((fun l r => Host.dotGeneral dot_S8x4096x512_S8x512x512_S8x4096x512_2_1_1_2_0_0 none l r) : (⟨S8x4096x512, .f32⟩ : BufTy).Contents (Elt F) → (⟨S8x512x512, .f32⟩ : BufTy).Contents (Elt F) → (⟨S8x4096x512, .f32⟩ : BufTy).Contents (Elt F)),
    StableHlo.unary main_arg2 main_v7 (broadcastInDim S8x4096x512 ![0, 1, 2] bcast_S1x1x512_S8x4096x512_0_1_2 : (⟨S1x1x512, .f32⟩ : BufTy).Contents (Elt F) → (⟨S8x4096x512, .f32⟩ : BufTy).Contents (Elt F)),
    StableHlo.binary main_v6 main_v7 main_v8 (addf : (⟨S8x4096x512, .f32⟩ : BufTy).Contents (Elt F) → (⟨S8x4096x512, .f32⟩ : BufTy).Contents (Elt F) → (⟨S8x4096x512, .f32⟩ : BufTy).Contents (Elt F)),
    StableHlo.binary main_v8 main_v8 main_v9 (mulf : (⟨S8x4096x512, .f32⟩ : BufTy).Contents (Elt F) → (⟨S8x4096x512, .f32⟩ : BufTy).Contents (Elt F) → (⟨S8x4096x512, .f32⟩ : BufTy).Contents (Elt F)),
    StableHlo.binary main_v9 main_v8 main_v10 (mulf : (⟨S8x4096x512, .f32⟩ : BufTy).Contents (Elt F) → (⟨S8x4096x512, .f32⟩ : BufTy).Contents (Elt F) → (⟨S8x4096x512, .f32⟩ : BufTy).Contents (Elt F)),
    StableHlo.nullary main_cst_17 (constant S_ .f32 0x3D372713#32),
    StableHlo.unary main_cst_17 main_v11 (broadcastInDim S8x4096x512 ![] bcast_S_S8x4096x512 : (⟨S_, .f32⟩ : BufTy).Contents (Elt F) → (⟨S8x4096x512, .f32⟩ : BufTy).Contents (Elt F)),
    StableHlo.binary main_v11 main_v10 main_v12 (mulf : (⟨S8x4096x512, .f32⟩ : BufTy).Contents (Elt F) → (⟨S8x4096x512, .f32⟩ : BufTy).Contents (Elt F) → (⟨S8x4096x512, .f32⟩ : BufTy).Contents (Elt F)),
    StableHlo.binary main_v8 main_v12 main_v13 (addf : (⟨S8x4096x512, .f32⟩ : BufTy).Contents (Elt F) → (⟨S8x4096x512, .f32⟩ : BufTy).Contents (Elt F) → (⟨S8x4096x512, .f32⟩ : BufTy).Contents (Elt F)),
    StableHlo.nullary main_cst_18 (constant S_ .f32 0x3F4C422A#32),
    StableHlo.unary main_cst_18 main_v14 (broadcastInDim S8x4096x512 ![] bcast_S_S8x4096x512 : (⟨S_, .f32⟩ : BufTy).Contents (Elt F) → (⟨S8x4096x512, .f32⟩ : BufTy).Contents (Elt F)),
    StableHlo.binary main_v14 main_v13 main_v15 (mulf : (⟨S8x4096x512, .f32⟩ : BufTy).Contents (Elt F) → (⟨S8x4096x512, .f32⟩ : BufTy).Contents (Elt F) → (⟨S8x4096x512, .f32⟩ : BufTy).Contents (Elt F)),
    StableHlo.unary main_v15 main_v16 (Host.tanh : (⟨S8x4096x512, .f32⟩ : BufTy).Contents (Elt F) → (⟨S8x4096x512, .f32⟩ : BufTy).Contents (Elt F)),
    StableHlo.nullary main_cst_19 (constant S_ .f32 0x3F800000#32),
    StableHlo.unary main_cst_19 main_v17 (broadcastInDim S8x4096x512 ![] bcast_S_S8x4096x512 : (⟨S_, .f32⟩ : BufTy).Contents (Elt F) → (⟨S8x4096x512, .f32⟩ : BufTy).Contents (Elt F)),
    StableHlo.binary main_v17 main_v16 main_v18 (addf : (⟨S8x4096x512, .f32⟩ : BufTy).Contents (Elt F) → (⟨S8x4096x512, .f32⟩ : BufTy).Contents (Elt F) → (⟨S8x4096x512, .f32⟩ : BufTy).Contents (Elt F)),
    StableHlo.nullary main_cst_20 (constant S_ .f32 0x3F000000#32),
    StableHlo.unary main_cst_20 main_v19 (broadcastInDim S8x4096x512 ![] bcast_S_S8x4096x512 : (⟨S_, .f32⟩ : BufTy).Contents (Elt F) → (⟨S8x4096x512, .f32⟩ : BufTy).Contents (Elt F)),
    StableHlo.binary main_v19 main_v18 main_v20 (mulf : (⟨S8x4096x512, .f32⟩ : BufTy).Contents (Elt F) → (⟨S8x4096x512, .f32⟩ : BufTy).Contents (Elt F) → (⟨S8x4096x512, .f32⟩ : BufTy).Contents (Elt F)),
    StableHlo.binary main_v8 main_v20 main_v21 (mulf : (⟨S8x4096x512, .f32⟩ : BufTy).Contents (Elt F) → (⟨S8x4096x512, .f32⟩ : BufTy).Contents (Elt F) → (⟨S8x4096x512, .f32⟩ : BufTy).Contents (Elt F)),
    StableHlo.unary main_arg3 main_v22 ((transpose S20x512 [1, 0] · transposes_S512x20_S20x512_1_0) : (⟨S512x20, .f32⟩ : BufTy).Contents (Elt F) → (⟨S20x512, .f32⟩ : BufTy).Contents (Elt F)),
    StableHlo.nullary main_c_21 (constantI S_ 32 20#32),
    StableHlo.unary main_c_21 main_v23 (broadcastInDim S64 ![] bcast_S_S64 : (⟨S_, .i32⟩ : BufTy).Contents (Elt F) → (⟨S64, .i32⟩ : BufTy).Contents (Elt F)),
    StableHlo.binary main_c_1 main_v23 main_v24 (addi : (⟨S64, .i32⟩ : BufTy).Contents (Elt F) → (⟨S64, .i32⟩ : BufTy).Contents (Elt F) → (⟨S64, .i32⟩ : BufTy).Contents (Elt F)),
    StableHlo.ternary main_c_2 main_v24 main_c_1 main_v25 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v25 main_v26 (broadcastInDim S64x1 ![0] bcast_S64_S64x1_0 : (⟨S64, .i32⟩ : BufTy).Contents (Elt F) → (⟨S64x1, .i32⟩ : BufTy).Contents (Elt F)),
    StableHlo.binary main_v22 main_v26 main_v27 ((fun x i => Host.gather gather_S20x512_S64x1_S64x512_1_0_n_n_0_1_1512 x i) : (⟨S20x512, .f32⟩ : BufTy).Contents (Elt F) → (⟨S64x1, .i32⟩ : BufTy).Contents (Elt F) → (⟨S64x512, .f32⟩ : BufTy).Contents (Elt F)),
    StableHlo.unary main_v27 main_v28 (broadcastInDim S64x1x512 ![0, 2] bcast_S64x512_S64x1x512_0_2 : (⟨S64x512, .f32⟩ : BufTy).Contents (Elt F) → (⟨S64x1x512, .f32⟩ : BufTy).Contents (Elt F)),
    StableHlo.unary main_v0 main_v29 (broadcastInDim S64x1x512 ![0, 1, 2] bcast_S64x1x1_S64x1x512_0_1_2 : (⟨S64x1x1, .f32⟩ : BufTy).Contents (Elt F) → (⟨S64x1x512, .f32⟩ : BufTy).Contents (Elt F)),
    StableHlo.binary main_v29 main_v28 main_v30 (mulf : (⟨S64x1x512, .f32⟩ : BufTy).Contents (Elt F) → (⟨S64x1x512, .f32⟩ : BufTy).Contents (Elt F) → (⟨S64x1x512, .f32⟩ : BufTy).Contents (Elt F)),
    StableHlo.nullary main_c_22 (constantI S_ 32 8#32),
    StableHlo.unary main_c_22 main_v31 (broadcastInDim S64 ![] bcast_S_S64 : (⟨S_, .i32⟩ : BufTy).Contents (Elt F) → (⟨S64, .i32⟩ : BufTy).Contents (Elt F)),
    StableHlo.binary main_c_3 main_v31 main_v32 (addi : (⟨S64, .i32⟩ : BufTy).Contents (Elt F) → (⟨S64, .i32⟩ : BufTy).Contents (Elt F) → (⟨S64, .i32⟩ : BufTy).Contents (Elt F)),
    StableHlo.ternary main_c_4 main_v32 main_c_3 main_v33 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v33 main_v34 (broadcastInDim S64x1 ![0] bcast_S64_S64x1_0 : (⟨S64, .i32⟩ : BufTy).Contents (Elt F) → (⟨S64x1, .i32⟩ : BufTy).Contents (Elt F)),
    StableHlo.binary main_arg0 main_v34 main_v35 ((fun x i => Host.gather gather_S8x4096x512_S64x1_S64x4096x512_12_0_n_n_0_1_14096512 x i) : (⟨S8x4096x512, .f32⟩ : BufTy).Contents (Elt F) → (⟨S64x1, .i32⟩ : BufTy).Contents (Elt F) → (⟨S64x4096x512, .f32⟩ : BufTy).Contents (Elt F)),
    StableHlo.unary main_v30 main_v36 (broadcastInDim S64x4096x512 ![0, 1, 2] bcast_S64x1x512_S64x4096x512_0_1_2 : (⟨S64x1x512, .f32⟩ : BufTy).Contents (Elt F) → (⟨S64x4096x512, .f32⟩ : BufTy).Contents (Elt F)),
    StableHlo.binary main_v36 main_v35 main_v37 (mulf : (⟨S64x4096x512, .f32⟩ : BufTy).Contents (Elt F) → (⟨S64x4096x512, .f32⟩ : BufTy).Contents (Elt F) → (⟨S64x4096x512, .f32⟩ : BufTy).Contents (Elt F)),
    StableHlo.nullary main_c_23 (constantI S_ 32 8#32),
    StableHlo.unary main_c_23 main_v38 (broadcastInDim S64 ![] bcast_S_S64 : (⟨S_, .i32⟩ : BufTy).Contents (Elt F) → (⟨S64, .i32⟩ : BufTy).Contents (Elt F)),
    StableHlo.binary main_c_5 main_v38 main_v39 (addi : (⟨S64, .i32⟩ : BufTy).Contents (Elt F) → (⟨S64, .i32⟩ : BufTy).Contents (Elt F) → (⟨S64, .i32⟩ : BufTy).Contents (Elt F)),
    StableHlo.ternary main_c_6 main_v39 main_c_5 main_v40 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v40 main_v41 (broadcastInDim S64x1 ![0] bcast_S64_S64x1_0 : (⟨S64, .i32⟩ : BufTy).Contents (Elt F) → (⟨S64x1, .i32⟩ : BufTy).Contents (Elt F)),
    StableHlo.binary main_v21 main_v41 main_v42 ((fun x i => Host.gather gather_S8x4096x512_S64x1_S64x4096x512_12_0_n_n_0_1_14096512 x i) : (⟨S8x4096x512, .f32⟩ : BufTy).Contents (Elt F) → (⟨S64x1, .i32⟩ : BufTy).Contents (Elt F) → (⟨S64x4096x512, .f32⟩ : BufTy).Contents (Elt F)),
    StableHlo.binary main_v37 main_v42 main_v43 (mulf : (⟨S64x4096x512, .f32⟩ : BufTy).Contents (Elt F) → (⟨S64x4096x512, .f32⟩ : BufTy).Contents (Elt F) → (⟨S64x4096x512, .f32⟩ : BufTy).Contents (Elt F)),
    StableHlo.nullary main_cst_24 (constant S_ .f32 0x00000000#32),
    StableHlo.unary main_cst_24 main_v44 (broadcastInDim S8x4096x512 ![] bcast_S_S8x4096x512 : (⟨S_, .f32⟩ : BufTy).Contents (Elt F) → (⟨S8x4096x512, .f32⟩ : BufTy).Contents (Elt F)),
    StableHlo.unary main_c_7 main_v45 (broadcastInDim S64x1 ![0] bcast_S64_S64x1_0 : (⟨S64, .i32⟩ : BufTy).Contents (Elt F) → (⟨S64x1, .i32⟩ : BufTy).Contents (Elt F)),
    StableHlo.ternary main_v44 main_v45 main_v43 main_v46 ((fun x i u => Host.scatterAdd scatter_S8x4096x512_S64x1_S64x4096x512_12_0_0_1 x i u) : (⟨S8x4096x512, .f32⟩ : BufTy).Contents (Elt F) → (⟨S64x1, .i32⟩ : BufTy).Contents (Elt F) → (⟨S64x4096x512, .f32⟩ : BufTy).Contents (Elt F) → (⟨S8x4096x512, .f32⟩ : BufTy).Contents (Elt F)),
    StableHlo.nullary main_c_25 (constantI S_ 32 8#32),
    StableHlo.unary main_c_25 main_v47 (broadcastInDim S1 ![] bcast_S_S1 : (⟨S_, .i32⟩ : BufTy).Contents (Elt F) → (⟨S1, .i32⟩ : BufTy).Contents (Elt F)),
    StableHlo.binary main_c_8 main_v47 main_v48 (addi : (⟨S1, .i32⟩ : BufTy).Contents (Elt F) → (⟨S1, .i32⟩ : BufTy).Contents (Elt F) → (⟨S1, .i32⟩ : BufTy).Contents (Elt F)),
    StableHlo.ternary main_c_9 main_v48 main_c_8 main_v49 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v49 main_v50 (broadcastInDim S1x1 ![0] bcast_S1_S1x1_0 : (⟨S1, .i32⟩ : BufTy).Contents (Elt F) → (⟨S1x1, .i32⟩ : BufTy).Contents (Elt F)),
    StableHlo.binary main_v46 main_v50 main_v51 ((fun x i => Host.gather gather_S8x4096x512_S1x1_S1x4096x512_12_0_n_n_0_1_14096512 x i) : (⟨S8x4096x512, .f32⟩ : BufTy).Contents (Elt F) → (⟨S1x1, .i32⟩ : BufTy).Contents (Elt F) → (⟨S1x4096x512, .f32⟩ : BufTy).Contents (Elt F)),
    StableHlo.binary main_v51 main_v51 main_v52 (mulf : (⟨S1x4096x512, .f32⟩ : BufTy).Contents (Elt F) → (⟨S1x4096x512, .f32⟩ : BufTy).Contents (Elt F) → (⟨S1x4096x512, .f32⟩ : BufTy).Contents (Elt F)),
    StableHlo.nullary main_cst_26 (constant S_ .f32 0x00000000#32),
    StableHlo.binary main_v52 main_cst_26 main_v53 ((fun x v => Host.reduceAdd x v reducesTo_S1x4096x512_S4096_d0_2 h_S_) : (⟨S1x4096x512, .f32⟩ : BufTy).Contents (Elt F) → (⟨S_, .f32⟩ : BufTy).Contents (Elt F) → (⟨S4096, .f32⟩ : BufTy).Contents (Elt F)),
    StableHlo.unary main_v53 main_v54 (broadcastInDim S1x4096x1 ![1] bcast_S4096_S1x4096x1_1 : (⟨S4096, .f32⟩ : BufTy).Contents (Elt F) → (⟨S1x4096x1, .f32⟩ : BufTy).Contents (Elt F)),
    StableHlo.nullary main_cst_27 (constant S_ .f32 0x44000000#32),
    StableHlo.unary main_cst_27 main_v55 (broadcastInDim S1x4096x1 ![] bcast_S_S1x4096x1 : (⟨S_, .f32⟩ : BufTy).Contents (Elt F) → (⟨S1x4096x1, .f32⟩ : BufTy).Contents (Elt F)),
    StableHlo.binary main_v54 main_v55 main_v56 (Host.divf : (⟨S1x4096x1, .f32⟩ : BufTy).Contents (Elt F) → (⟨S1x4096x1, .f32⟩ : BufTy).Contents (Elt F) → (⟨S1x4096x1, .f32⟩ : BufTy).Contents (Elt F)),
    StableHlo.nullary main_cst_28 (constant S_ .f32 0x358637BD#32),
    StableHlo.unary main_cst_28 main_v57 (broadcastInDim S1x4096x1 ![] bcast_S_S1x4096x1 : (⟨S_, .f32⟩ : BufTy).Contents (Elt F) → (⟨S1x4096x1, .f32⟩ : BufTy).Contents (Elt F)),
    StableHlo.binary main_v56 main_v57 main_v58 (addf : (⟨S1x4096x1, .f32⟩ : BufTy).Contents (Elt F) → (⟨S1x4096x1, .f32⟩ : BufTy).Contents (Elt F) → (⟨S1x4096x1, .f32⟩ : BufTy).Contents (Elt F)),
    StableHlo.unary main_v58 main_v59 (Host.sqrt : (⟨S1x4096x1, .f32⟩ : BufTy).Contents (Elt F) → (⟨S1x4096x1, .f32⟩ : BufTy).Contents (Elt F)),
    StableHlo.unary main_v59 main_v60 (broadcastInDim S1x4096x512 ![0, 1, 2] bcast_S1x4096x1_S1x4096x512_0_1_2 : (⟨S1x4096x1, .f32⟩ : BufTy).Contents (Elt F) → (⟨S1x4096x512, .f32⟩ : BufTy).Contents (Elt F)),
    StableHlo.binary main_v51 main_v60 main_v61 (Host.divf : (⟨S1x4096x512, .f32⟩ : BufTy).Contents (Elt F) → (⟨S1x4096x512, .f32⟩ : BufTy).Contents (Elt F) → (⟨S1x4096x512, .f32⟩ : BufTy).Contents (Elt F)),
    StableHlo.nullary main_c_29 (constantI S_ 32 8#32),
    StableHlo.unary main_c_29 main_v62 (broadcastInDim S3 ![] bcast_S_S3 : (⟨S_, .i32⟩ : BufTy).Contents (Elt F) → (⟨S3, .i32⟩ : BufTy).Contents (Elt F)),
    StableHlo.binary main_c_10 main_v62 main_v63 (addi : (⟨S3, .i32⟩ : BufTy).Contents (Elt F) → (⟨S3, .i32⟩ : BufTy).Contents (Elt F) → (⟨S3, .i32⟩ : BufTy).Contents (Elt F)),
    StableHlo.ternary main_c_11 main_v63 main_c_10 main_v64 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v64 main_v65 (broadcastInDim S3x1 ![0] bcast_S3_S3x1_0 : (⟨S3, .i32⟩ : BufTy).Contents (Elt F) → (⟨S3x1, .i32⟩ : BufTy).Contents (Elt F)),
    StableHlo.binary main_v46 main_v65 main_v66 ((fun x i => Host.gather gather_S8x4096x512_S3x1_S3x4096x512_12_0_n_n_0_1_14096512 x i) : (⟨S8x4096x512, .f32⟩ : BufTy).Contents (Elt F) → (⟨S3x1, .i32⟩ : BufTy).Contents (Elt F) → (⟨S3x4096x512, .f32⟩ : BufTy).Contents (Elt F)),
    StableHlo.binary main_v66 main_v66 main_v67 (mulf : (⟨S3x4096x512, .f32⟩ : BufTy).Contents (Elt F) → (⟨S3x4096x512, .f32⟩ : BufTy).Contents (Elt F) → (⟨S3x4096x512, .f32⟩ : BufTy).Contents (Elt F)),
    StableHlo.nullary main_cst_30 (constant S_ .f32 0x00000000#32),
    StableHlo.binary main_v67 main_cst_30 main_v68 ((fun x v => Host.reduceAdd x v reducesTo_S3x4096x512_S4096_d0_2 h_S_) : (⟨S3x4096x512, .f32⟩ : BufTy).Contents (Elt F) → (⟨S_, .f32⟩ : BufTy).Contents (Elt F) → (⟨S4096, .f32⟩ : BufTy).Contents (Elt F)),
    StableHlo.unary main_v68 main_v69 (broadcastInDim S1x4096x1 ![1] bcast_S4096_S1x4096x1_1 : (⟨S4096, .f32⟩ : BufTy).Contents (Elt F) → (⟨S1x4096x1, .f32⟩ : BufTy).Contents (Elt F)),
    StableHlo.nullary main_cst_31 (constant S_ .f32 0x44C00000#32),
    StableHlo.unary main_cst_31 main_v70 (broadcastInDim S1x4096x1 ![] bcast_S_S1x4096x1 : (⟨S_, .f32⟩ : BufTy).Contents (Elt F) → (⟨S1x4096x1, .f32⟩ : BufTy).Contents (Elt F)),
    StableHlo.binary main_v69 main_v70 main_v71 (Host.divf : (⟨S1x4096x1, .f32⟩ : BufTy).Contents (Elt F) → (⟨S1x4096x1, .f32⟩ : BufTy).Contents (Elt F) → (⟨S1x4096x1, .f32⟩ : BufTy).Contents (Elt F)),
    StableHlo.nullary main_cst_32 (constant S_ .f32 0x358637BD#32),
    StableHlo.unary main_cst_32 main_v72 (broadcastInDim S1x4096x1 ![] bcast_S_S1x4096x1 : (⟨S_, .f32⟩ : BufTy).Contents (Elt F) → (⟨S1x4096x1, .f32⟩ : BufTy).Contents (Elt F)),
    StableHlo.binary main_v71 main_v72 main_v73 (addf : (⟨S1x4096x1, .f32⟩ : BufTy).Contents (Elt F) → (⟨S1x4096x1, .f32⟩ : BufTy).Contents (Elt F) → (⟨S1x4096x1, .f32⟩ : BufTy).Contents (Elt F)),
    StableHlo.unary main_v73 main_v74 (Host.sqrt : (⟨S1x4096x1, .f32⟩ : BufTy).Contents (Elt F) → (⟨S1x4096x1, .f32⟩ : BufTy).Contents (Elt F)),
    StableHlo.unary main_v74 main_v75 (broadcastInDim S3x4096x512 ![0, 1, 2] bcast_S1x4096x1_S3x4096x512_0_1_2 : (⟨S1x4096x1, .f32⟩ : BufTy).Contents (Elt F) → (⟨S3x4096x512, .f32⟩ : BufTy).Contents (Elt F)),
    StableHlo.binary main_v66 main_v75 main_v76 (Host.divf : (⟨S3x4096x512, .f32⟩ : BufTy).Contents (Elt F) → (⟨S3x4096x512, .f32⟩ : BufTy).Contents (Elt F) → (⟨S3x4096x512, .f32⟩ : BufTy).Contents (Elt F)),
    StableHlo.nullary main_c_33 (constantI S_ 32 8#32),
    StableHlo.unary main_c_33 main_v77 (broadcastInDim S3 ![] bcast_S_S3 : (⟨S_, .i32⟩ : BufTy).Contents (Elt F) → (⟨S3, .i32⟩ : BufTy).Contents (Elt F)),
    StableHlo.binary main_c_12 main_v77 main_v78 (addi : (⟨S3, .i32⟩ : BufTy).Contents (Elt F) → (⟨S3, .i32⟩ : BufTy).Contents (Elt F) → (⟨S3, .i32⟩ : BufTy).Contents (Elt F)),
    StableHlo.ternary main_c_13 main_v78 main_c_12 main_v79 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v79 main_v80 (broadcastInDim S3x1 ![0] bcast_S3_S3x1_0 : (⟨S3, .i32⟩ : BufTy).Contents (Elt F) → (⟨S3x1, .i32⟩ : BufTy).Contents (Elt F)),
    StableHlo.binary main_v46 main_v80 main_v81 ((fun x i => Host.gather gather_S8x4096x512_S3x1_S3x4096x512_12_0_n_n_0_1_14096512 x i) : (⟨S8x4096x512, .f32⟩ : BufTy).Contents (Elt F) → (⟨S3x1, .i32⟩ : BufTy).Contents (Elt F) → (⟨S3x4096x512, .f32⟩ : BufTy).Contents (Elt F)),
    StableHlo.binary main_v81 main_v81 main_v82 (mulf : (⟨S3x4096x512, .f32⟩ : BufTy).Contents (Elt F) → (⟨S3x4096x512, .f32⟩ : BufTy).Contents (Elt F) → (⟨S3x4096x512, .f32⟩ : BufTy).Contents (Elt F)),
    StableHlo.nullary main_cst_34 (constant S_ .f32 0x00000000#32),
    StableHlo.binary main_v82 main_cst_34 main_v83 ((fun x v => Host.reduceAdd x v reducesTo_S3x4096x512_S4096_d0_2 h_S_) : (⟨S3x4096x512, .f32⟩ : BufTy).Contents (Elt F) → (⟨S_, .f32⟩ : BufTy).Contents (Elt F) → (⟨S4096, .f32⟩ : BufTy).Contents (Elt F)),
    StableHlo.unary main_v83 main_v84 (broadcastInDim S1x4096x1 ![1] bcast_S4096_S1x4096x1_1 : (⟨S4096, .f32⟩ : BufTy).Contents (Elt F) → (⟨S1x4096x1, .f32⟩ : BufTy).Contents (Elt F)),
    StableHlo.nullary main_cst_35 (constant S_ .f32 0x44C00000#32),
    StableHlo.unary main_cst_35 main_v85 (broadcastInDim S1x4096x1 ![] bcast_S_S1x4096x1 : (⟨S_, .f32⟩ : BufTy).Contents (Elt F) → (⟨S1x4096x1, .f32⟩ : BufTy).Contents (Elt F)),
    StableHlo.binary main_v84 main_v85 main_v86 (Host.divf : (⟨S1x4096x1, .f32⟩ : BufTy).Contents (Elt F) → (⟨S1x4096x1, .f32⟩ : BufTy).Contents (Elt F) → (⟨S1x4096x1, .f32⟩ : BufTy).Contents (Elt F)),
    StableHlo.nullary main_cst_36 (constant S_ .f32 0x358637BD#32),
    StableHlo.unary main_cst_36 main_v87 (broadcastInDim S1x4096x1 ![] bcast_S_S1x4096x1 : (⟨S_, .f32⟩ : BufTy).Contents (Elt F) → (⟨S1x4096x1, .f32⟩ : BufTy).Contents (Elt F)),
    StableHlo.binary main_v86 main_v87 main_v88 (addf : (⟨S1x4096x1, .f32⟩ : BufTy).Contents (Elt F) → (⟨S1x4096x1, .f32⟩ : BufTy).Contents (Elt F) → (⟨S1x4096x1, .f32⟩ : BufTy).Contents (Elt F)),
    StableHlo.unary main_v88 main_v89 (Host.sqrt : (⟨S1x4096x1, .f32⟩ : BufTy).Contents (Elt F) → (⟨S1x4096x1, .f32⟩ : BufTy).Contents (Elt F)),
    StableHlo.unary main_v89 main_v90 (broadcastInDim S3x4096x512 ![0, 1, 2] bcast_S1x4096x1_S3x4096x512_0_1_2 : (⟨S1x4096x1, .f32⟩ : BufTy).Contents (Elt F) → (⟨S3x4096x512, .f32⟩ : BufTy).Contents (Elt F)),
    StableHlo.binary main_v81 main_v90 main_v91 (Host.divf : (⟨S3x4096x512, .f32⟩ : BufTy).Contents (Elt F) → (⟨S3x4096x512, .f32⟩ : BufTy).Contents (Elt F) → (⟨S3x4096x512, .f32⟩ : BufTy).Contents (Elt F)),
    StableHlo.nullary main_c_37 (constantI S_ 32 8#32),
    StableHlo.unary main_c_37 main_v92 (broadcastInDim S1 ![] bcast_S_S1 : (⟨S_, .i32⟩ : BufTy).Contents (Elt F) → (⟨S1, .i32⟩ : BufTy).Contents (Elt F)),
    StableHlo.binary main_c_14 main_v92 main_v93 (addi : (⟨S1, .i32⟩ : BufTy).Contents (Elt F) → (⟨S1, .i32⟩ : BufTy).Contents (Elt F) → (⟨S1, .i32⟩ : BufTy).Contents (Elt F)),
    StableHlo.ternary main_c_15 main_v93 main_c_14 main_v94 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v94 main_v95 (broadcastInDim S1x1 ![0] bcast_S1_S1x1_0 : (⟨S1, .i32⟩ : BufTy).Contents (Elt F) → (⟨S1x1, .i32⟩ : BufTy).Contents (Elt F)),
    StableHlo.binary main_v46 main_v95 main_v96 ((fun x i => Host.gather gather_S8x4096x512_S1x1_S1x4096x512_12_0_n_n_0_1_14096512 x i) : (⟨S8x4096x512, .f32⟩ : BufTy).Contents (Elt F) → (⟨S1x1, .i32⟩ : BufTy).Contents (Elt F) → (⟨S1x4096x512, .f32⟩ : BufTy).Contents (Elt F)),
    StableHlo.binary main_v96 main_v96 main_v97 (mulf : (⟨S1x4096x512, .f32⟩ : BufTy).Contents (Elt F) → (⟨S1x4096x512, .f32⟩ : BufTy).Contents (Elt F) → (⟨S1x4096x512, .f32⟩ : BufTy).Contents (Elt F)),
    StableHlo.nullary main_cst_38 (constant S_ .f32 0x00000000#32),
    StableHlo.binary main_v97 main_cst_38 main_v98 ((fun x v => Host.reduceAdd x v reducesTo_S1x4096x512_S4096_d0_2 h_S_) : (⟨S1x4096x512, .f32⟩ : BufTy).Contents (Elt F) → (⟨S_, .f32⟩ : BufTy).Contents (Elt F) → (⟨S4096, .f32⟩ : BufTy).Contents (Elt F)),
    StableHlo.unary main_v98 main_v99 (broadcastInDim S1x4096x1 ![1] bcast_S4096_S1x4096x1_1 : (⟨S4096, .f32⟩ : BufTy).Contents (Elt F) → (⟨S1x4096x1, .f32⟩ : BufTy).Contents (Elt F)),
    StableHlo.nullary main_cst_39 (constant S_ .f32 0x44000000#32),
    StableHlo.unary main_cst_39 main_v100 (broadcastInDim S1x4096x1 ![] bcast_S_S1x4096x1 : (⟨S_, .f32⟩ : BufTy).Contents (Elt F) → (⟨S1x4096x1, .f32⟩ : BufTy).Contents (Elt F)),
    StableHlo.binary main_v99 main_v100 main_v101 (Host.divf : (⟨S1x4096x1, .f32⟩ : BufTy).Contents (Elt F) → (⟨S1x4096x1, .f32⟩ : BufTy).Contents (Elt F) → (⟨S1x4096x1, .f32⟩ : BufTy).Contents (Elt F)),
    StableHlo.nullary main_cst_40 (constant S_ .f32 0x358637BD#32),
    StableHlo.unary main_cst_40 main_v102 (broadcastInDim S1x4096x1 ![] bcast_S_S1x4096x1 : (⟨S_, .f32⟩ : BufTy).Contents (Elt F) → (⟨S1x4096x1, .f32⟩ : BufTy).Contents (Elt F)),
    StableHlo.binary main_v101 main_v102 main_v103 (addf : (⟨S1x4096x1, .f32⟩ : BufTy).Contents (Elt F) → (⟨S1x4096x1, .f32⟩ : BufTy).Contents (Elt F) → (⟨S1x4096x1, .f32⟩ : BufTy).Contents (Elt F)),
    StableHlo.unary main_v103 main_v104 (Host.sqrt : (⟨S1x4096x1, .f32⟩ : BufTy).Contents (Elt F) → (⟨S1x4096x1, .f32⟩ : BufTy).Contents (Elt F)),
    StableHlo.unary main_v104 main_v105 (broadcastInDim S1x4096x512 ![0, 1, 2] bcast_S1x4096x1_S1x4096x512_0_1_2 : (⟨S1x4096x1, .f32⟩ : BufTy).Contents (Elt F) → (⟨S1x4096x512, .f32⟩ : BufTy).Contents (Elt F)),
    StableHlo.binary main_v96 main_v105 main_v106 (Host.divf : (⟨S1x4096x512, .f32⟩ : BufTy).Contents (Elt F) → (⟨S1x4096x512, .f32⟩ : BufTy).Contents (Elt F) → (⟨S1x4096x512, .f32⟩ : BufTy).Contents (Elt F)),
    StableHlo.nary ![main_v61, main_v76, main_v91, main_v106] main_v107 (fun u => concatenate S8x4096x512 0 [⟨S1x4096x512, u 0⟩, ⟨S3x4096x512, u 1⟩, ⟨S3x4096x512, u 2⟩, ⟨S1x4096x512, u 3⟩] concatenates_S1x4096x512_S3x4096x512_S3x4096x512_S1x4096x512_S8x4096x512_d0) ]

/-- The first 70 operations: up to the array of the 64 Cayley terms. -/
abbrev opsA : List (HloOp τ sig (Elt F)) :=
  [ StableHlo.nullary main_c (fun i => lit0 (S8.rowMajor i)),
    StableHlo.nullary main_c_0 (constantI S8 1 0#1),
    StableHlo.nullary main_c_1 (fun i => lit1 (S64.rowMajor i)),
    StableHlo.nullary main_c_2 (constantI S64 1 0#1),
    StableHlo.nullary main_cst (fun i => FloatOps.ofBits .f32 (lit2 (S64.rowMajor i))),
    StableHlo.unary main_cst main_v0 (broadcastInDim S64x1x1 ![0] bcast_S64_S64x1x1_0 : (⟨S64, .f32⟩ : BufTy).Contents (Elt F) → (⟨S64x1x1, .f32⟩ : BufTy).Contents (Elt F)),
    StableHlo.nullary main_c_3 (fun i => lit3 (S64.rowMajor i)),
    StableHlo.nullary main_c_4 (constantI S64 1 0#1),
    StableHlo.nullary main_c_5 (fun i => lit4 (S64.rowMajor i)),
    StableHlo.nullary main_c_6 (constantI S64 1 0#1),
    StableHlo.nullary main_c_7 (fun i => lit5 (S64.rowMajor i)),
    StableHlo.nullary main_c_8 (constantI S1 32 0#32),
    StableHlo.nullary main_c_9 (constantI S1 1 0#1),
    StableHlo.nullary main_c_10 (fun i => lit6 (S3.rowMajor i)),
    StableHlo.nullary main_c_11 (constantI S3 1 0#1),
    StableHlo.nullary main_c_12 (fun i => lit7 (S3.rowMajor i)),
    StableHlo.nullary main_c_13 (constantI S3 1 0#1),
    StableHlo.nullary main_c_14 (constantI S1 32 7#32),
    StableHlo.nullary main_c_15 (constantI S1 1 0#1),
    StableHlo.nullary main_c_16 (constantI S_ 32 4#32),
    StableHlo.unary main_c_16 main_v1 (broadcastInDim S8 ![] bcast_S_S8 : (⟨S_, .i32⟩ : BufTy).Contents (Elt F) → (⟨S8, .i32⟩ : BufTy).Contents (Elt F)),
    StableHlo.binary main_c main_v1 main_v2 (addi : (⟨S8, .i32⟩ : BufTy).Contents (Elt F) → (⟨S8, .i32⟩ : BufTy).Contents (Elt F) → (⟨S8, .i32⟩ : BufTy).Contents (Elt F)),
    StableHlo.ternary main_c_0 main_v2 main_c main_v3 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v3 main_v4 (broadcastInDim S8x1 ![0] bcast_S8_S8x1_0 : (⟨S8, .i32⟩ : BufTy).Contents (Elt F) → (⟨S8x1, .i32⟩ : BufTy).Contents (Elt F)),
    StableHlo.binary main_arg1 main_v4 main_v5 ((fun x i => Host.gather gather_S4x512x512_S8x1_S8x512x512_12_0_n_n_0_1_1512512 x i) : (⟨S4x512x512, .f32⟩ : BufTy).Contents (Elt F) → (⟨S8x1, .i32⟩ : BufTy).Contents (Elt F) → (⟨S8x512x512, .f32⟩ : BufTy).Contents (Elt F)),
    StableHlo.binary main_arg0 main_v5 main_v6 ((fun l r => Host.dotGeneral dot_S8x4096x512_S8x512x512_S8x4096x512_2_1_1_2_0_0 none l r) : (⟨S8x4096x512, .f32⟩ : BufTy).Contents (Elt F) → (⟨S8x512x512, .f32⟩ : BufTy).Contents (Elt F) → (⟨S8x4096x512, .f32⟩ : BufTy).Contents (Elt F)),
    StableHlo.unary main_arg2 main_v7 (broadcastInDim S8x4096x512 ![0, 1, 2] bcast_S1x1x512_S8x4096x512_0_1_2 : (⟨S1x1x512, .f32⟩ : BufTy).Contents (Elt F) → (⟨S8x4096x512, .f32⟩ : BufTy).Contents (Elt F)),
    StableHlo.binary main_v6 main_v7 main_v8 (addf : (⟨S8x4096x512, .f32⟩ : BufTy).Contents (Elt F) → (⟨S8x4096x512, .f32⟩ : BufTy).Contents (Elt F) → (⟨S8x4096x512, .f32⟩ : BufTy).Contents (Elt F)),
    StableHlo.binary main_v8 main_v8 main_v9 (mulf : (⟨S8x4096x512, .f32⟩ : BufTy).Contents (Elt F) → (⟨S8x4096x512, .f32⟩ : BufTy).Contents (Elt F) → (⟨S8x4096x512, .f32⟩ : BufTy).Contents (Elt F)),
    StableHlo.binary main_v9 main_v8 main_v10 (mulf : (⟨S8x4096x512, .f32⟩ : BufTy).Contents (Elt F) → (⟨S8x4096x512, .f32⟩ : BufTy).Contents (Elt F) → (⟨S8x4096x512, .f32⟩ : BufTy).Contents (Elt F)),
    StableHlo.nullary main_cst_17 (constant S_ .f32 0x3D372713#32),
    StableHlo.unary main_cst_17 main_v11 (broadcastInDim S8x4096x512 ![] bcast_S_S8x4096x512 : (⟨S_, .f32⟩ : BufTy).Contents (Elt F) → (⟨S8x4096x512, .f32⟩ : BufTy).Contents (Elt F)),
    StableHlo.binary main_v11 main_v10 main_v12 (mulf : (⟨S8x4096x512, .f32⟩ : BufTy).Contents (Elt F) → (⟨S8x4096x512, .f32⟩ : BufTy).Contents (Elt F) → (⟨S8x4096x512, .f32⟩ : BufTy).Contents (Elt F)),
    StableHlo.binary main_v8 main_v12 main_v13 (addf : (⟨S8x4096x512, .f32⟩ : BufTy).Contents (Elt F) → (⟨S8x4096x512, .f32⟩ : BufTy).Contents (Elt F) → (⟨S8x4096x512, .f32⟩ : BufTy).Contents (Elt F)),
    StableHlo.nullary main_cst_18 (constant S_ .f32 0x3F4C422A#32),
    StableHlo.unary main_cst_18 main_v14 (broadcastInDim S8x4096x512 ![] bcast_S_S8x4096x512 : (⟨S_, .f32⟩ : BufTy).Contents (Elt F) → (⟨S8x4096x512, .f32⟩ : BufTy).Contents (Elt F)),
    StableHlo.binary main_v14 main_v13 main_v15 (mulf : (⟨S8x4096x512, .f32⟩ : BufTy).Contents (Elt F) → (⟨S8x4096x512, .f32⟩ : BufTy).Contents (Elt F) → (⟨S8x4096x512, .f32⟩ : BufTy).Contents (Elt F)),
    StableHlo.unary main_v15 main_v16 (Host.tanh : (⟨S8x4096x512, .f32⟩ : BufTy).Contents (Elt F) → (⟨S8x4096x512, .f32⟩ : BufTy).Contents (Elt F)),
    StableHlo.nullary main_cst_19 (constant S_ .f32 0x3F800000#32),
    StableHlo.unary main_cst_19 main_v17 (broadcastInDim S8x4096x512 ![] bcast_S_S8x4096x512 : (⟨S_, .f32⟩ : BufTy).Contents (Elt F) → (⟨S8x4096x512, .f32⟩ : BufTy).Contents (Elt F)),
    StableHlo.binary main_v17 main_v16 main_v18 (addf : (⟨S8x4096x512, .f32⟩ : BufTy).Contents (Elt F) → (⟨S8x4096x512, .f32⟩ : BufTy).Contents (Elt F) → (⟨S8x4096x512, .f32⟩ : BufTy).Contents (Elt F)),
    StableHlo.nullary main_cst_20 (constant S_ .f32 0x3F000000#32),
    StableHlo.unary main_cst_20 main_v19 (broadcastInDim S8x4096x512 ![] bcast_S_S8x4096x512 : (⟨S_, .f32⟩ : BufTy).Contents (Elt F) → (⟨S8x4096x512, .f32⟩ : BufTy).Contents (Elt F)),
    StableHlo.binary main_v19 main_v18 main_v20 (mulf : (⟨S8x4096x512, .f32⟩ : BufTy).Contents (Elt F) → (⟨S8x4096x512, .f32⟩ : BufTy).Contents (Elt F) → (⟨S8x4096x512, .f32⟩ : BufTy).Contents (Elt F)),
    StableHlo.binary main_v8 main_v20 main_v21 (mulf : (⟨S8x4096x512, .f32⟩ : BufTy).Contents (Elt F) → (⟨S8x4096x512, .f32⟩ : BufTy).Contents (Elt F) → (⟨S8x4096x512, .f32⟩ : BufTy).Contents (Elt F)),
    StableHlo.unary main_arg3 main_v22 ((transpose S20x512 [1, 0] · transposes_S512x20_S20x512_1_0) : (⟨S512x20, .f32⟩ : BufTy).Contents (Elt F) → (⟨S20x512, .f32⟩ : BufTy).Contents (Elt F)),
    StableHlo.nullary main_c_21 (constantI S_ 32 20#32),
    StableHlo.unary main_c_21 main_v23 (broadcastInDim S64 ![] bcast_S_S64 : (⟨S_, .i32⟩ : BufTy).Contents (Elt F) → (⟨S64, .i32⟩ : BufTy).Contents (Elt F)),
    StableHlo.binary main_c_1 main_v23 main_v24 (addi : (⟨S64, .i32⟩ : BufTy).Contents (Elt F) → (⟨S64, .i32⟩ : BufTy).Contents (Elt F) → (⟨S64, .i32⟩ : BufTy).Contents (Elt F)),
    StableHlo.ternary main_c_2 main_v24 main_c_1 main_v25 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v25 main_v26 (broadcastInDim S64x1 ![0] bcast_S64_S64x1_0 : (⟨S64, .i32⟩ : BufTy).Contents (Elt F) → (⟨S64x1, .i32⟩ : BufTy).Contents (Elt F)),
    StableHlo.binary main_v22 main_v26 main_v27 ((fun x i => Host.gather gather_S20x512_S64x1_S64x512_1_0_n_n_0_1_1512 x i) : (⟨S20x512, .f32⟩ : BufTy).Contents (Elt F) → (⟨S64x1, .i32⟩ : BufTy).Contents (Elt F) → (⟨S64x512, .f32⟩ : BufTy).Contents (Elt F)),
    StableHlo.unary main_v27 main_v28 (broadcastInDim S64x1x512 ![0, 2] bcast_S64x512_S64x1x512_0_2 : (⟨S64x512, .f32⟩ : BufTy).Contents (Elt F) → (⟨S64x1x512, .f32⟩ : BufTy).Contents (Elt F)),
    StableHlo.unary main_v0 main_v29 (broadcastInDim S64x1x512 ![0, 1, 2] bcast_S64x1x1_S64x1x512_0_1_2 : (⟨S64x1x1, .f32⟩ : BufTy).Contents (Elt F) → (⟨S64x1x512, .f32⟩ : BufTy).Contents (Elt F)),
    StableHlo.binary main_v29 main_v28 main_v30 (mulf : (⟨S64x1x512, .f32⟩ : BufTy).Contents (Elt F) → (⟨S64x1x512, .f32⟩ : BufTy).Contents (Elt F) → (⟨S64x1x512, .f32⟩ : BufTy).Contents (Elt F)),
    StableHlo.nullary main_c_22 (constantI S_ 32 8#32),
    StableHlo.unary main_c_22 main_v31 (broadcastInDim S64 ![] bcast_S_S64 : (⟨S_, .i32⟩ : BufTy).Contents (Elt F) → (⟨S64, .i32⟩ : BufTy).Contents (Elt F)),
    StableHlo.binary main_c_3 main_v31 main_v32 (addi : (⟨S64, .i32⟩ : BufTy).Contents (Elt F) → (⟨S64, .i32⟩ : BufTy).Contents (Elt F) → (⟨S64, .i32⟩ : BufTy).Contents (Elt F)),
    StableHlo.ternary main_c_4 main_v32 main_c_3 main_v33 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v33 main_v34 (broadcastInDim S64x1 ![0] bcast_S64_S64x1_0 : (⟨S64, .i32⟩ : BufTy).Contents (Elt F) → (⟨S64x1, .i32⟩ : BufTy).Contents (Elt F)),
    StableHlo.binary main_arg0 main_v34 main_v35 ((fun x i => Host.gather gather_S8x4096x512_S64x1_S64x4096x512_12_0_n_n_0_1_14096512 x i) : (⟨S8x4096x512, .f32⟩ : BufTy).Contents (Elt F) → (⟨S64x1, .i32⟩ : BufTy).Contents (Elt F) → (⟨S64x4096x512, .f32⟩ : BufTy).Contents (Elt F)),
    StableHlo.unary main_v30 main_v36 (broadcastInDim S64x4096x512 ![0, 1, 2] bcast_S64x1x512_S64x4096x512_0_1_2 : (⟨S64x1x512, .f32⟩ : BufTy).Contents (Elt F) → (⟨S64x4096x512, .f32⟩ : BufTy).Contents (Elt F)),
    StableHlo.binary main_v36 main_v35 main_v37 (mulf : (⟨S64x4096x512, .f32⟩ : BufTy).Contents (Elt F) → (⟨S64x4096x512, .f32⟩ : BufTy).Contents (Elt F) → (⟨S64x4096x512, .f32⟩ : BufTy).Contents (Elt F)),
    StableHlo.nullary main_c_23 (constantI S_ 32 8#32),
    StableHlo.unary main_c_23 main_v38 (broadcastInDim S64 ![] bcast_S_S64 : (⟨S_, .i32⟩ : BufTy).Contents (Elt F) → (⟨S64, .i32⟩ : BufTy).Contents (Elt F)),
    StableHlo.binary main_c_5 main_v38 main_v39 (addi : (⟨S64, .i32⟩ : BufTy).Contents (Elt F) → (⟨S64, .i32⟩ : BufTy).Contents (Elt F) → (⟨S64, .i32⟩ : BufTy).Contents (Elt F)),
    StableHlo.ternary main_c_6 main_v39 main_c_5 main_v40 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v40 main_v41 (broadcastInDim S64x1 ![0] bcast_S64_S64x1_0 : (⟨S64, .i32⟩ : BufTy).Contents (Elt F) → (⟨S64x1, .i32⟩ : BufTy).Contents (Elt F)),
    StableHlo.binary main_v21 main_v41 main_v42 ((fun x i => Host.gather gather_S8x4096x512_S64x1_S64x4096x512_12_0_n_n_0_1_14096512 x i) : (⟨S8x4096x512, .f32⟩ : BufTy).Contents (Elt F) → (⟨S64x1, .i32⟩ : BufTy).Contents (Elt F) → (⟨S64x4096x512, .f32⟩ : BufTy).Contents (Elt F)),
    StableHlo.binary main_v37 main_v42 main_v43 (mulf : (⟨S64x4096x512, .f32⟩ : BufTy).Contents (Elt F) → (⟨S64x4096x512, .f32⟩ : BufTy).Contents (Elt F) → (⟨S64x4096x512, .f32⟩ : BufTy).Contents (Elt F)) ]

/-- The next 80 operations: the sum into the eight blades and, grade by grade, the normalised pieces. -/
abbrev opsB : List (HloOp τ sig (Elt F)) :=
  [ StableHlo.nullary main_cst_24 (constant S_ .f32 0x00000000#32),
    StableHlo.unary main_cst_24 main_v44 (broadcastInDim S8x4096x512 ![] bcast_S_S8x4096x512 : (⟨S_, .f32⟩ : BufTy).Contents (Elt F) → (⟨S8x4096x512, .f32⟩ : BufTy).Contents (Elt F)),
    StableHlo.unary main_c_7 main_v45 (broadcastInDim S64x1 ![0] bcast_S64_S64x1_0 : (⟨S64, .i32⟩ : BufTy).Contents (Elt F) → (⟨S64x1, .i32⟩ : BufTy).Contents (Elt F)),
    StableHlo.ternary main_v44 main_v45 main_v43 main_v46 ((fun x i u => Host.scatterAdd scatter_S8x4096x512_S64x1_S64x4096x512_12_0_0_1 x i u) : (⟨S8x4096x512, .f32⟩ : BufTy).Contents (Elt F) → (⟨S64x1, .i32⟩ : BufTy).Contents (Elt F) → (⟨S64x4096x512, .f32⟩ : BufTy).Contents (Elt F) → (⟨S8x4096x512, .f32⟩ : BufTy).Contents (Elt F)),
    StableHlo.nullary main_c_25 (constantI S_ 32 8#32),
    StableHlo.unary main_c_25 main_v47 (broadcastInDim S1 ![] bcast_S_S1 : (⟨S_, .i32⟩ : BufTy).Contents (Elt F) → (⟨S1, .i32⟩ : BufTy).Contents (Elt F)),
    StableHlo.binary main_c_8 main_v47 main_v48 (addi : (⟨S1, .i32⟩ : BufTy).Contents (Elt F) → (⟨S1, .i32⟩ : BufTy).Contents (Elt F) → (⟨S1, .i32⟩ : BufTy).Contents (Elt F)),
    StableHlo.ternary main_c_9 main_v48 main_c_8 main_v49 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v49 main_v50 (broadcastInDim S1x1 ![0] bcast_S1_S1x1_0 : (⟨S1, .i32⟩ : BufTy).Contents (Elt F) → (⟨S1x1, .i32⟩ : BufTy).Contents (Elt F)),
    StableHlo.binary main_v46 main_v50 main_v51 ((fun x i => Host.gather gather_S8x4096x512_S1x1_S1x4096x512_12_0_n_n_0_1_14096512 x i) : (⟨S8x4096x512, .f32⟩ : BufTy).Contents (Elt F) → (⟨S1x1, .i32⟩ : BufTy).Contents (Elt F) → (⟨S1x4096x512, .f32⟩ : BufTy).Contents (Elt F)),
    StableHlo.binary main_v51 main_v51 main_v52 (mulf : (⟨S1x4096x512, .f32⟩ : BufTy).Contents (Elt F) → (⟨S1x4096x512, .f32⟩ : BufTy).Contents (Elt F) → (⟨S1x4096x512, .f32⟩ : BufTy).Contents (Elt F)),
    StableHlo.nullary main_cst_26 (constant S_ .f32 0x00000000#32),
    StableHlo.binary main_v52 main_cst_26 main_v53 ((fun x v => Host.reduceAdd x v reducesTo_S1x4096x512_S4096_d0_2 h_S_) : (⟨S1x4096x512, .f32⟩ : BufTy).Contents (Elt F) → (⟨S_, .f32⟩ : BufTy).Contents (Elt F) → (⟨S4096, .f32⟩ : BufTy).Contents (Elt F)),
    StableHlo.unary main_v53 main_v54 (broadcastInDim S1x4096x1 ![1] bcast_S4096_S1x4096x1_1 : (⟨S4096, .f32⟩ : BufTy).Contents (Elt F) → (⟨S1x4096x1, .f32⟩ : BufTy).Contents (Elt F)),
    StableHlo.nullary main_cst_27 (constant S_ .f32 0x44000000#32),
    StableHlo.unary main_cst_27 main_v55 (broadcastInDim S1x4096x1 ![] bcast_S_S1x4096x1 : (⟨S_, .f32⟩ : BufTy).Contents (Elt F) → (⟨S1x4096x1, .f32⟩ : BufTy).Contents (Elt F)),
    StableHlo.binary main_v54 main_v55 main_v56 (Host.divf : (⟨S1x4096x1, .f32⟩ : BufTy).Contents (Elt F) → (⟨S1x4096x1, .f32⟩ : BufTy).Contents (Elt F) → (⟨S1x4096x1, .f32⟩ : BufTy).Contents (Elt F)),
    StableHlo.nullary main_cst_28 (constant S_ .f32 0x358637BD#32),
    StableHlo.unary main_cst_28 main_v57 (broadcastInDim S1x4096x1 ![] bcast_S_S1x4096x1 : (⟨S_, .f32⟩ : BufTy).Contents (Elt F) → (⟨S1x4096x1, .f32⟩ : BufTy).Contents (Elt F)),
    StableHlo.binary main_v56 main_v57 main_v58 (addf : (⟨S1x4096x1, .f32⟩ : BufTy).Contents (Elt F) → (⟨S1x4096x1, .f32⟩ : BufTy).Contents (Elt F) → (⟨S1x4096x1, .f32⟩ : BufTy).Contents (Elt F)),
    StableHlo.unary main_v58 main_v59 (Host.sqrt : (⟨S1x4096x1, .f32⟩ : BufTy).Contents (Elt F) → (⟨S1x4096x1, .f32⟩ : BufTy).Contents (Elt F)),
    StableHlo.unary main_v59 main_v60 (broadcastInDim S1x4096x512 ![0, 1, 2] bcast_S1x4096x1_S1x4096x512_0_1_2 : (⟨S1x4096x1, .f32⟩ : BufTy).Contents (Elt F) → (⟨S1x4096x512, .f32⟩ : BufTy).Contents (Elt F)),
    StableHlo.binary main_v51 main_v60 main_v61 (Host.divf : (⟨S1x4096x512, .f32⟩ : BufTy).Contents (Elt F) → (⟨S1x4096x512, .f32⟩ : BufTy).Contents (Elt F) → (⟨S1x4096x512, .f32⟩ : BufTy).Contents (Elt F)),
    StableHlo.nullary main_c_29 (constantI S_ 32 8#32),
    StableHlo.unary main_c_29 main_v62 (broadcastInDim S3 ![] bcast_S_S3 : (⟨S_, .i32⟩ : BufTy).Contents (Elt F) → (⟨S3, .i32⟩ : BufTy).Contents (Elt F)),
    StableHlo.binary main_c_10 main_v62 main_v63 (addi : (⟨S3, .i32⟩ : BufTy).Contents (Elt F) → (⟨S3, .i32⟩ : BufTy).Contents (Elt F) → (⟨S3, .i32⟩ : BufTy).Contents (Elt F)),
    StableHlo.ternary main_c_11 main_v63 main_c_10 main_v64 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v64 main_v65 (broadcastInDim S3x1 ![0] bcast_S3_S3x1_0 : (⟨S3, .i32⟩ : BufTy).Contents (Elt F) → (⟨S3x1, .i32⟩ : BufTy).Contents (Elt F)),
    StableHlo.binary main_v46 main_v65 main_v66 ((fun x i => Host.gather gather_S8x4096x512_S3x1_S3x4096x512_12_0_n_n_0_1_14096512 x i) : (⟨S8x4096x512, .f32⟩ : BufTy).Contents (Elt F) → (⟨S3x1, .i32⟩ : BufTy).Contents (Elt F) → (⟨S3x4096x512, .f32⟩ : BufTy).Contents (Elt F)),
    StableHlo.binary main_v66 main_v66 main_v67 (mulf : (⟨S3x4096x512, .f32⟩ : BufTy).Contents (Elt F) → (⟨S3x4096x512, .f32⟩ : BufTy).Contents (Elt F) → (⟨S3x4096x512, .f32⟩ : BufTy).Contents (Elt F)),
    StableHlo.nullary main_cst_30 (constant S_ .f32 0x00000000#32),
    StableHlo.binary main_v67 main_cst_30 main_v68 ((fun x v => Host.reduceAdd x v reducesTo_S3x4096x512_S4096_d0_2 h_S_) : (⟨S3x4096x512, .f32⟩ : BufTy).Contents (Elt F) → (⟨S_, .f32⟩ : BufTy).Contents (Elt F) → (⟨S4096, .f32⟩ : BufTy).Contents (Elt F)),
    StableHlo.unary main_v68 main_v69 (broadcastInDim S1x4096x1 ![1] bcast_S4096_S1x4096x1_1 : (⟨S4096, .f32⟩ : BufTy).Contents (Elt F) → (⟨S1x4096x1, .f32⟩ : BufTy).Contents (Elt F)),
    StableHlo.nullary main_cst_31 (constant S_ .f32 0x44C00000#32),
    StableHlo.unary main_cst_31 main_v70 (broadcastInDim S1x4096x1 ![] bcast_S_S1x4096x1 : (⟨S_, .f32⟩ : BufTy).Contents (Elt F) → (⟨S1x4096x1, .f32⟩ : BufTy).Contents (Elt F)),
    StableHlo.binary main_v69 main_v70 main_v71 (Host.divf : (⟨S1x4096x1, .f32⟩ : BufTy).Contents (Elt F) → (⟨S1x4096x1, .f32⟩ : BufTy).Contents (Elt F) → (⟨S1x4096x1, .f32⟩ : BufTy).Contents (Elt F)),
    StableHlo.nullary main_cst_32 (constant S_ .f32 0x358637BD#32),
    StableHlo.unary main_cst_32 main_v72 (broadcastInDim S1x4096x1 ![] bcast_S_S1x4096x1 : (⟨S_, .f32⟩ : BufTy).Contents (Elt F) → (⟨S1x4096x1, .f32⟩ : BufTy).Contents (Elt F)),
    StableHlo.binary main_v71 main_v72 main_v73 (addf : (⟨S1x4096x1, .f32⟩ : BufTy).Contents (Elt F) → (⟨S1x4096x1, .f32⟩ : BufTy).Contents (Elt F) → (⟨S1x4096x1, .f32⟩ : BufTy).Contents (Elt F)),
    StableHlo.unary main_v73 main_v74 (Host.sqrt : (⟨S1x4096x1, .f32⟩ : BufTy).Contents (Elt F) → (⟨S1x4096x1, .f32⟩ : BufTy).Contents (Elt F)),
    StableHlo.unary main_v74 main_v75 (broadcastInDim S3x4096x512 ![0, 1, 2] bcast_S1x4096x1_S3x4096x512_0_1_2 : (⟨S1x4096x1, .f32⟩ : BufTy).Contents (Elt F) → (⟨S3x4096x512, .f32⟩ : BufTy).Contents (Elt F)),
    StableHlo.binary main_v66 main_v75 main_v76 (Host.divf : (⟨S3x4096x512, .f32⟩ : BufTy).Contents (Elt F) → (⟨S3x4096x512, .f32⟩ : BufTy).Contents (Elt F) → (⟨S3x4096x512, .f32⟩ : BufTy).Contents (Elt F)),
    StableHlo.nullary main_c_33 (constantI S_ 32 8#32),
    StableHlo.unary main_c_33 main_v77 (broadcastInDim S3 ![] bcast_S_S3 : (⟨S_, .i32⟩ : BufTy).Contents (Elt F) → (⟨S3, .i32⟩ : BufTy).Contents (Elt F)),
    StableHlo.binary main_c_12 main_v77 main_v78 (addi : (⟨S3, .i32⟩ : BufTy).Contents (Elt F) → (⟨S3, .i32⟩ : BufTy).Contents (Elt F) → (⟨S3, .i32⟩ : BufTy).Contents (Elt F)),
    StableHlo.ternary main_c_13 main_v78 main_c_12 main_v79 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v79 main_v80 (broadcastInDim S3x1 ![0] bcast_S3_S3x1_0 : (⟨S3, .i32⟩ : BufTy).Contents (Elt F) → (⟨S3x1, .i32⟩ : BufTy).Contents (Elt F)),
    StableHlo.binary main_v46 main_v80 main_v81 ((fun x i => Host.gather gather_S8x4096x512_S3x1_S3x4096x512_12_0_n_n_0_1_14096512 x i) : (⟨S8x4096x512, .f32⟩ : BufTy).Contents (Elt F) → (⟨S3x1, .i32⟩ : BufTy).Contents (Elt F) → (⟨S3x4096x512, .f32⟩ : BufTy).Contents (Elt F)),
    StableHlo.binary main_v81 main_v81 main_v82 (mulf : (⟨S3x4096x512, .f32⟩ : BufTy).Contents (Elt F) → (⟨S3x4096x512, .f32⟩ : BufTy).Contents (Elt F) → (⟨S3x4096x512, .f32⟩ : BufTy).Contents (Elt F)),
    StableHlo.nullary main_cst_34 (constant S_ .f32 0x00000000#32),
    StableHlo.binary main_v82 main_cst_34 main_v83 ((fun x v => Host.reduceAdd x v reducesTo_S3x4096x512_S4096_d0_2 h_S_) : (⟨S3x4096x512, .f32⟩ : BufTy).Contents (Elt F) → (⟨S_, .f32⟩ : BufTy).Contents (Elt F) → (⟨S4096, .f32⟩ : BufTy).Contents (Elt F)),
    StableHlo.unary main_v83 main_v84 (broadcastInDim S1x4096x1 ![1] bcast_S4096_S1x4096x1_1 : (⟨S4096, .f32⟩ : BufTy).Contents (Elt F) → (⟨S1x4096x1, .f32⟩ : BufTy).Contents (Elt F)),
    StableHlo.nullary main_cst_35 (constant S_ .f32 0x44C00000#32),
    StableHlo.unary main_cst_35 main_v85 (broadcastInDim S1x4096x1 ![] bcast_S_S1x4096x1 : (⟨S_, .f32⟩ : BufTy).Contents (Elt F) → (⟨S1x4096x1, .f32⟩ : BufTy).Contents (Elt F)),
    StableHlo.binary main_v84 main_v85 main_v86 (Host.divf : (⟨S1x4096x1, .f32⟩ : BufTy).Contents (Elt F) → (⟨S1x4096x1, .f32⟩ : BufTy).Contents (Elt F) → (⟨S1x4096x1, .f32⟩ : BufTy).Contents (Elt F)),
    StableHlo.nullary main_cst_36 (constant S_ .f32 0x358637BD#32),
    StableHlo.unary main_cst_36 main_v87 (broadcastInDim S1x4096x1 ![] bcast_S_S1x4096x1 : (⟨S_, .f32⟩ : BufTy).Contents (Elt F) → (⟨S1x4096x1, .f32⟩ : BufTy).Contents (Elt F)),
    StableHlo.binary main_v86 main_v87 main_v88 (addf : (⟨S1x4096x1, .f32⟩ : BufTy).Contents (Elt F) → (⟨S1x4096x1, .f32⟩ : BufTy).Contents (Elt F) → (⟨S1x4096x1, .f32⟩ : BufTy).Contents (Elt F)),
    StableHlo.unary main_v88 main_v89 (Host.sqrt : (⟨S1x4096x1, .f32⟩ : BufTy).Contents (Elt F) → (⟨S1x4096x1, .f32⟩ : BufTy).Contents (Elt F)),
    StableHlo.unary main_v89 main_v90 (broadcastInDim S3x4096x512 ![0, 1, 2] bcast_S1x4096x1_S3x4096x512_0_1_2 : (⟨S1x4096x1, .f32⟩ : BufTy).Contents (Elt F) → (⟨S3x4096x512, .f32⟩ : BufTy).Contents (Elt F)),
    StableHlo.binary main_v81 main_v90 main_v91 (Host.divf : (⟨S3x4096x512, .f32⟩ : BufTy).Contents (Elt F) → (⟨S3x4096x512, .f32⟩ : BufTy).Contents (Elt F) → (⟨S3x4096x512, .f32⟩ : BufTy).Contents (Elt F)),
    StableHlo.nullary main_c_37 (constantI S_ 32 8#32),
    StableHlo.unary main_c_37 main_v92 (broadcastInDim S1 ![] bcast_S_S1 : (⟨S_, .i32⟩ : BufTy).Contents (Elt F) → (⟨S1, .i32⟩ : BufTy).Contents (Elt F)),
    StableHlo.binary main_c_14 main_v92 main_v93 (addi : (⟨S1, .i32⟩ : BufTy).Contents (Elt F) → (⟨S1, .i32⟩ : BufTy).Contents (Elt F) → (⟨S1, .i32⟩ : BufTy).Contents (Elt F)),
    StableHlo.ternary main_c_15 main_v93 main_c_14 main_v94 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v94 main_v95 (broadcastInDim S1x1 ![0] bcast_S1_S1x1_0 : (⟨S1, .i32⟩ : BufTy).Contents (Elt F) → (⟨S1x1, .i32⟩ : BufTy).Contents (Elt F)),
    StableHlo.binary main_v46 main_v95 main_v96 ((fun x i => Host.gather gather_S8x4096x512_S1x1_S1x4096x512_12_0_n_n_0_1_14096512 x i) : (⟨S8x4096x512, .f32⟩ : BufTy).Contents (Elt F) → (⟨S1x1, .i32⟩ : BufTy).Contents (Elt F) → (⟨S1x4096x512, .f32⟩ : BufTy).Contents (Elt F)),
    StableHlo.binary main_v96 main_v96 main_v97 (mulf : (⟨S1x4096x512, .f32⟩ : BufTy).Contents (Elt F) → (⟨S1x4096x512, .f32⟩ : BufTy).Contents (Elt F) → (⟨S1x4096x512, .f32⟩ : BufTy).Contents (Elt F)),
    StableHlo.nullary main_cst_38 (constant S_ .f32 0x00000000#32),
    StableHlo.binary main_v97 main_cst_38 main_v98 ((fun x v => Host.reduceAdd x v reducesTo_S1x4096x512_S4096_d0_2 h_S_) : (⟨S1x4096x512, .f32⟩ : BufTy).Contents (Elt F) → (⟨S_, .f32⟩ : BufTy).Contents (Elt F) → (⟨S4096, .f32⟩ : BufTy).Contents (Elt F)),
    StableHlo.unary main_v98 main_v99 (broadcastInDim S1x4096x1 ![1] bcast_S4096_S1x4096x1_1 : (⟨S4096, .f32⟩ : BufTy).Contents (Elt F) → (⟨S1x4096x1, .f32⟩ : BufTy).Contents (Elt F)),
    StableHlo.nullary main_cst_39 (constant S_ .f32 0x44000000#32),
    StableHlo.unary main_cst_39 main_v100 (broadcastInDim S1x4096x1 ![] bcast_S_S1x4096x1 : (⟨S_, .f32⟩ : BufTy).Contents (Elt F) → (⟨S1x4096x1, .f32⟩ : BufTy).Contents (Elt F)),
    StableHlo.binary main_v99 main_v100 main_v101 (Host.divf : (⟨S1x4096x1, .f32⟩ : BufTy).Contents (Elt F) → (⟨S1x4096x1, .f32⟩ : BufTy).Contents (Elt F) → (⟨S1x4096x1, .f32⟩ : BufTy).Contents (Elt F)),
    StableHlo.nullary main_cst_40 (constant S_ .f32 0x358637BD#32),
    StableHlo.unary main_cst_40 main_v102 (broadcastInDim S1x4096x1 ![] bcast_S_S1x4096x1 : (⟨S_, .f32⟩ : BufTy).Contents (Elt F) → (⟨S1x4096x1, .f32⟩ : BufTy).Contents (Elt F)),
    StableHlo.binary main_v101 main_v102 main_v103 (addf : (⟨S1x4096x1, .f32⟩ : BufTy).Contents (Elt F) → (⟨S1x4096x1, .f32⟩ : BufTy).Contents (Elt F) → (⟨S1x4096x1, .f32⟩ : BufTy).Contents (Elt F)),
    StableHlo.unary main_v103 main_v104 (Host.sqrt : (⟨S1x4096x1, .f32⟩ : BufTy).Contents (Elt F) → (⟨S1x4096x1, .f32⟩ : BufTy).Contents (Elt F)),
    StableHlo.unary main_v104 main_v105 (broadcastInDim S1x4096x512 ![0, 1, 2] bcast_S1x4096x1_S1x4096x512_0_1_2 : (⟨S1x4096x1, .f32⟩ : BufTy).Contents (Elt F) → (⟨S1x4096x512, .f32⟩ : BufTy).Contents (Elt F)),
    StableHlo.binary main_v96 main_v105 main_v106 (Host.divf : (⟨S1x4096x512, .f32⟩ : BufTy).Contents (Elt F) → (⟨S1x4096x512, .f32⟩ : BufTy).Contents (Elt F) → (⟨S1x4096x512, .f32⟩ : BufTy).Contents (Elt F)) ]

/-- The last operation: the four pieces laid along the blade axis. -/
abbrev opLast : HloOp τ sig (Elt F) :=
  StableHlo.nary ![main_v61, main_v76, main_v91, main_v106] main_v107 (fun u => concatenate S8x4096x512 0 [⟨S1x4096x512, u 0⟩, ⟨S3x4096x512, u 1⟩, ⟨S3x4096x512, u 2⟩, ⟨S1x4096x512, u 3⟩] concatenates_S1x4096x512_S3x4096x512_S3x4096x512_S1x4096x512_S8x4096x512_d0)

/-- The operations are the first part, the second part, and the last operation, in this order. -/
theorem ops_split : (ops : List (HloOp τ sig (Elt F))) = opsA ++ (opsB ++ [opLast]) := rfl

set_option maxHeartbeats 4000000 in
/-- The program is the straight line of its operations (its three windows, run in order, unfold to it). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., binary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., ternary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., nary_bufs_sub ..⟩

end Cert.ReferenceIdeal.RefValue

end
-- ==== Proof.RefFront.lean ====
/-
  The front half of the reference computation, as a chain of array-valued stages and read at an index.

  Each stage is one array operation applied to earlier stages: the grade table selects one of four weight
  matrices per blade; the batched contraction of the input with the selected matrices plus the bias row gives
  the linear map u; the tanh form of GELU is u * (1/2 * (1 + tanh (c1 * (u + c0 * ((u * u) * u))))); the
  path-weight table is transposed and its rows selected by the path of each Cayley term, then multiplied by
  the term's sign; the input is selected by each term's left blade, the activated array by its right blade;
  the product of the three is the array of the 64 Cayley terms.

  Read at term e, sample r, feature f the last stage is
      (sign e * gp f (path e) * x (left e) r f) * gelu (sum_i x (right e) r i * W (grade (right e)) i f + bias f).
-/
import proofs.«174987_j30442728194568_2_alg».proof.Proof.Spec
import proofs.«174987_j30442728194568_2_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StackMember
import proofs.«174987_j30442728194568_2_alg».proof.Proof.LibIndexedRows

noncomputable section

namespace Cert.ReferenceIdeal.RefValue

open Cert.ReferenceIdeal Cert.ReferenceIdeal.Gen Idealize.ShloMosaic Idealize.ShloMosaic.ValueIdx

/-! ## The stages: one per array of the front, each the program's operation applied to earlier stages -/

/-- The grade of each blade. -/
def c : IVec S8 32 := fun i => lit0 (S8.rowMajor i)
def c_0 : IVec S8 1 := constantI S8 1 0#1
/-- The grade path of each term. -/
def c_1 : IVec S64 32 := fun i => lit1 (S64.rowMajor i)
def c_2 : IVec S64 1 := constantI S64 1 0#1
/-- The sign of each term. -/
def cst : FVec Ideal S64 .f32 := fun i => FloatOps.ofBits .f32 (lit2 (S64.rowMajor i))
def v0 : FVec Ideal S64x1x1 .f32 := broadcastInDim S64x1x1 ![0] bcast_S64_S64x1x1_0 cst
/-- The left blade of each term. -/
def c_3 : IVec S64 32 := fun i => lit3 (S64.rowMajor i)
def c_4 : IVec S64 1 := constantI S64 1 0#1
/-- The right blade of each term. -/
def c_5 : IVec S64 32 := fun i => lit4 (S64.rowMajor i)
def c_6 : IVec S64 1 := constantI S64 1 0#1
def c_16 : IVec S_ 32 := constantI S_ 32 4#32
def v1 : IVec S8 32 := broadcastInDim S8 ![] bcast_S_S8 c_16
def v2 : IVec S8 32 := addi c v1
def v3 : IVec S8 32 := select c_0 v2 c
def v4 : IVec S8x1 32 := broadcastInDim S8x1 ![0] bcast_S8_S8x1_0 v3

section
variable (x : FVec Ideal S8x4096x512 .f32) (w : FVec Ideal S4x512x512 .f32) (b : FVec Ideal S1x1x512 .f32)
  (gp : FVec Ideal S512x20 .f32)

/-- The weight matrix of each blade's grade. -/
def v5 : FVec Ideal S8x512x512 .f32 := Host.gather gather_S4x512x512_S8x1_S8x512x512_12_0_n_n_0_1_1512512 w v4
/-- The grade-wise linear map. -/
def v6 : FVec Ideal S8x4096x512 .f32 := Host.dotGeneral dot_S8x4096x512_S8x512x512_S8x4096x512_2_1_1_2_0_0 none x (v5 w)
def v7 : FVec Ideal S8x4096x512 .f32 := broadcastInDim S8x4096x512 ![0, 1, 2] bcast_S1x1x512_S8x4096x512_0_1_2 b
/-- The linear map plus the bias: u. -/
def v8 : FVec Ideal S8x4096x512 .f32 := addf (v6 x w) (v7 b)
def v9 : FVec Ideal S8x4096x512 .f32 := mulf (v8 x w b) (v8 x w b)
def v10 : FVec Ideal S8x4096x512 .f32 := mulf (v9 x w b) (v8 x w b)
def cst_17 : FVec Ideal S_ .f32 := constant (F := Ideal) S_ .f32 0x3D372713#32
def v11 : FVec Ideal S8x4096x512 .f32 := broadcastInDim S8x4096x512 ![] bcast_S_S8x4096x512 cst_17
def v12 : FVec Ideal S8x4096x512 .f32 := mulf v11 (v10 x w b)
def v13 : FVec Ideal S8x4096x512 .f32 := addf (v8 x w b) (v12 x w b)
def cst_18 : FVec Ideal S_ .f32 := constant (F := Ideal) S_ .f32 0x3F4C422A#32
def v14 : FVec Ideal S8x4096x512 .f32 := broadcastInDim S8x4096x512 ![] bcast_S_S8x4096x512 cst_18
def v15 : FVec Ideal S8x4096x512 .f32 := mulf v14 (v13 x w b)
def v16 : FVec Ideal S8x4096x512 .f32 := Host.tanh (v15 x w b)
def cst_19 : FVec Ideal S_ .f32 := constant (F := Ideal) S_ .f32 0x3F800000#32
def v17 : FVec Ideal S8x4096x512 .f32 := broadcastInDim S8x4096x512 ![] bcast_S_S8x4096x512 cst_19
def v18 : FVec Ideal S8x4096x512 .f32 := addf v17 (v16 x w b)
def cst_20 : FVec Ideal S_ .f32 := constant (F := Ideal) S_ .f32 0x3F000000#32
def v19 : FVec Ideal S8x4096x512 .f32 := broadcastInDim S8x4096x512 ![] bcast_S_S8x4096x512 cst_20
def v20 : FVec Ideal S8x4096x512 .f32 := mulf v19 (v18 x w b)
/-- The activated array: gelu u. -/
def v21 : FVec Ideal S8x4096x512 .f32 := mulf (v8 x w b) (v20 x w b)
/-- The path weights with the path axis first. -/
def v22 : FVec Ideal S20x512 .f32 := transpose S20x512 [1, 0] gp transposes_S512x20_S20x512_1_0
def c_21 : IVec S_ 32 := constantI S_ 32 20#32
def v23 : IVec S64 32 := broadcastInDim S64 ![] bcast_S_S64 c_21
def v24 : IVec S64 32 := addi c_1 v23
def v25 : IVec S64 32 := select c_2 v24 c_1
def v26 : IVec S64x1 32 := broadcastInDim S64x1 ![0] bcast_S64_S64x1_0 v25
/-- The path weight of each term. -/
def v27 : FVec Ideal S64x512 .f32 := Host.gather gather_S20x512_S64x1_S64x512_1_0_n_n_0_1_1512 (v22 gp) v26
def v28 : FVec Ideal S64x1x512 .f32 := broadcastInDim S64x1x512 ![0, 2] bcast_S64x512_S64x1x512_0_2 (v27 gp)
def v29 : FVec Ideal S64x1x512 .f32 := broadcastInDim S64x1x512 ![0, 1, 2] bcast_S64x1x1_S64x1x512_0_1_2 v0
/-- The signed path weight of each term. -/
def v30 : FVec Ideal S64x1x512 .f32 := mulf v29 (v28 gp)
def c_22 : IVec S_ 32 := constantI S_ 32 8#32
def v31 : IVec S64 32 := broadcastInDim S64 ![] bcast_S_S64 c_22
def v32 : IVec S64 32 := addi c_3 v31
def v33 : IVec S64 32 := select c_4 v32 c_3
def v34 : IVec S64x1 32 := broadcastInDim S64x1 ![0] bcast_S64_S64x1_0 v33
/-- The input at each term's left blade. -/
def v35 : FVec Ideal S64x4096x512 .f32 := Host.gather gather_S8x4096x512_S64x1_S64x4096x512_12_0_n_n_0_1_14096512 x v34
def v36 : FVec Ideal S64x4096x512 .f32 := broadcastInDim S64x4096x512 ![0, 1, 2] bcast_S64x1x512_S64x4096x512_0_1_2 (v30 gp)
def v37 : FVec Ideal S64x4096x512 .f32 := mulf (v36 gp) (v35 x)
def c_23 : IVec S_ 32 := constantI S_ 32 8#32
def v38 : IVec S64 32 := broadcastInDim S64 ![] bcast_S_S64 c_23
def v39 : IVec S64 32 := addi c_5 v38
def v40 : IVec S64 32 := select c_6 v39 c_5
def v41 : IVec S64x1 32 := broadcastInDim S64x1 ![0] bcast_S64_S64x1_0 v40
/-- The activated array at each term's right blade. -/
def v42 : FVec Ideal S64x4096x512 .f32 := Host.gather gather_S8x4096x512_S64x1_S64x4096x512_12_0_n_n_0_1_14096512 (v21 x w b) v41
/-- The 64 Cayley terms. -/
def v43 : FVec Ideal S64x4096x512 .f32 := mulf (v37 x gp) (v42 x w b)

/-- The front half of the reference: the array of the 64 Cayley terms, as the program composes it. -/
def front : FVec Ideal S64x4096x512 .f32 := v43 x w b gp

end

/-! # The front read at an index -/

section Read

open Cert.GradeNorm

/-! ## A gather of whole slabs -/
/-- Entry (e, a, b) of a gather of whole slabs of a table [N, A, B] through start indices [E, 1]: the table's
    entry (r, a, b), r the e-th start index read signed and clamped into [0, N - 1]. -/
theorem slabGather_apply {N A B E w : Nat} (hN : 0 < N) {α : Type}
    (g : GatherDims ⟨3, ![N, A, B]⟩ ⟨2, ![E, 1]⟩ ⟨3, ![E, A, B]⟩)
    (h1 : g.offsetDims = [1, 2]) (h2 : g.collapsedSliceDims = [0]) (h3 : g.operandBatchingDims = [])
    (h4 : g.startIndexMap = [0]) (h5 : g.indexVectorDim = 1) (h6 : g.sliceSizes = ![1, A, B])
    (T : (⟨3, ![N, A, B]⟩ : Shape).Idx → α) (idx : IVec ⟨2, ![E, 1]⟩ w) (e : Fin E) (a : Fin A) (b : Fin B) :
    Host.gather g T idx (ix3 e a b)
      = T (ix3 (⟨min (idx (ix2 e (0 : Fin 1))).toInt.toNat (N - 1), by omega⟩ : Fin N) a b) := by
  obtain ⟨od, cd, ob, sb, sm, iv, ss, wf⟩ := g
  simp only at h1 h2 h3 h4 h5 h6
  subst h1 h2 h3 h4 h5 h6
  unfold Host.gather
  congr 1
  funext ax
  refine Fin.ext ?_
  match ax with
  | ⟨0, _⟩ =>
    show GatherDims.start (⟨[1, 2], [0], [], sb, [0], 1, ![1, A, B], wf⟩ : GatherDims ⟨3, ![N, A, B]⟩ ⟨2, ![E, 1]⟩ ⟨3, ![E, A, B]⟩) (ix3 e a b) idx 0
      + GatherDims.batchCoord (⟨[1, 2], [0], [], sb, [0], 1, ![1, A, B], wf⟩ : GatherDims ⟨3, ![N, A, B]⟩ ⟨2, ![E, 1]⟩ ⟨3, ![E, A, B]⟩) (ix3 e a b) 0
      + GatherDims.offCoord (⟨[1, 2], [0], [], sb, [0], 1, ![1, A, B], wf⟩ : GatherDims ⟨3, ![N, A, B]⟩ ⟨2, ![E, 1]⟩ ⟨3, ![E, A, B]⟩) (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1, 2], [0], [], sb, [0], 1, ![1, A, B], wf⟩ : GatherDims ⟨3, ![N, A, B]⟩ ⟨2, ![E, 1]⟩ ⟨3, ![E, A, B]⟩) (ix3 e a b)
        ⟨List.idxOf (0 : Fin 3) [0], List.idxOf_lt_length_iff.2 (List.mem_singleton.mpr rfl)⟩ = ix2 e 0 := by
      funext c; refine Fin.ext ?_
      match c with
      | ⟨0, _⟩ => rfl
      | ⟨1, _⟩ => rfl
    rw [hsi]
    rfl
  | ⟨1, _⟩ =>
    show GatherDims.start (⟨[1, 2], [0], [], sb, [0], 1, ![1, A, B], wf⟩ : GatherDims ⟨3, ![N, A, B]⟩ ⟨2, ![E, 1]⟩ ⟨3, ![E, A, B]⟩) (ix3 e a b) idx 1
      + GatherDims.batchCoord (⟨[1, 2], [0], [], sb, [0], 1, ![1, A, B], wf⟩ : GatherDims ⟨3, ![N, A, B]⟩ ⟨2, ![E, 1]⟩ ⟨3, ![E, A, B]⟩) (ix3 e a b) 1
      + GatherDims.offCoord (⟨[1, 2], [0], [], sb, [0], 1, ![1, A, B], wf⟩ : GatherDims ⟨3, ![N, A, B]⟩ ⟨2, ![E, 1]⟩ ⟨3, ![E, A, B]⟩) (ix3 e a b) 1 = a.val
    rw [GatherDims.batchCoord_eq_zero _ _ _ List.not_mem_nil]
    unfold GatherDims.start
    rw [dif_neg (by simp)]
    unfold GatherDims.offCoord
    rw [dif_pos (by simp [GatherDims.sKept, Shape.kept])]
    simp only [Nat.zero_add, Nat.add_zero]
    rfl
  | ⟨2, _⟩ =>
    show GatherDims.start (⟨[1, 2], [0], [], sb, [0], 1, ![1, A, B], wf⟩ : GatherDims ⟨3, ![N, A, B]⟩ ⟨2, ![E, 1]⟩ ⟨3, ![E, A, B]⟩) (ix3 e a b) idx 2
      + GatherDims.batchCoord (⟨[1, 2], [0], [], sb, [0], 1, ![1, A, B], wf⟩ : GatherDims ⟨3, ![N, A, B]⟩ ⟨2, ![E, 1]⟩ ⟨3, ![E, A, B]⟩) (ix3 e a b) 2
      + GatherDims.offCoord (⟨[1, 2], [0], [], sb, [0], 1, ![1, A, B], wf⟩ : GatherDims ⟨3, ![N, A, B]⟩ ⟨2, ![E, 1]⟩ ⟨3, ![E, A, B]⟩) (ix3 e a b) 2 = b.val
    rw [GatherDims.batchCoord_eq_zero _ _ _ List.not_mem_nil]
    unfold GatherDims.start
    rw [dif_neg (by simp)]
    unfold GatherDims.offCoord
    rw [dif_pos (by simp [GatherDims.sKept, Shape.kept])]
    simp only [Nat.zero_add, Nat.add_zero]
    rfl

/-! ## Reading the index tables -/

/-- The row-major position of a rank-1 index is its coordinate. -/
theorem rowMajor_S8 (j : Fin 8) : S8.rowMajor (ix1 j) = j := Fin.ext (Shape.rowMajor_val_one _)
theorem rowMajor_S64 (e : Fin 64) : S64.rowMajor (ix1 e) = e := Fin.ext (Shape.rowMajor_val_one _)

/-- A table of 8 words, optionally shifted under an all-false mask, laid out as a column: entry (j, 0) is the
    table's word j, since the all-false mask selects the unshifted table. -/
theorem col8_apply (lit : Fin 8 → BitVec 32) (sh : IVec S8 32) (j : Fin 8) :
    broadcastInDim S8x1 ![0] bcast_S8_S8x1_0
      (select (constantI S8 1 0#1) (addi (fun i => lit (S8.rowMajor i)) sh) (fun i => lit (S8.rowMajor i)))
      (ix2 j (0 : Fin 1)) = lit j := by
  refine (broadcastInDim_apply ![0] bcast_S8_S8x1_0 _ (ix2 j (0 : Fin 1)) (ix1 j) (fun ax => ?_)).trans ?_
  · match ax with
    | ⟨0, _⟩ => rfl
  · show Scalar.select 0#1 _ (lit (S8.rowMajor (ix1 j))) = lit j
    rw [select_zero, rowMajor_S8]

/-- The same for a table of 64 words. -/
theorem col64_apply (lit : Fin 64 → BitVec 32) (sh : IVec S64 32) (e : Fin 64) :
    broadcastInDim S64x1 ![0] bcast_S64_S64x1_0
      (select (constantI S64 1 0#1) (addi (fun i => lit (S64.rowMajor i)) sh) (fun i => lit (S64.rowMajor i)))
      (ix2 e (0 : Fin 1)) = lit e := by
  refine (broadcastInDim_apply ![0] bcast_S64_S64x1_0 _ (ix2 e (0 : Fin 1)) (ix1 e) (fun ax => ?_)).trans ?_
  · match ax with
    | ⟨0, _⟩ => rfl
  · show Scalar.select 0#1 _ (lit (S64.rowMajor (ix1 e))) = lit e
    rw [select_zero, rowMajor_S64]

theorem v4_apply (j : Fin 8) : v4 (ix2 j (0 : Fin 1)) = lit0 j := col8_apply lit0 v1 j
theorem v26_apply (e : Fin 64) : v26 (ix2 e (0 : Fin 1)) = lit1 e := col64_apply lit1 v23 e
theorem v34_apply (e : Fin 64) : v34 (ix2 e (0 : Fin 1)) = lit3 e := col64_apply lit3 v31 e
theorem v41_apply (e : Fin 64) : v41 (ix2 e (0 : Fin 1)) = lit4 e := col64_apply lit4 v38 e

/-! ## The printed tables are the tables of the algebra, entry by entry, each already inside its range -/

theorem lit0_grade : ∀ j : Fin 8, min (lit0 j).toInt.toNat (4 - 1) = (gradeT j).val := by decide
theorem lit1_path : ∀ e : Fin 64, min (lit1 e).toInt.toNat (20 - 1) = (pathT e).val := by decide
theorem lit2_sign : ∀ e : Fin 64, lit2 e = signW e := by decide
theorem lit3_left : ∀ e : Fin 64, min (lit3 e).toInt.toNat (8 - 1) = (leftT e).val := by decide
theorem lit4_right : ∀ e : Fin 64, min (lit4 e).toInt.toNat (8 - 1) = (rightT e).val := by decide

/-! ## The stages read at an index -/

section
variable (x : FVec Ideal S8x4096x512 .f32) (w : FVec Ideal S4x512x512 .f32) (b : FVec Ideal S1x1x512 .f32)
  (gp : FVec Ideal S512x20 .f32)

/-- Blade j's weight matrix is the matrix of j's grade. -/
theorem v5_apply (j : Fin 8) (i o : Fin 512) : v5 w (ix3 j i o) = w (ix3 (gradeT j) i o) := by
  refine (slabGather_apply (N := 4) (by omega) gather_S4x512x512_S8x1_S8x512x512_12_0_n_n_0_1_1512512
    rfl rfl rfl rfl rfl rfl w v4 j i o).trans ?_
  have hrow : (⟨min (v4 (ix2 j (0 : Fin 1))).toInt.toNat (4 - 1), by omega⟩ : Fin 4) = gradeT j :=
    Fin.ext (by
      show min (v4 (ix2 j (0 : Fin 1))).toInt.toNat (4 - 1) = (gradeT j).val
      rw [v4_apply]; exact lit0_grade j)
  rw [hrow]

/-- The batched contraction: blade j, sample r, output feature o is the sum over the input features. -/
theorem v6_apply (j : Fin 8) (r : Fin 4096) (o : Fin 512) :
    v6 x w (ix3 j r o) = ∑ i : Fin 512, x (ix3 j r i) * v5 w (ix3 j i o) :=
  StackMember.dotGeneral_stack_apply dot_S8x4096x512_S8x512x512_S8x4096x512_2_1_1_2_0_0_wf none x (v5 w) j r o

/-- The bias row read at every blade and sample. -/
theorem v7_apply (j : Fin 8) (r : Fin 4096) (o : Fin 512) : v7 b (ix3 j r o) = b (ix3 (0 : Fin 1) (0 : Fin 1) o) :=
  broadcastInDim_apply ![0, 1, 2] bcast_S1x1x512_S8x4096x512_0_1_2 b (ix3 j r o) (ix3 (0 : Fin 1) (0 : Fin 1) o)
    fun ax => match ax with
      | ⟨0, _⟩ => rfl
      | ⟨1, _⟩ => rfl
      | ⟨2, _⟩ => rfl

/-- The linear map plus the bias is the specification's. -/
theorem v8_apply (j : Fin 8) (r : Fin 4096) (o : Fin 512) :
    v8 x w b (ix3 j r o) = lin (xrow x r) (wmat w) (bvec b) j o := by
  show v6 x w (ix3 j r o) + v7 b (ix3 j r o) = _
  rw [v6_apply, v7_apply]
  unfold lin xrow wmat bvec
  refine congrArg (· + _) (Finset.sum_congr rfl fun i _ => ?_)
  rw [v5_apply]

/-- The chain of elementwise operations after the linear map is the tanh form of GELU, whatever the array u. -/
theorem gelu_chain (u : FVec Ideal S8x4096x512 .f32) (i : S8x4096x512.Idx) :
    mulf u (mulf v19 (addf v17 (Host.tanh (mulf v14 (addf u (mulf v11 (mulf (mulf u u) u))))))) i = gelu (u i) := by
  show u i * (cHalf * (cOne + Ideal.tanh (c1 * (u i + c0 * ((u i * u i) * u i))))) = _
  unfold gelu
  rw [mul_comm (u i * u i) (u i)]

theorem v21_apply (i : S8x4096x512.Idx) : v21 x w b i = gelu (v8 x w b i) := gelu_chain (v8 x w b) i

/-- The path weight of term e at feature f. -/
theorem v27_apply (e : Fin 64) (f : Fin 512) : v27 gp (ix2 e f) = gp (ix2 f (pathT e)) := by
  refine (Cert.Lib.rowGather_apply (N := 20) (by omega) gather_S20x512_S64x1_S64x512_1_0_n_n_0_1_1512
    rfl rfl rfl rfl rfl rfl (v22 gp) v26 e f).trans ?_
  have hrow : Cert.Lib.clampRow 20 (by omega) (v26 (ix2 e (0 : Fin 1))) = pathT e :=
    Fin.ext (by
      show min (v26 (ix2 e (0 : Fin 1))).toInt.toNat (20 - 1) = (pathT e).val
      rw [v26_apply]; exact lit1_path e)
  rw [hrow]
  exact transpose_ix2_apply gp transposes_S512x20_S20x512_1_0 (pathT e) f

/-- A [64, 512] array given a unit middle axis. -/
theorem mid_apply (T : FVec Ideal S64x512 .f32) (e : Fin 64) (f : Fin 512) :
    broadcastInDim S64x1x512 ![0, 2] bcast_S64x512_S64x1x512_0_2 T (ix3 e (0 : Fin 1) f) = T (ix2 e f) :=
  broadcastInDim_apply ![0, 2] bcast_S64x512_S64x1x512_0_2 T (ix3 e (0 : Fin 1) f) (ix2 e f)
    fun ax => match ax with
      | ⟨0, _⟩ => rfl
      | ⟨1, _⟩ => rfl

theorem v28_apply (e : Fin 64) (f : Fin 512) : v28 gp (ix3 e (0 : Fin 1) f) = v27 gp (ix2 e f) := mid_apply (v27 gp) e f

/-- The sign of term e, spread over the features. -/
theorem v29_apply (e : Fin 64) (f : Fin 512) : v29 (ix3 e (0 : Fin 1) f) = Ideal.ofBits .f32 (signW e) := by
  refine (broadcastInDim_apply ![0, 1, 2] bcast_S64x1x1_S64x1x512_0_1_2 v0 (ix3 e (0 : Fin 1) f)
    (ix3 e (0 : Fin 1) (0 : Fin 1)) fun ax => match ax with
      | ⟨0, _⟩ => rfl
      | ⟨1, _⟩ => rfl
      | ⟨2, _⟩ => rfl).trans ?_
  refine (broadcastInDim_apply ![0] bcast_S64_S64x1x1_0 cst (ix3 e (0 : Fin 1) (0 : Fin 1)) (ix1 e)
    fun ax => match ax with
      | ⟨0, _⟩ => rfl).trans ?_
  show Ideal.ofBits .f32 (lit2 (S64.rowMajor (ix1 e))) = _
  rw [rowMajor_S64, lit2_sign]

/-- The signed path weight is the specification's. -/
theorem v30_apply (e : Fin 64) (f : Fin 512) : v30 gp (ix3 e (0 : Fin 1) f) = spw gp e f := by
  show v29 (ix3 e (0 : Fin 1) f) * v28 gp (ix3 e (0 : Fin 1) f) = _
  rw [v29_apply, v28_apply, v27_apply]
  rfl

/-- The input at term e's left blade. -/
theorem v35_apply (e : Fin 64) (r : Fin 4096) (f : Fin 512) : v35 x (ix3 e r f) = x (ix3 (leftT e) r f) := by
  refine (slabGather_apply (N := 8) (by omega) gather_S8x4096x512_S64x1_S64x4096x512_12_0_n_n_0_1_14096512
    rfl rfl rfl rfl rfl rfl x v34 e r f).trans ?_
  have hrow : (⟨min (v34 (ix2 e (0 : Fin 1))).toInt.toNat (8 - 1), by omega⟩ : Fin 8) = leftT e :=
    Fin.ext (by
      show min (v34 (ix2 e (0 : Fin 1))).toInt.toNat (8 - 1) = (leftT e).val
      rw [v34_apply]; exact lit3_left e)
  rw [hrow]

/-- A [64, 1, 512] array spread over the 4096 samples. -/
theorem samples_apply (T : FVec Ideal S64x1x512 .f32) (e : Fin 64) (r : Fin 4096) (f : Fin 512) :
    broadcastInDim S64x4096x512 ![0, 1, 2] bcast_S64x1x512_S64x4096x512_0_1_2 T (ix3 e r f) = T (ix3 e (0 : Fin 1) f) :=
  broadcastInDim_apply ![0, 1, 2] bcast_S64x1x512_S64x4096x512_0_1_2 T (ix3 e r f) (ix3 e (0 : Fin 1) f)
    fun ax => match ax with
      | ⟨0, _⟩ => rfl
      | ⟨1, _⟩ => rfl
      | ⟨2, _⟩ => rfl

theorem v36_apply (e : Fin 64) (r : Fin 4096) (f : Fin 512) : v36 gp (ix3 e r f) = v30 gp (ix3 e (0 : Fin 1) f) :=
  samples_apply (v30 gp) e r f

/-- An array selected by term e's right blade. -/
theorem gatherRight_apply (T : FVec Ideal S8x4096x512 .f32) (e : Fin 64) (r : Fin 4096) (f : Fin 512) :
    Host.gather gather_S8x4096x512_S64x1_S64x4096x512_12_0_n_n_0_1_14096512 T v41 (ix3 e r f) = T (ix3 (rightT e) r f) := by
  refine (slabGather_apply (N := 8) (by omega) gather_S8x4096x512_S64x1_S64x4096x512_12_0_n_n_0_1_14096512
    rfl rfl rfl rfl rfl rfl T v41 e r f).trans ?_
  have hrow : (⟨min (v41 (ix2 e (0 : Fin 1))).toInt.toNat (8 - 1), by omega⟩ : Fin 8) = rightT e :=
    Fin.ext (by
      show min (v41 (ix2 e (0 : Fin 1))).toInt.toNat (8 - 1) = (rightT e).val
      rw [v41_apply]; exact lit4_right e)
  rw [hrow]

theorem v42_apply (e : Fin 64) (r : Fin 4096) (f : Fin 512) :
    v42 x w b (ix3 e r f) = act (xrow x r) (wmat w) (bvec b) (rightT e) f := by
  refine (gatherRight_apply (v21 x w b) e r f).trans ?_
  rw [v21_apply, v8_apply]
  rfl

/-- The front half of the reference read at term e, sample r, feature f is the specification's Cayley term. -/
theorem front_apply (e : Fin 64) (r : Fin 4096) (f : Fin 512) :
    front x w b gp (ix3 e r f)
      = Cert.GradeNorm.term (Cert.GradeNorm.xrow x r) (Cert.GradeNorm.wmat w) (Cert.GradeNorm.bvec b)
          (Cert.GradeNorm.spw gp) e f := by
  show (v36 gp (ix3 e r f) * v35 x (ix3 e r f)) * v42 x w b (ix3 e r f) = _
  rw [v36_apply, v30_apply, v35_apply, v42_apply]
  rfl

end

end Read

end Cert.ReferenceIdeal.RefValue

end
-- ==== Proof.RefTail.lean ====
/-
  The second half of the reference: from the array T of the 64 Cayley terms (shape [64, 4096, 512]) to the result.

  The terms are added into eight blades by the product-blade table (an accumulating scatter into zeros); each grade's
  blades (blade 0; blades 1, 2, 3; blades 4, 5, 6; blade 7) are gathered, squared, summed over the grade's blades and
  the 512 features, divided by the number of summands (512 or 1536), the small constant is added, the root is taken,
  and the gathered blades are divided by it; the four pieces are laid one after the other along the blade axis.

  Each stage below is one operation of the program applied to earlier stages; `tail` is the last one. The theorem
  `tail_apply` reads the result at an index: blade k, sample r, feature f is
      acc k r f / sqrt ((sum over the blades k' of k's grade and all features f' of acc k' r f' ^ 2) / count + eps),
  where acc k r f is the sum of the terms T e r f over the e whose product blade is k.
-/
import proofs.«174987_j30442728194568_2_alg».proof.Proof.Spec
import proofs.«174987_j30442728194568_2_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace Cert.ReferenceIdeal.RefValue

open Idealize.ShloMosaic Idealize.SL.Sem Idealize.ShloMosaic.ValueIdx
open Cert.ReferenceIdeal Cert.ReferenceIdeal.Facts₀ Cert.ReferenceIdeal.Facts

/-! ## The stages, one per buffer -/

/-- The product-blade table. -/
def c_7 : IVec S64 32 := fun i => lit5 (S64.rowMajor i)
def c_8 : IVec S1 32 := constantI S1 32 0#32
def c_9 : IVec S1 1 := constantI S1 1 0#1
def c_10 : IVec S3 32 := fun i => lit6 (S3.rowMajor i)
def c_11 : IVec S3 1 := constantI S3 1 0#1
def c_12 : IVec S3 32 := fun i => lit7 (S3.rowMajor i)
def c_13 : IVec S3 1 := constantI S3 1 0#1
def c_14 : IVec S1 32 := constantI S1 32 7#32
def c_15 : IVec S1 1 := constantI S1 1 0#1

def cst_24 : FVec Ideal S_ .f32 := constant S_ .f32 0x00000000#32
def v44 : FVec Ideal S8x4096x512 .f32 := broadcastInDim S8x4096x512 ![] bcast_S_S8x4096x512 cst_24
def v45 : IVec S64x1 32 := broadcastInDim S64x1 ![0] bcast_S64_S64x1_0 c_7
/-- The eight blades: the terms added by their product blade. -/
def v46 (T : FVec Ideal S64x4096x512 .f32) : FVec Ideal S8x4096x512 .f32 :=
  Host.scatterAdd scatter_S8x4096x512_S64x1_S64x4096x512_12_0_0_1 v44 v45 T

/-! ### Grade 0: blade 0 -/

def c_25 : IVec S_ 32 := constantI S_ 32 8#32
def v47 : IVec S1 32 := broadcastInDim S1 ![] bcast_S_S1 c_25
def v48 : IVec S1 32 := addi c_8 v47
def v49 : IVec S1 32 := select c_9 v48 c_8
def v50 : IVec S1x1 32 := broadcastInDim S1x1 ![0] bcast_S1_S1x1_0 v49
def v51 (T : FVec Ideal S64x4096x512 .f32) : FVec Ideal S1x4096x512 .f32 := Host.gather gather_S8x4096x512_S1x1_S1x4096x512_12_0_n_n_0_1_14096512 (v46 T) v50
def v52 (T : FVec Ideal S64x4096x512 .f32) : FVec Ideal S1x4096x512 .f32 := mulf (v51 T) (v51 T)
def cst_26 : FVec Ideal S_ .f32 := constant S_ .f32 0x00000000#32
def v53 (T : FVec Ideal S64x4096x512 .f32) : FVec Ideal S4096 .f32 := Host.reduceAdd (v52 T) cst_26 reducesTo_S1x4096x512_S4096_d0_2 h_S_
def v54 (T : FVec Ideal S64x4096x512 .f32) : FVec Ideal S1x4096x1 .f32 := broadcastInDim S1x4096x1 ![1] bcast_S4096_S1x4096x1_1 (v53 T)
def cst_27 : FVec Ideal S_ .f32 := constant S_ .f32 0x44000000#32
def v55 : FVec Ideal S1x4096x1 .f32 := broadcastInDim S1x4096x1 ![] bcast_S_S1x4096x1 cst_27
def v56 (T : FVec Ideal S64x4096x512 .f32) : FVec Ideal S1x4096x1 .f32 := Host.divf (v54 T) v55
def cst_28 : FVec Ideal S_ .f32 := constant S_ .f32 0x358637BD#32
def v57 : FVec Ideal S1x4096x1 .f32 := broadcastInDim S1x4096x1 ![] bcast_S_S1x4096x1 cst_28
def v58 (T : FVec Ideal S64x4096x512 .f32) : FVec Ideal S1x4096x1 .f32 := addf (v56 T) v57
def v59 (T : FVec Ideal S64x4096x512 .f32) : FVec Ideal S1x4096x1 .f32 := Host.sqrt (v58 T)
def v60 (T : FVec Ideal S64x4096x512 .f32) : FVec Ideal S1x4096x512 .f32 := broadcastInDim S1x4096x512 ![0, 1, 2] bcast_S1x4096x1_S1x4096x512_0_1_2 (v59 T)
def v61 (T : FVec Ideal S64x4096x512 .f32) : FVec Ideal S1x4096x512 .f32 := Host.divf (v51 T) (v60 T)

/-! ### Grade 1: blades 1, 2, 3 -/

def c_29 : IVec S_ 32 := constantI S_ 32 8#32
def v62 : IVec S3 32 := broadcastInDim S3 ![] bcast_S_S3 c_29
def v63 : IVec S3 32 := addi c_10 v62
def v64 : IVec S3 32 := select c_11 v63 c_10
def v65 : IVec S3x1 32 := broadcastInDim S3x1 ![0] bcast_S3_S3x1_0 v64
def v66 (T : FVec Ideal S64x4096x512 .f32) : FVec Ideal S3x4096x512 .f32 := Host.gather gather_S8x4096x512_S3x1_S3x4096x512_12_0_n_n_0_1_14096512 (v46 T) v65
def v67 (T : FVec Ideal S64x4096x512 .f32) : FVec Ideal S3x4096x512 .f32 := mulf (v66 T) (v66 T)
def cst_30 : FVec Ideal S_ .f32 := constant S_ .f32 0x00000000#32
def v68 (T : FVec Ideal S64x4096x512 .f32) : FVec Ideal S4096 .f32 := Host.reduceAdd (v67 T) cst_30 reducesTo_S3x4096x512_S4096_d0_2 h_S_
def v69 (T : FVec Ideal S64x4096x512 .f32) : FVec Ideal S1x4096x1 .f32 := broadcastInDim S1x4096x1 ![1] bcast_S4096_S1x4096x1_1 (v68 T)
def cst_31 : FVec Ideal S_ .f32 := constant S_ .f32 0x44C00000#32
def v70 : FVec Ideal S1x4096x1 .f32 := broadcastInDim S1x4096x1 ![] bcast_S_S1x4096x1 cst_31
def v71 (T : FVec Ideal S64x4096x512 .f32) : FVec Ideal S1x4096x1 .f32 := Host.divf (v69 T) v70
def cst_32 : FVec Ideal S_ .f32 := constant S_ .f32 0x358637BD#32
def v72 : FVec Ideal S1x4096x1 .f32 := broadcastInDim S1x4096x1 ![] bcast_S_S1x4096x1 cst_32
def v73 (T : FVec Ideal S64x4096x512 .f32) : FVec Ideal S1x4096x1 .f32 := addf (v71 T) v72
def v74 (T : FVec Ideal S64x4096x512 .f32) : FVec Ideal S1x4096x1 .f32 := Host.sqrt (v73 T)
def v75 (T : FVec Ideal S64x4096x512 .f32) : FVec Ideal S3x4096x512 .f32 := broadcastInDim S3x4096x512 ![0, 1, 2] bcast_S1x4096x1_S3x4096x512_0_1_2 (v74 T)
def v76 (T : FVec Ideal S64x4096x512 .f32) : FVec Ideal S3x4096x512 .f32 := Host.divf (v66 T) (v75 T)

/-! ### Grade 2: blades 4, 5, 6 -/

def c_33 : IVec S_ 32 := constantI S_ 32 8#32
def v77 : IVec S3 32 := broadcastInDim S3 ![] bcast_S_S3 c_33
def v78 : IVec S3 32 := addi c_12 v77
def v79 : IVec S3 32 := select c_13 v78 c_12
def v80 : IVec S3x1 32 := broadcastInDim S3x1 ![0] bcast_S3_S3x1_0 v79
def v81 (T : FVec Ideal S64x4096x512 .f32) : FVec Ideal S3x4096x512 .f32 := Host.gather gather_S8x4096x512_S3x1_S3x4096x512_12_0_n_n_0_1_14096512 (v46 T) v80
def v82 (T : FVec Ideal S64x4096x512 .f32) : FVec Ideal S3x4096x512 .f32 := mulf (v81 T) (v81 T)
def cst_34 : FVec Ideal S_ .f32 := constant S_ .f32 0x00000000#32
def v83 (T : FVec Ideal S64x4096x512 .f32) : FVec Ideal S4096 .f32 := Host.reduceAdd (v82 T) cst_34 reducesTo_S3x4096x512_S4096_d0_2 h_S_
def v84 (T : FVec Ideal S64x4096x512 .f32) : FVec Ideal S1x4096x1 .f32 := broadcastInDim S1x4096x1 ![1] bcast_S4096_S1x4096x1_1 (v83 T)
def cst_35 : FVec Ideal S_ .f32 := constant S_ .f32 0x44C00000#32
def v85 : FVec Ideal S1x4096x1 .f32 := broadcastInDim S1x4096x1 ![] bcast_S_S1x4096x1 cst_35
def v86 (T : FVec Ideal S64x4096x512 .f32) : FVec Ideal S1x4096x1 .f32 := Host.divf (v84 T) v85
def cst_36 : FVec Ideal S_ .f32 := constant S_ .f32 0x358637BD#32
def v87 : FVec Ideal S1x4096x1 .f32 := broadcastInDim S1x4096x1 ![] bcast_S_S1x4096x1 cst_36
def v88 (T : FVec Ideal S64x4096x512 .f32) : FVec Ideal S1x4096x1 .f32 := addf (v86 T) v87
def v89 (T : FVec Ideal S64x4096x512 .f32) : FVec Ideal S1x4096x1 .f32 := Host.sqrt (v88 T)
def v90 (T : FVec Ideal S64x4096x512 .f32) : FVec Ideal S3x4096x512 .f32 := broadcastInDim S3x4096x512 ![0, 1, 2] bcast_S1x4096x1_S3x4096x512_0_1_2 (v89 T)
def v91 (T : FVec Ideal S64x4096x512 .f32) : FVec Ideal S3x4096x512 .f32 := Host.divf (v81 T) (v90 T)

/-! ### Grade 3: blade 7 -/

def c_37 : IVec S_ 32 := constantI S_ 32 8#32
def v92 : IVec S1 32 := broadcastInDim S1 ![] bcast_S_S1 c_37
def v93 : IVec S1 32 := addi c_14 v92
def v94 : IVec S1 32 := select c_15 v93 c_14
def v95 : IVec S1x1 32 := broadcastInDim S1x1 ![0] bcast_S1_S1x1_0 v94
def v96 (T : FVec Ideal S64x4096x512 .f32) : FVec Ideal S1x4096x512 .f32 := Host.gather gather_S8x4096x512_S1x1_S1x4096x512_12_0_n_n_0_1_14096512 (v46 T) v95
def v97 (T : FVec Ideal S64x4096x512 .f32) : FVec Ideal S1x4096x512 .f32 := mulf (v96 T) (v96 T)
def cst_38 : FVec Ideal S_ .f32 := constant S_ .f32 0x00000000#32
def v98 (T : FVec Ideal S64x4096x512 .f32) : FVec Ideal S4096 .f32 := Host.reduceAdd (v97 T) cst_38 reducesTo_S1x4096x512_S4096_d0_2 h_S_
def v99 (T : FVec Ideal S64x4096x512 .f32) : FVec Ideal S1x4096x1 .f32 := broadcastInDim S1x4096x1 ![1] bcast_S4096_S1x4096x1_1 (v98 T)
def cst_39 : FVec Ideal S_ .f32 := constant S_ .f32 0x44000000#32
def v100 : FVec Ideal S1x4096x1 .f32 := broadcastInDim S1x4096x1 ![] bcast_S_S1x4096x1 cst_39
def v101 (T : FVec Ideal S64x4096x512 .f32) : FVec Ideal S1x4096x1 .f32 := Host.divf (v99 T) v100
def cst_40 : FVec Ideal S_ .f32 := constant S_ .f32 0x358637BD#32
def v102 : FVec Ideal S1x4096x1 .f32 := broadcastInDim S1x4096x1 ![] bcast_S_S1x4096x1 cst_40
def v103 (T : FVec Ideal S64x4096x512 .f32) : FVec Ideal S1x4096x1 .f32 := addf (v101 T) v102
def v104 (T : FVec Ideal S64x4096x512 .f32) : FVec Ideal S1x4096x1 .f32 := Host.sqrt (v103 T)
def v105 (T : FVec Ideal S64x4096x512 .f32) : FVec Ideal S1x4096x512 .f32 := broadcastInDim S1x4096x512 ![0, 1, 2] bcast_S1x4096x1_S1x4096x512_0_1_2 (v104 T)
def v106 (T : FVec Ideal S64x4096x512 .f32) : FVec Ideal S1x4096x512 .f32 := Host.divf (v96 T) (v105 T)

/-- The four pieces as the family the concatenation reads. -/
def pieces (T : FVec Ideal S64x4096x512 .f32) :
    (k : Fin 4) → ((![main_v61, main_v76, main_v91, main_v106] : Fin 4 → Ref sig .tc) k).ty.Contents (Elt Ideal) :=
  Fin.cons (v61 T) (Fin.cons (v76 T) (Fin.cons (v91 T) (Fin.cons (v106 T) (fun i => i.elim0))))

/-- The result: the four scaled pieces along the blade axis. -/
def tail (T : FVec Ideal S64x4096x512 .f32) : FVec Ideal S8x4096x512 .f32 :=
  (fun u : (k : Fin 4) → ((![main_v61, main_v76, main_v91, main_v106] : Fin 4 → Ref sig .tc) k).ty.Contents (Elt Ideal) =>
    concatenate S8x4096x512 0 [⟨S1x4096x512, u 0⟩, ⟨S3x4096x512, u 1⟩, ⟨S3x4096x512, u 2⟩, ⟨S1x4096x512, u 3⟩]
      concatenates_S1x4096x512_S3x4096x512_S3x4096x512_S1x4096x512_S8x4096x512_d0) (pieces T)

/-! ## An accumulating scatter of whole slabs, a gather of whole slabs and a sum over the first and last axes, read at an index -/

/-- Slabs [E, R, C] scattered into [N, R, C] through start indices [E, 1]: entry (e, p, q) of the updates lands on
    (n, r, f) exactly when its start index, read signed, is n and the position inside the slab is kept. -/
theorem slabScatter_resultIdx {N R C E w : Nat} (d : ScatterDims ⟨3, ![N, R, C]⟩ ⟨2, ![E, 1]⟩ ⟨3, ![E, R, C]⟩)
    (h1 : d.updateWindowDims = [1, 2]) (h2 : d.insertedWindowDims = [0]) (h3 : d.scatterDimsToOperandDims = [0])
    (h4 : d.indexVectorDim = 1) (idx : IVec ⟨2, ![E, 1]⟩ w) (e : Fin E) (p : Fin R) (q : Fin C) (n : Fin N)
    (r : Fin R) (f : Fin C) :
    d.resultIdx? (ix3 e p q) idx = some (ix3 n r f) ↔ (idx (ix2 e 0)).toInt = (n.val : Int) ∧ p = r ∧ q = f := by
  obtain ⟨uw, iw, sd, iv, wf⟩ := d
  simp only at h1 h2 h3 h4
  subst h1 h2 h3 h4
  have hs0 : ScatterDims.start ⟨[1, 2], [0], [0], 1, wf⟩ (ix3 e p q) idx 0 = (idx (ix2 e 0)).toInt := by
    unfold ScatterDims.start
    rw [dif_pos (by simp)]
    congr 2
    funext b
    match b with
    | ⟨0, _⟩ => rfl
    | ⟨1, _⟩ => rfl
  have hs1 : ScatterDims.start ⟨[1, 2], [0], [0], 1, wf⟩ (ix3 e p q) idx 1 = 0 := by
    unfold ScatterDims.start
    rw [dif_neg (by simp)]
  have hs2 : ScatterDims.start ⟨[1, 2], [0], [0], 1, wf⟩ (ix3 e p q) idx 2 = 0 := by
    unfold ScatterDims.start
    rw [dif_neg (by simp)]
  have hw0 : ScatterDims.window ⟨[1, 2], [0], [0], 1, wf⟩ (ix3 e p q) 0 = 0 := by
    unfold ScatterDims.window
    rw [dif_neg (by simp [ScatterDims.sKept, Shape.kept])]
  have hw1 : ScatterDims.window ⟨[1, 2], [0], [0], 1, wf⟩ (ix3 e p q) 1 = p.val := by
    unfold ScatterDims.window
    rw [dif_pos (by simp [ScatterDims.sKept, Shape.kept])]
    rfl
  have hw2 : ScatterDims.window ⟨[1, 2], [0], [0], 1, wf⟩ (ix3 e p q) 2 = q.val := by
    unfold ScatterDims.window
    rw [dif_pos (by simp [ScatterDims.sKept, Shape.kept])]
    rfl
  unfold ScatterDims.resultIdx?
  constructor
  · intro h
    split at h
    · rename_i hc
      have hc0 := hc 0
      rw [hs0, hw0] at hc0
      have e0 := congrArg Fin.val (congrFun (Option.some.inj h) 0)
      have e1 := congrArg Fin.val (congrFun (Option.some.inj h) 1)
      have e2 := congrArg Fin.val (congrFun (Option.some.inj h) 2)
      simp only [hs0, hw0] at e0
      simp only [hs1, hw1] at e1
      simp only [hs2, hw2] at e2
      refine ⟨?_, Fin.ext ?_, Fin.ext ?_⟩
      · change ((idx (ix2 e 0)).toInt + ((0 : Nat) : Int)).toNat = n.val at e0
        change 0 ≤ (idx (ix2 e 0)).toInt + ((0 : Nat) : Int) ∧ _ at hc0
        omega
      · change ((0 : Int) + ((p.val : Nat) : Int)).toNat = r.val at e1
        omega
      · change ((0 : Int) + ((q.val : Nat) : Int)).toNat = f.val at e2
        omega
    · exact absurd h (by simp)
  · rintro ⟨h, rfl, rfl⟩
    refine (dif_pos ?_).trans ?_
    · intro a
      match a with
      | ⟨0, _⟩ =>
        have := n.isLt
        show 0 ≤ ScatterDims.start ⟨[1, 2], [0], [0], 1, wf⟩ (ix3 e p q) idx 0 + ((ScatterDims.window ⟨[1, 2], [0], [0], 1, wf⟩ (ix3 e p q) 0 : Nat) : Int)
          ∧ ScatterDims.start ⟨[1, 2], [0], [0], 1, wf⟩ (ix3 e p q) idx 0 + ((ScatterDims.window ⟨[1, 2], [0], [0], 1, wf⟩ (ix3 e p q) 0 : Nat) : Int) < (N : Int)
        rw [hs0, hw0]
        omega
      | ⟨1, _⟩ =>
        have := p.isLt
        show 0 ≤ ScatterDims.start ⟨[1, 2], [0], [0], 1, wf⟩ (ix3 e p q) idx 1 + ((ScatterDims.window ⟨[1, 2], [0], [0], 1, wf⟩ (ix3 e p q) 1 : Nat) : Int)
          ∧ ScatterDims.start ⟨[1, 2], [0], [0], 1, wf⟩ (ix3 e p q) idx 1 + ((ScatterDims.window ⟨[1, 2], [0], [0], 1, wf⟩ (ix3 e p q) 1 : Nat) : Int) < (R : Int)
        rw [hs1, hw1]
        omega
      | ⟨2, _⟩ =>
        have := q.isLt
        show 0 ≤ ScatterDims.start ⟨[1, 2], [0], [0], 1, wf⟩ (ix3 e p q) idx 2 + ((ScatterDims.window ⟨[1, 2], [0], [0], 1, wf⟩ (ix3 e p q) 2 : Nat) : Int)
          ∧ ScatterDims.start ⟨[1, 2], [0], [0], 1, wf⟩ (ix3 e p q) idx 2 + ((ScatterDims.window ⟨[1, 2], [0], [0], 1, wf⟩ (ix3 e p q) 2 : Nat) : Int) < (C : Int)
        rw [hs2, hw2]
        omega
    · congr 1
      funext a
      match a with
      | ⟨0, _⟩ =>
        apply Fin.ext
        show (ScatterDims.start ⟨[1, 2], [0], [0], 1, wf⟩ (ix3 e p q) idx 0 + ((ScatterDims.window ⟨[1, 2], [0], [0], 1, wf⟩ (ix3 e p q) 0 : Nat) : Int)).toNat = n.val
        rw [hs0, hw0]
        omega
      | ⟨1, _⟩ =>
        apply Fin.ext
        show (ScatterDims.start ⟨[1, 2], [0], [0], 1, wf⟩ (ix3 e p q) idx 1 + ((ScatterDims.window ⟨[1, 2], [0], [0], 1, wf⟩ (ix3 e p q) 1 : Nat) : Int)).toNat = p.val
        rw [hs1, hw1]
        omega
      | ⟨2, _⟩ =>
        apply Fin.ext
        show (ScatterDims.start ⟨[1, 2], [0], [0], 1, wf⟩ (ix3 e p q) idx 2 + ((ScatterDims.window ⟨[1, 2], [0], [0], 1, wf⟩ (ix3 e p q) 2 : Nat) : Int)).toNat = q.val
        rw [hs2, hw2]
        omega

/-- Entry (n, r, f) of an accumulating slab scatter: the operand's entry plus the sum, over the updates whose start
    index is n, of the update's entry at (r, f). -/
theorem slabScatterAdd_apply {N R C E w : Nat} (d : ScatterDims ⟨3, ![N, R, C]⟩ ⟨2, ![E, 1]⟩ ⟨3, ![E, R, C]⟩)
    (h1 : d.updateWindowDims = [1, 2]) (h2 : d.insertedWindowDims = [0]) (h3 : d.scatterDimsToOperandDims = [0])
    (h4 : d.indexVectorDim = 1) (x : (⟨3, ![N, R, C]⟩ : Shape).Idx → EReal) (idx : IVec ⟨2, ![E, 1]⟩ w)
    (upd : (⟨3, ![E, R, C]⟩ : Shape).Idx → EReal) (n : Fin N) (r : Fin R) (f : Fin C) :
    Ideal.hostScatterAdd d x idx upd (ix3 n r f)
      = x (ix3 n r f) + ∑ e ∈ Finset.univ.filter (fun e : Fin E => (idx (ix2 e 0)).toInt = (n.val : Int)), upd (ix3 e r f) := by
  unfold Ideal.hostScatterAdd
  congr 1
  have key : ∀ j : (⟨3, ![E, R, C]⟩ : Shape).Idx, d.resultIdx? j idx = some (ix3 n r f) ↔
      (idx (ix2 (j 0 : Fin E) 0)).toInt = (n.val : Int) ∧ (j 1 : Fin R) = r ∧ (j 2 : Fin C) = f := fun j => by
    conv_lhs => rw [eq_ix3 j]
    exact slabScatter_resultIdx d h1 h2 h3 h4 idx _ _ _ n r f
  refine Finset.sum_nbij' (fun j => (j 0 : Fin E)) (fun e => ix3 e r f) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix3 e r f)).2 ⟨(Finset.mem_filter.1 he).2, rfl, rfl⟩⟩
  · intro j hj
    have hf := ((key j).1 (Finset.mem_filter.1 hj).2).2
    show ix3 (j 0 : Fin E) r f = j
    rw [← hf.1, ← hf.2]
    exact (eq_ix3 j).symm
  · intro e _
    rfl
  · intro j hj
    have hf := ((key j).1 (Finset.mem_filter.1 hj).2).2
    show upd j = upd (ix3 (j 0 : Fin E) r f)
    rw [← hf.1, ← hf.2]
    exact congrArg upd (eq_ix3 j)

/-- The row a start index selects: read signed, clamped into [0, N - 1]. -/
def slabRow (N : Nat) (hN : 0 < N) {w : Nat} (v : BitVec w) : Fin N := ⟨min v.toInt.toNat (N - 1), by omega⟩

/-- Entry (e, r, f) of a gather of whole slabs: the operand's entry (r, f) in the slab the e-th start index selects. -/
theorem slabRowGather_apply {N R C E w : Nat} (hN : 0 < N) {α : Type} (g : GatherDims ⟨3, ![N, R, C]⟩ ⟨2, ![E, 1]⟩ ⟨3, ![E, R, C]⟩)
    (h1 : g.offsetDims = [1, 2]) (h2 : g.collapsedSliceDims = [0]) (h3 : g.operandBatchingDims = [])
    (h4 : g.startIndexMap = [0]) (h5 : g.indexVectorDim = 1) (h6 : g.sliceSizes = ![1, R, C])
    (T : (⟨3, ![N, R, C]⟩ : Shape).Idx → α) (idx : IVec ⟨2, ![E, 1]⟩ w) (e : Fin E) (r : Fin R) (f : Fin C) :
    Host.gather g T idx (ix3 e r f) = T (ix3 (slabRow N hN (idx (ix2 e 0))) r f) := by
  obtain ⟨od, cd, ob, sb, sm, iv, ss, wf⟩ := g
  simp only at h1 h2 h3 h4 h5 h6
  subst h1 h2 h3 h4 h5 h6
  unfold Host.gather
  congr 1
  funext a
  refine Fin.ext ?_
  match a with
  | ⟨0, _⟩ =>
    show GatherDims.start (⟨[1, 2], [0], [], sb, [0], 1, ![1, R, C], wf⟩ : GatherDims ⟨3, ![N, R, C]⟩ ⟨2, ![E, 1]⟩ ⟨3, ![E, R, C]⟩) (ix3 e r f) idx 0
      + GatherDims.batchCoord (⟨[1, 2], [0], [], sb, [0], 1, ![1, R, C], wf⟩ : GatherDims ⟨3, ![N, R, C]⟩ ⟨2, ![E, 1]⟩ ⟨3, ![E, R, C]⟩) (ix3 e r f) 0
      + GatherDims.offCoord (⟨[1, 2], [0], [], sb, [0], 1, ![1, R, C], wf⟩ : GatherDims ⟨3, ![N, R, C]⟩ ⟨2, ![E, 1]⟩ ⟨3, ![E, R, C]⟩) (ix3 e r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1, 2], [0], [], sb, [0], 1, ![1, R, C], wf⟩ : GatherDims ⟨3, ![N, R, C]⟩ ⟨2, ![E, 1]⟩ ⟨3, ![E, R, C]⟩) (ix3 e r f)
        ⟨List.idxOf (0 : Fin 3) [0], List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show GatherDims.start (⟨[1, 2], [0], [], sb, [0], 1, ![1, R, C], wf⟩ : GatherDims ⟨3, ![N, R, C]⟩ ⟨2, ![E, 1]⟩ ⟨3, ![E, R, C]⟩) (ix3 e r f) idx 1
      + GatherDims.batchCoord (⟨[1, 2], [0], [], sb, [0], 1, ![1, R, C], wf⟩ : GatherDims ⟨3, ![N, R, C]⟩ ⟨2, ![E, 1]⟩ ⟨3, ![E, R, C]⟩) (ix3 e r f) 1
      + GatherDims.offCoord (⟨[1, 2], [0], [], sb, [0], 1, ![1, R, C], wf⟩ : GatherDims ⟨3, ![N, R, C]⟩ ⟨2, ![E, 1]⟩ ⟨3, ![E, R, C]⟩) (ix3 e r f) 1 = r.val
    rw [GatherDims.batchCoord_eq_zero _ _ _ List.not_mem_nil]
    unfold GatherDims.start
    rw [dif_neg (by simp)]
    unfold GatherDims.offCoord
    rw [dif_pos (by simp [GatherDims.sKept, Shape.kept])]
    simp only [Nat.zero_add, Nat.add_zero]
    rfl
  | ⟨2, _⟩ =>
    show GatherDims.start (⟨[1, 2], [0], [], sb, [0], 1, ![1, R, C], wf⟩ : GatherDims ⟨3, ![N, R, C]⟩ ⟨2, ![E, 1]⟩ ⟨3, ![E, R, C]⟩) (ix3 e r f) idx 2
      + GatherDims.batchCoord (⟨[1, 2], [0], [], sb, [0], 1, ![1, R, C], wf⟩ : GatherDims ⟨3, ![N, R, C]⟩ ⟨2, ![E, 1]⟩ ⟨3, ![E, R, C]⟩) (ix3 e r f) 2
      + GatherDims.offCoord (⟨[1, 2], [0], [], sb, [0], 1, ![1, R, C], wf⟩ : GatherDims ⟨3, ![N, R, C]⟩ ⟨2, ![E, 1]⟩ ⟨3, ![E, R, C]⟩) (ix3 e r f) 2 = f.val
    rw [GatherDims.batchCoord_eq_zero _ _ _ List.not_mem_nil]
    unfold GatherDims.start
    rw [dif_neg (by simp)]
    unfold GatherDims.offCoord
    rw [dif_pos (by simp [GatherDims.sKept, Shape.kept])]
    simp only [Nat.zero_add, Nat.add_zero]
    rfl

/-- A host sum over the first and last axes of [G, R, C], read at r: the initial value plus the double sum over the
    first and last coordinates. -/
theorem bladeFeatureSum_apply {G R C : Nat} (h' : (⟨3, ![G, R, C]⟩ : Shape).ReducesTo [0, 2] ⟨1, ![R]⟩)
    (x : (⟨3, ![G, R, C]⟩ : Shape).Idx → EReal) (init : EReal) (r : Fin R) :
    Ideal.hostReduceAdd h' x init (ix1 r) = init + ∑ b : Fin G, ∑ f : Fin C, x (ix3 b r f) := by
  have key : ∀ i : (⟨3, ![G, R, C]⟩ : Shape).Idx, h'.drop i = ix1 r ↔ (i 1 : Fin R) = r := fun i => by
    have hv : ((h'.drop i (0 : Fin 1) : Fin R) : Nat) = ((i 1 : Fin R) : Nat) := rfl
    constructor
    · intro h
      apply Fin.ext
      rw [← hv, h]
    · intro h
      funext b
      obtain rfl : b = 0 := Subsingleton.elim _ _
      apply Fin.ext
      show ((h'.drop i (0 : Fin 1) : Fin R) : Nat) = r.val
      rw [hv, h]
  unfold Ideal.hostReduceAdd
  congr 1
  rw [← Fintype.sum_prod_type' (f := fun (b : Fin G) (f : Fin C) => x (ix3 b r f))]
  refine Finset.sum_nbij' (fun i => ((i 0 : Fin G), (i 2 : Fin C))) (fun p => ix3 p.1 r p.2) ?_ ?_ ?_ ?_ ?_
  · intro i _; exact Finset.mem_univ _
  · intro p _; exact Finset.mem_filter.2 ⟨Finset.mem_univ _, (key _).2 rfl⟩
  · intro i hi
    have h1 := (key i).1 (Finset.mem_filter.1 hi).2
    show ix3 (i 0 : Fin G) r (i 2 : Fin C) = i
    rw [← h1]; exact (eq_ix3 i).symm
  · intro p _; rfl
  · intro i hi
    have h1 := (key i).1 (Finset.mem_filter.1 hi).2
    show x i = x (ix3 (i 0 : Fin G) r (i 2 : Fin C))
    rw [← h1]; exact congrArg x (eq_ix3 i)

/-! ## The eight blades -/

/-- The sum of the terms whose product blade is k. -/
def accT (T : FVec Ideal S64x4096x512 .f32) (k : Fin 8) (r : Fin 4096) (f : Fin 512) : EReal :=
  ∑ e ∈ Finset.univ.filter (fun e : Fin 64 => Cert.GradeNorm.prodT e = k), T (ix3 e r f)

theorem v44_apply (i : S8x4096x512.Idx) : v44 i = 0 := Ideal.ofBits_zero_f32

set_option maxRecDepth 100000 in
/-- The printed product-blade table is the Cayley table. -/
theorem lit5_toInt : ∀ e : Fin 64, (lit5 e).toInt = ((Cert.GradeNorm.prodT e).val : Int) := by decide

theorem v45_apply (e : Fin 64) : v45 (ix2 e 0) = lit5 e := by
  show lit5 (S64.rowMajor _) = lit5 e
  congr 1
  apply Fin.ext
  rw [Shape.rowMajor_val_one]
  rfl

theorem v46_apply (T : FVec Ideal S64x4096x512 .f32) (k : Fin 8) (r : Fin 4096) (f : Fin 512) :
    v46 T (ix3 k r f) = accT T k r f := by
  refine (slabScatterAdd_apply (N := 8) (R := 4096) (C := 512) (E := 64)
    scatter_S8x4096x512_S64x1_S64x4096x512_12_0_0_1 rfl rfl rfl rfl v44 v45 T k r f).trans ?_
  rw [v44_apply, zero_add]
  unfold accT
  refine Finset.sum_congr ?_ (fun _ _ => rfl)
  ext e
  simp only [Finset.mem_filter, Finset.mem_univ, true_and]
  rw [v45_apply, lit5_toInt]
  constructor
  · intro h; exact Fin.ext (by exact_mod_cast h)
  · intro h; rw [h]

/-! ## One grade's scaling, over any gathered blades -/

/-- The float word of 512 is the real number 512. -/
theorem word_512 : Ideal.ofBits .f32 0x44000000#32 = ((512 : ℝ) : EReal) := by
  simp [Ideal.ofBits, Ideal.ieee, -EReal.coe_mul]; norm_num

/-- The float word of 1536 is the real number 1536. -/
theorem word_1536 : Ideal.ofBits .f32 0x44C00000#32 = ((1536 : ℝ) : EReal) := by
  simp [Ideal.ofBits, Ideal.ieee, -EReal.coe_mul]; norm_num

/-- The operations from a grade's gathered blades g to its scaled blades: square, sum over blades and features,
    divide by the count, add the small constant, take the root, divide g by it. -/
def gradeScale {G : Nat} (g : FVec Ideal ⟨3, ![G, 4096, 512]⟩ .f32)
    (hred : (⟨3, ![G, 4096, 512]⟩ : Shape).ReducesTo [0, 2] S4096)
    (hb : S1x4096x1.BroadcastsInDim ⟨3, ![G, 4096, 512]⟩ (![0, 1, 2] : Fin 3 → Fin 3)) (word : BitVec 32) :
    FVec Ideal ⟨3, ![G, 4096, 512]⟩ .f32 :=
  Host.divf g (broadcastInDim ⟨3, ![G, 4096, 512]⟩ ![0, 1, 2] hb (Host.sqrt (addf (Host.divf
    (broadcastInDim S1x4096x1 ![1] bcast_S4096_S1x4096x1_1 (Host.reduceAdd (mulf g g) (constant (F := Ideal) S_ .f32 0x00000000#32) hred h_S_))
    (broadcastInDim S1x4096x1 ![] bcast_S_S1x4096x1 (constant (F := Ideal) S_ .f32 word)))
    (broadcastInDim S1x4096x1 ![] bcast_S_S1x4096x1 (constant (F := Ideal) S_ .f32 0x358637BD#32)))))

theorem gradeScale_apply {G : Nat} (g : FVec Ideal ⟨3, ![G, 4096, 512]⟩ .f32)
    (hred : (⟨3, ![G, 4096, 512]⟩ : Shape).ReducesTo [0, 2] S4096)
    (hb : S1x4096x1.BroadcastsInDim ⟨3, ![G, 4096, 512]⟩ (![0, 1, 2] : Fin 3 → Fin 3)) (word : BitVec 32)
    (b : Fin G) (r : Fin 4096) (f : Fin 512) :
    gradeScale g hred hb word (ix3 b r f)
      = Ideal.div (g (ix3 b r f)) (Ideal.sqrt (Ideal.div
          (0 + ∑ b' : Fin G, ∑ f' : Fin 512, g (ix3 b' r f') * g (ix3 b' r f')) (Ideal.ofBits .f32 word)
          + Cert.GradeNorm.cEps)) := by
  show Ideal.div (g (ix3 b r f)) (broadcastInDim (s := S1x4096x1) ⟨3, ![G, 4096, 512]⟩ ![0, 1, 2] hb _ (ix3 b r f)) = _
  congr 1
  refine (broadcastInDim_apply ![0, 1, 2] hb _ (ix3 b r f) (ix3 (0 : Fin 1) r (0 : Fin 1)) ?_).trans ?_
  · intro a
    match a with
    | ⟨0, _⟩ => rfl
    | ⟨1, _⟩ => rfl
    | ⟨2, _⟩ => rfl
  show Ideal.sqrt (Ideal.div (broadcastInDim (s := S4096) S1x4096x1 ![1] bcast_S4096_S1x4096x1_1 _ (ix3 (0 : Fin 1) r (0 : Fin 1)))
    (Ideal.ofBits .f32 word) + Cert.GradeNorm.cEps) = _
  congr 3
  refine (broadcastInDim_apply ![1] bcast_S4096_S1x4096x1_1 _ (ix3 (0 : Fin 1) r (0 : Fin 1)) (ix1 r) ?_).trans ?_
  · intro a
    match a with
    | ⟨0, _⟩ => rfl
  refine (bladeFeatureSum_apply (G := G) (R := 4096) (C := 512) hred (mulf g g) (Ideal.ofBits .f32 0x00000000#32) r).trans ?_
  rw [Ideal.ofBits_zero_f32]
  rfl

/-! ## The gathered blades -/

/-- The blades of the four grades: 0; 1, 2, 3; 4, 5, 6; 7. -/
def blade0 (b : Fin 1) : Fin 8 := ⟨0 + b.val, by omega⟩
def blade1 (b : Fin 3) : Fin 8 := ⟨1 + b.val, by omega⟩
def blade2 (b : Fin 3) : Fin 8 := ⟨4 + b.val, by omega⟩
def blade3 (b : Fin 1) : Fin 8 := ⟨7 + b.val, by omega⟩

theorem v50_apply (e : Fin 1) : v50 (ix2 e 0) = 0#32 := rfl
theorem v95_apply (e : Fin 1) : v95 (ix2 e 0) = 7#32 := rfl

theorem v65_apply (e : Fin 3) : v65 (ix2 e 0) = lit6 e := by
  show lit6 (S3.rowMajor _) = lit6 e
  congr 1
  apply Fin.ext
  rw [Shape.rowMajor_val_one]
  rfl

theorem v80_apply (e : Fin 3) : v80 (ix2 e 0) = lit7 e := by
  show lit7 (S3.rowMajor _) = lit7 e
  congr 1
  apply Fin.ext
  rw [Shape.rowMajor_val_one]
  rfl

theorem v51_apply (T : FVec Ideal S64x4096x512 .f32) (b : Fin 1) (r : Fin 4096) (f : Fin 512) :
    v51 T (ix3 b r f) = accT T (blade0 b) r f := by
  refine (slabRowGather_apply (N := 8) (R := 4096) (C := 512) (E := 1) (by decide) gather_S8x4096x512_S1x1_S1x4096x512_12_0_n_n_0_1_14096512
    rfl rfl rfl rfl rfl rfl (v46 T) v50 b r f).trans ?_
  rw [v50_apply]
  have hc : slabRow 8 (by decide) (0#32 : BitVec 32) = blade0 b := by
    obtain rfl : b = 0 := Subsingleton.elim _ _
    decide
  rw [hc]
  exact v46_apply T _ r f

theorem v96_apply (T : FVec Ideal S64x4096x512 .f32) (b : Fin 1) (r : Fin 4096) (f : Fin 512) :
    v96 T (ix3 b r f) = accT T (blade3 b) r f := by
  refine (slabRowGather_apply (N := 8) (R := 4096) (C := 512) (E := 1) (by decide) gather_S8x4096x512_S1x1_S1x4096x512_12_0_n_n_0_1_14096512
    rfl rfl rfl rfl rfl rfl (v46 T) v95 b r f).trans ?_
  rw [v95_apply]
  have hc : slabRow 8 (by decide) (7#32 : BitVec 32) = blade3 b := by
    obtain rfl : b = 0 := Subsingleton.elim _ _
    decide
  rw [hc]
  exact v46_apply T _ r f

theorem v66_apply (T : FVec Ideal S64x4096x512 .f32) (b : Fin 3) (r : Fin 4096) (f : Fin 512) :
    v66 T (ix3 b r f) = accT T (blade1 b) r f := by
  refine (slabRowGather_apply (N := 8) (R := 4096) (C := 512) (E := 3) (by decide) gather_S8x4096x512_S3x1_S3x4096x512_12_0_n_n_0_1_14096512
    rfl rfl rfl rfl rfl rfl (v46 T) v65 b r f).trans ?_
  rw [v65_apply]
  have hc : slabRow 8 (by decide) (lit6 b) = blade1 b := by
    fin_cases b <;> decide
  rw [hc]
  exact v46_apply T _ r f

theorem v81_apply (T : FVec Ideal S64x4096x512 .f32) (b : Fin 3) (r : Fin 4096) (f : Fin 512) :
    v81 T (ix3 b r f) = accT T (blade2 b) r f := by
  refine (slabRowGather_apply (N := 8) (R := 4096) (C := 512) (E := 3) (by decide) gather_S8x4096x512_S3x1_S3x4096x512_12_0_n_n_0_1_14096512
    rfl rfl rfl rfl rfl rfl (v46 T) v80 b r f).trans ?_
  rw [v80_apply]
  have hc : slabRow 8 (by decide) (lit7 b) = blade2 b := by
    fin_cases b <;> decide
  rw [hc]
  exact v46_apply T _ r f

/-! ## Each grade's piece is the grade's scaling of its gathered blades -/

theorem v61_eq (T : FVec Ideal S64x4096x512 .f32) : v61 T = gradeScale (G := 1) (v51 T) reducesTo_S1x4096x512_S4096_d0_2
    bcast_S1x4096x1_S1x4096x512_0_1_2 0x44000000#32 := rfl
theorem v76_eq (T : FVec Ideal S64x4096x512 .f32) : v76 T = gradeScale (G := 3) (v66 T) reducesTo_S3x4096x512_S4096_d0_2
    bcast_S1x4096x1_S3x4096x512_0_1_2 0x44C00000#32 := rfl
theorem v91_eq (T : FVec Ideal S64x4096x512 .f32) : v91 T = gradeScale (G := 3) (v81 T) reducesTo_S3x4096x512_S4096_d0_2
    bcast_S1x4096x1_S3x4096x512_0_1_2 0x44C00000#32 := rfl
theorem v106_eq (T : FVec Ideal S64x4096x512 .f32) : v106 T = gradeScale (G := 1) (v96 T) reducesTo_S1x4096x512_S4096_d0_2
    bcast_S1x4096x1_S1x4096x512_0_1_2 0x44000000#32 := rfl

/-! ## The concatenation, piece by piece -/

theorem tail_piece0 (T : FVec Ideal S64x4096x512 .f32) (b : Fin 1) (r : Fin 4096) (f : Fin 512) :
    tail T (ix3 (blade0 b) r f) = v61 T (ix3 b r f) :=
  concatenate_apply_piece (t := S8x4096x512) (0 : Fin 3) [⟨S1x4096x512, v61 T⟩, ⟨S3x4096x512, v76 T⟩, ⟨S3x4096x512, v91 T⟩, ⟨S1x4096x512, v106 T⟩]
    concatenates_S1x4096x512_S3x4096x512_S3x4096x512_S1x4096x512_S8x4096x512_d0 (ix3 (blade0 b) r f) 0 (by simp) S1x4096x512 (v61 T) rfl rfl 0 rfl (ix3 b r f)
    (fun a ha => by
      match a, ha with
      | ⟨0, _⟩, ha => exact absurd rfl ha
      | ⟨1, _⟩, _ => rfl
      | ⟨2, _⟩, _ => rfl) rfl

theorem tail_piece1 (T : FVec Ideal S64x4096x512 .f32) (b : Fin 3) (r : Fin 4096) (f : Fin 512) :
    tail T (ix3 (blade1 b) r f) = v76 T (ix3 b r f) :=
  concatenate_apply_piece (t := S8x4096x512) (0 : Fin 3) [⟨S1x4096x512, v61 T⟩, ⟨S3x4096x512, v76 T⟩, ⟨S3x4096x512, v91 T⟩, ⟨S1x4096x512, v106 T⟩]
    concatenates_S1x4096x512_S3x4096x512_S3x4096x512_S1x4096x512_S8x4096x512_d0 (ix3 (blade1 b) r f) 1 (by simp) S3x4096x512 (v76 T) rfl rfl 1 rfl (ix3 b r f)
    (fun a ha => by
      match a, ha with
      | ⟨0, _⟩, ha => exact absurd rfl ha
      | ⟨1, _⟩, _ => rfl
      | ⟨2, _⟩, _ => rfl) rfl

theorem tail_piece2 (T : FVec Ideal S64x4096x512 .f32) (b : Fin 3) (r : Fin 4096) (f : Fin 512) :
    tail T (ix3 (blade2 b) r f) = v91 T (ix3 b r f) :=
  concatenate_apply_piece (t := S8x4096x512) (0 : Fin 3) [⟨S1x4096x512, v61 T⟩, ⟨S3x4096x512, v76 T⟩, ⟨S3x4096x512, v91 T⟩, ⟨S1x4096x512, v106 T⟩]
    concatenates_S1x4096x512_S3x4096x512_S3x4096x512_S1x4096x512_S8x4096x512_d0 (ix3 (blade2 b) r f) 2 (by simp) S3x4096x512 (v91 T) rfl rfl 4 rfl (ix3 b r f)
    (fun a ha => by
      match a, ha with
      | ⟨0, _⟩, ha => exact absurd rfl ha
      | ⟨1, _⟩, _ => rfl
      | ⟨2, _⟩, _ => rfl) rfl

theorem tail_piece3 (T : FVec Ideal S64x4096x512 .f32) (b : Fin 1) (r : Fin 4096) (f : Fin 512) :
    tail T (ix3 (blade3 b) r f) = v106 T (ix3 b r f) :=
  concatenate_apply_piece (t := S8x4096x512) (0 : Fin 3) [⟨S1x4096x512, v61 T⟩, ⟨S3x4096x512, v76 T⟩, ⟨S3x4096x512, v91 T⟩, ⟨S1x4096x512, v106 T⟩]
    concatenates_S1x4096x512_S3x4096x512_S3x4096x512_S1x4096x512_S8x4096x512_d0 (ix3 (blade3 b) r f) 3 (by simp) S1x4096x512 (v106 T) rfl rfl 7 rfl (ix3 b r f)
    (fun a ha => by
      match a, ha with
      | ⟨0, _⟩, ha => exact absurd rfl ha
      | ⟨1, _⟩, _ => rfl
      | ⟨2, _⟩, _ => rfl) rfl

/-! ## The blades of a grade -/

theorem gsum0 (F : Fin 8 → EReal) :
    ∑ k' ∈ Finset.univ.filter (fun k' : Fin 8 => Cert.GradeNorm.gradeT k' = 0), F k' = 0 + ∑ b : Fin 1, F (blade0 b) := by
  rw [Finset.sum_filter, Fin.sum_univ_eight, Fin.sum_univ_one]
  rw [if_pos (by decide : Cert.GradeNorm.gradeT 0 = 0),
    if_neg (by decide : ¬ Cert.GradeNorm.gradeT 1 = 0),
    if_neg (by decide : ¬ Cert.GradeNorm.gradeT 2 = 0),
    if_neg (by decide : ¬ Cert.GradeNorm.gradeT 3 = 0),
    if_neg (by decide : ¬ Cert.GradeNorm.gradeT 4 = 0),
    if_neg (by decide : ¬ Cert.GradeNorm.gradeT 5 = 0),
    if_neg (by decide : ¬ Cert.GradeNorm.gradeT 6 = 0),
    if_neg (by decide : ¬ Cert.GradeNorm.gradeT 7 = 0)]
  simp only [add_zero, zero_add]
  rfl

theorem gsum1 (F : Fin 8 → EReal) :
    ∑ k' ∈ Finset.univ.filter (fun k' : Fin 8 => Cert.GradeNorm.gradeT k' = 1), F k' = 0 + ∑ b : Fin 3, F (blade1 b) := by
  rw [Finset.sum_filter, Fin.sum_univ_eight, Fin.sum_univ_three]
  rw [if_neg (by decide : ¬ Cert.GradeNorm.gradeT 0 = 1),
    if_pos (by decide : Cert.GradeNorm.gradeT 1 = 1),
    if_pos (by decide : Cert.GradeNorm.gradeT 2 = 1),
    if_pos (by decide : Cert.GradeNorm.gradeT 3 = 1),
    if_neg (by decide : ¬ Cert.GradeNorm.gradeT 4 = 1),
    if_neg (by decide : ¬ Cert.GradeNorm.gradeT 5 = 1),
    if_neg (by decide : ¬ Cert.GradeNorm.gradeT 6 = 1),
    if_neg (by decide : ¬ Cert.GradeNorm.gradeT 7 = 1)]
  simp only [add_zero, zero_add]
  rfl

theorem gsum2 (F : Fin 8 → EReal) :
    ∑ k' ∈ Finset.univ.filter (fun k' : Fin 8 => Cert.GradeNorm.gradeT k' = 2), F k' = 0 + ∑ b : Fin 3, F (blade2 b) := by
  rw [Finset.sum_filter, Fin.sum_univ_eight, Fin.sum_univ_three]
  rw [if_neg (by decide : ¬ Cert.GradeNorm.gradeT 0 = 2),
    if_neg (by decide : ¬ Cert.GradeNorm.gradeT 1 = 2),
    if_neg (by decide : ¬ Cert.GradeNorm.gradeT 2 = 2),
    if_neg (by decide : ¬ Cert.GradeNorm.gradeT 3 = 2),
    if_pos (by decide : Cert.GradeNorm.gradeT 4 = 2),
    if_pos (by decide : Cert.GradeNorm.gradeT 5 = 2),
    if_pos (by decide : Cert.GradeNorm.gradeT 6 = 2),
    if_neg (by decide : ¬ Cert.GradeNorm.gradeT 7 = 2)]
  simp only [add_zero, zero_add]
  rfl

theorem gsum3 (F : Fin 8 → EReal) :
    ∑ k' ∈ Finset.univ.filter (fun k' : Fin 8 => Cert.GradeNorm.gradeT k' = 3), F k' = 0 + ∑ b : Fin 1, F (blade3 b) := by
  rw [Finset.sum_filter, Fin.sum_univ_eight, Fin.sum_univ_one]
  rw [if_neg (by decide : ¬ Cert.GradeNorm.gradeT 0 = 3),
    if_neg (by decide : ¬ Cert.GradeNorm.gradeT 1 = 3),
    if_neg (by decide : ¬ Cert.GradeNorm.gradeT 2 = 3),
    if_neg (by decide : ¬ Cert.GradeNorm.gradeT 3 = 3),
    if_neg (by decide : ¬ Cert.GradeNorm.gradeT 4 = 3),
    if_neg (by decide : ¬ Cert.GradeNorm.gradeT 5 = 3),
    if_neg (by decide : ¬ Cert.GradeNorm.gradeT 6 = 3),
    if_pos (by decide : Cert.GradeNorm.gradeT 7 = 3)]
  simp only [add_zero, zero_add]
  rfl

/-! ## The result, grade by grade -/

theorem tail_g0 (T : FVec Ideal S64x4096x512 .f32) (b : Fin 1) (r : Fin 4096) (f : Fin 512) :
    tail T (ix3 (blade0 b) r f) = Ideal.div (accT T (blade0 b) r f)
      (Ideal.sqrt (Ideal.div (∑ k' ∈ Finset.univ.filter (fun k' : Fin 8 => Cert.GradeNorm.gradeT k' = 0),
          ∑ f' : Fin 512, accT T k' r f' * accT T k' r f') (((512 : ℝ)) : EReal) + Cert.GradeNorm.cEps)) := by
  rw [tail_piece0, v61_eq, gradeScale_apply, word_512, gsum0 (fun k' => ∑ f' : Fin 512, accT T k' r f' * accT T k' r f')]
  simp only [v51_apply]

theorem tail_g1 (T : FVec Ideal S64x4096x512 .f32) (b : Fin 3) (r : Fin 4096) (f : Fin 512) :
    tail T (ix3 (blade1 b) r f) = Ideal.div (accT T (blade1 b) r f)
      (Ideal.sqrt (Ideal.div (∑ k' ∈ Finset.univ.filter (fun k' : Fin 8 => Cert.GradeNorm.gradeT k' = 1),
          ∑ f' : Fin 512, accT T k' r f' * accT T k' r f') (((1536 : ℝ)) : EReal) + Cert.GradeNorm.cEps)) := by
  rw [tail_piece1, v76_eq, gradeScale_apply, word_1536, gsum1 (fun k' => ∑ f' : Fin 512, accT T k' r f' * accT T k' r f')]
  simp only [v66_apply]

theorem tail_g2 (T : FVec Ideal S64x4096x512 .f32) (b : Fin 3) (r : Fin 4096) (f : Fin 512) :
    tail T (ix3 (blade2 b) r f) = Ideal.div (accT T (blade2 b) r f)
      (Ideal.sqrt (Ideal.div (∑ k' ∈ Finset.univ.filter (fun k' : Fin 8 => Cert.GradeNorm.gradeT k' = 2),
          ∑ f' : Fin 512, accT T k' r f' * accT T k' r f') (((1536 : ℝ)) : EReal) + Cert.GradeNorm.cEps)) := by
  rw [tail_piece2, v91_eq, gradeScale_apply, word_1536, gsum2 (fun k' => ∑ f' : Fin 512, accT T k' r f' * accT T k' r f')]
  simp only [v81_apply]

theorem tail_g3 (T : FVec Ideal S64x4096x512 .f32) (b : Fin 1) (r : Fin 4096) (f : Fin 512) :
    tail T (ix3 (blade3 b) r f) = Ideal.div (accT T (blade3 b) r f)
      (Ideal.sqrt (Ideal.div (∑ k' ∈ Finset.univ.filter (fun k' : Fin 8 => Cert.GradeNorm.gradeT k' = 3),
          ∑ f' : Fin 512, accT T k' r f' * accT T k' r f') (((512 : ℝ)) : EReal) + Cert.GradeNorm.cEps)) := by
  rw [tail_piece3, v106_eq, gradeScale_apply, word_512, gsum3 (fun k' => ∑ f' : Fin 512, accT T k' r f' * accT T k' r f')]
  simp only [v96_apply]

/-- The result at blade k, sample r, feature f: the blade's sum of terms over the root of its grade's mean square plus
    the small constant. -/
theorem tail_apply (T : FVec Ideal S64x4096x512 .f32) (k : Fin 8) (r : Fin 4096) (f : Fin 512) :
    tail T (ix3 k r f) = Ideal.div (accT T k r f)
      (Ideal.sqrt (Ideal.div (∑ k' ∈ Finset.univ.filter (fun k' : Fin 8 => Cert.GradeNorm.gradeT k' = Cert.GradeNorm.gradeT k),
          ∑ f' : Fin 512, accT T k' r f' * accT T k' r f')
          (((Cert.GradeNorm.cntT (Cert.GradeNorm.gradeT k) : ℝ)) : EReal) + Cert.GradeNorm.cEps)) := by
  fin_cases k
  · exact tail_g0 T 0 r f
  · exact tail_g1 T 0 r f
  · exact tail_g1 T 1 r f
  · exact tail_g1 T 2 r f
  · exact tail_g2 T 0 r f
  · exact tail_g2 T 1 r f
  · exact tail_g2 T 2 r f
  · exact tail_g3 T 0 r f

end Cert.ReferenceIdeal.RefValue

end
-- ==== Proof.RefRun.lean ====
/-
  The run of the reference program. The program is a straight line of 151 array operations on the buffers of one
  TensorCore; run from any memory with zero counters it terminates, and each buffer then holds the composition of the
  operations that lead to it, applied to the contents the four argument buffers had at launch. Read at the result
  buffer this composition is the two halves of the reference one after the other: the array of the 64 Cayley terms
  (`front`, of the input, the weight matrices, the bias row and the path weights), then the sum into blades and the
  grade-wise normalisation (`tail`). No operation writes an argument buffer, so the arguments end as they began.

  The composition is read off in three steps. After the first 70 operations the buffer of the Cayley terms holds
  `front` of the arguments and the nine index and mask tables the second half reads hold their constants. From any
  contents with these ten buffers so filled, the next 80 operations leave the four normalised pieces (blade 0; blades
  1, 2, 3; blades 4, 5, 6; blade 7) in their buffers. The last operation lays the four pieces along the blade axis.
-/
import proofs.«174987_j30442728194568_2_alg».proof.Proof.RefRunOps
import proofs.«174987_j30442728194568_2_alg».proof.Proof.RefFront
import proofs.«174987_j30442728194568_2_alg».proof.Proof.RefTail
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## After the first part: the Cayley terms and the tables the second part reads

Each operation's result is its function of its operands' contents, and a buffer an operation does not write keeps
what it held; composed from the buffer's own operation back to the arguments. -/

set_option maxHeartbeats 4000000 in
/-- After the first part the buffer of the 64 Cayley terms holds `front` of the four arguments. -/
theorem after_A_v43 (V : Valuation τ sig (Elt Ideal)) :
    after (opsA (F := Ideal)) V (Proc.devRef .tc main_v43)
      = front (V (Proc.devRef .tc main_arg0)) (V (Proc.devRef .tc main_arg1)) (V (Proc.devRef .tc main_arg2))
          (V (Proc.devRef .tc main_arg3)) := by
  simp (disch := decide) only [after_cons, after_nil, nullary_result', unary_result', binary_result', ternary_result', nary4_result', nullary_result_ne', unary_result_ne', binary_result_ne', ternary_result_ne', nary_result_ne']
  rfl

/-- After the first part the buffer of the product-blade table holds it. -/
theorem after_A_c_7 (V : Valuation τ sig (Elt Ideal)) :
    after (opsA (F := Ideal)) V (Proc.devRef .tc main_c_7) = c_7 := by
  simp (disch := decide) only [after_cons, after_nil, nullary_result', unary_result', binary_result', ternary_result', nary4_result', nullary_result_ne', unary_result_ne', binary_result_ne', ternary_result_ne', nary_result_ne'] <;> rfl

/-- After the first part the buffer of the index of blade 0 holds it. -/
theorem after_A_c_8 (V : Valuation τ sig (Elt Ideal)) :
    after (opsA (F := Ideal)) V (Proc.devRef .tc main_c_8) = c_8 := by
  simp (disch := decide) only [after_cons, after_nil, nullary_result', unary_result', binary_result', ternary_result', nary4_result', nullary_result_ne', unary_result_ne', binary_result_ne', ternary_result_ne', nary_result_ne'] <;> rfl

/-- After the first part the buffer of its wrap mask holds it. -/
theorem after_A_c_9 (V : Valuation τ sig (Elt Ideal)) :
    after (opsA (F := Ideal)) V (Proc.devRef .tc main_c_9) = c_9 := by
  simp (disch := decide) only [after_cons, after_nil, nullary_result', unary_result', binary_result', ternary_result', nary4_result', nullary_result_ne', unary_result_ne', binary_result_ne', ternary_result_ne', nary_result_ne'] <;> rfl

/-- After the first part the buffer of the indices of blades 1, 2, 3 holds it. -/
theorem after_A_c_10 (V : Valuation τ sig (Elt Ideal)) :
    after (opsA (F := Ideal)) V (Proc.devRef .tc main_c_10) = c_10 := by
  simp (disch := decide) only [after_cons, after_nil, nullary_result', unary_result', binary_result', ternary_result', nary4_result', nullary_result_ne', unary_result_ne', binary_result_ne', ternary_result_ne', nary_result_ne'] <;> rfl

/-- After the first part the buffer of their wrap mask holds it. -/
theorem after_A_c_11 (V : Valuation τ sig (Elt Ideal)) :
    after (opsA (F := Ideal)) V (Proc.devRef .tc main_c_11) = c_11 := by
  simp (disch := decide) only [after_cons, after_nil, nullary_result', unary_result', binary_result', ternary_result', nary4_result', nullary_result_ne', unary_result_ne', binary_result_ne', ternary_result_ne', nary_result_ne'] <;> rfl

/-- After the first part the buffer of the indices of blades 4, 5, 6 holds it. -/
theorem after_A_c_12 (V : Valuation τ sig (Elt Ideal)) :
    after (opsA (F := Ideal)) V (Proc.devRef .tc main_c_12) = c_12 := by
  simp (disch := decide) only [after_cons, after_nil, nullary_result', unary_result', binary_result', ternary_result', nary4_result', nullary_result_ne', unary_result_ne', binary_result_ne', ternary_result_ne', nary_result_ne'] <;> rfl

/-- After the first part the buffer of their wrap mask holds it. -/
theorem after_A_c_13 (V : Valuation τ sig (Elt Ideal)) :
    after (opsA (F := Ideal)) V (Proc.devRef .tc main_c_13) = c_13 := by
  simp (disch := decide) only [after_cons, after_nil, nullary_result', unary_result', binary_result', ternary_result', nary4_result', nullary_result_ne', unary_result_ne', binary_result_ne', ternary_result_ne', nary_result_ne'] <;> rfl

/-- After the first part the buffer of the index of blade 7 holds it. -/
theorem after_A_c_14 (V : Valuation τ sig (Elt Ideal)) :
    after (opsA (F := Ideal)) V (Proc.devRef .tc main_c_14) = c_14 := by
  simp (disch := decide) only [after_cons, after_nil, nullary_result', unary_result', binary_result', ternary_result', nary4_result', nullary_result_ne', unary_result_ne', binary_result_ne', ternary_result_ne', nary_result_ne'] <;> rfl

/-- After the first part the buffer of its wrap mask holds it. -/
theorem after_A_c_15 (V : Valuation τ sig (Elt Ideal)) :
    after (opsA (F := Ideal)) V (Proc.devRef .tc main_c_15) = c_15 := by
  simp (disch := decide) only [after_cons, after_nil, nullary_result', unary_result', binary_result', ternary_result', nary4_result', nullary_result_ne', unary_result_ne', binary_result_ne', ternary_result_ne', nary_result_ne'] <;> rfl

/-! ## The second part, from any contents `W` whose ten buffers above hold the terms `T` and the tables -/

set_option maxHeartbeats 4000000 in
/-- The piece of grade 0: blade 0 over the root of its mean square. -/
theorem after_B_v61 (W : Valuation τ sig (Elt Ideal)) (T : FVec Ideal S64x4096x512 .f32)
    (h43 : W (Proc.devRef .tc main_v43) = T) (h7 : W (Proc.devRef .tc main_c_7) = c_7) (h8 : W (Proc.devRef .tc main_c_8) = c_8) (h9 : W (Proc.devRef .tc main_c_9) = c_9) :
    after (opsB (F := Ideal)) W (Proc.devRef .tc main_v61) = v61 T := by
  simp (disch := decide) only [after_cons, after_nil, nullary_result', unary_result', binary_result', ternary_result', nary4_result', nullary_result_ne', unary_result_ne', binary_result_ne', ternary_result_ne', nary_result_ne']
  simp only [h43, h7, h8, h9]
  rfl

set_option maxHeartbeats 4000000 in
/-- The piece of grade 1: blades 1, 2, 3 over the root of their mean square. -/
theorem after_B_v76 (W : Valuation τ sig (Elt Ideal)) (T : FVec Ideal S64x4096x512 .f32)
    (h43 : W (Proc.devRef .tc main_v43) = T) (h7 : W (Proc.devRef .tc main_c_7) = c_7) (h10 : W (Proc.devRef .tc main_c_10) = c_10) (h11 : W (Proc.devRef .tc main_c_11) = c_11) :
    after (opsB (F := Ideal)) W (Proc.devRef .tc main_v76) = v76 T := by
  simp (disch := decide) only [after_cons, after_nil, nullary_result', unary_result', binary_result', ternary_result', nary4_result', nullary_result_ne', unary_result_ne', binary_result_ne', ternary_result_ne', nary_result_ne']
  simp only [h43, h7, h10, h11]
  rfl

set_option maxHeartbeats 4000000 in
/-- The piece of grade 2: blades 4, 5, 6 over the root of their mean square. -/
theorem after_B_v91 (W : Valuation τ sig (Elt Ideal)) (T : FVec Ideal S64x4096x512 .f32)
    (h43 : W (Proc.devRef .tc main_v43) = T) (h7 : W (Proc.devRef .tc main_c_7) = c_7) (h12 : W (Proc.devRef .tc main_c_12) = c_12) (h13 : W (Proc.devRef .tc main_c_13) = c_13) :
    after (opsB (F := Ideal)) W (Proc.devRef .tc main_v91) = v91 T := by
  simp (disch := decide) only [after_cons, after_nil, nullary_result', unary_result', binary_result', ternary_result', nary4_result', nullary_result_ne', unary_result_ne', binary_result_ne', ternary_result_ne', nary_result_ne']
  simp only [h43, h7, h12, h13]
  rfl

set_option maxHeartbeats 4000000 in
/-- The piece of grade 3: blade 7 over the root of its mean square. -/
theorem after_B_v106 (W : Valuation τ sig (Elt Ideal)) (T : FVec Ideal S64x4096x512 .f32)
    (h43 : W (Proc.devRef .tc main_v43) = T) (h7 : W (Proc.devRef .tc main_c_7) = c_7) (h14 : W (Proc.devRef .tc main_c_14) = c_14) (h15 : W (Proc.devRef .tc main_c_15) = c_15) :
    after (opsB (F := Ideal)) W (Proc.devRef .tc main_v106) = v106 T := by
  simp (disch := decide) only [after_cons, after_nil, nullary_result', unary_result', binary_result', ternary_result', nary4_result', nullary_result_ne', unary_result_ne', binary_result_ne', ternary_result_ne', nary_result_ne']
  simp only [h43, h7, h14, h15]
  rfl

/-! ## The result buffer and the arguments after all the operations -/

/-- The result buffer holds `tail` of `front` of the four arguments: the last operation lays the four pieces, each
    as the second part leaves it from what the first part leaves, along the blade axis. -/
theorem after_out (V : Valuation τ sig (Elt Ideal)) :
    after (ops (F := Ideal)) V (Proc.devRef .tc main_v107)
      = tail (front (V (Proc.devRef .tc main_arg0)) (V (Proc.devRef .tc main_arg1)) (V (Proc.devRef .tc main_arg2))
          (V (Proc.devRef .tc main_arg3))) := by
  have e61 := after_B_v61 (after opsA V) _ (after_A_v43 V) (after_A_c_7 V) (after_A_c_8 V) (after_A_c_9 V)
  have e76 := after_B_v76 (after opsA V) _ (after_A_v43 V) (after_A_c_7 V) (after_A_c_10 V) (after_A_c_11 V)
  have e91 := after_B_v91 (after opsA V) _ (after_A_v43 V) (after_A_c_7 V) (after_A_c_12 V) (after_A_c_13 V)
  have e106 := after_B_v106 (after opsA V) _ (after_A_v43 V) (after_A_c_7 V) (after_A_c_14 V) (after_A_c_15 V)
  rw [ops_split, after_append, after_append, after_cons, after_nil, nary4_result, e61, e76, e91, e106]
  rfl

set_option maxHeartbeats 4000000 in
/-- No operation writes the first argument. -/
theorem after_arg0 (V : Valuation τ sig (Elt Ideal)) :
    after (ops (F := Ideal)) V (Proc.devRef .tc main_arg0) = V (Proc.devRef .tc main_arg0) := by
  after_results_simp

set_option maxHeartbeats 4000000 in
/-- No operation writes the second argument. -/
theorem after_arg1 (V : Valuation τ sig (Elt Ideal)) :
    after (ops (F := Ideal)) V (Proc.devRef .tc main_arg1) = V (Proc.devRef .tc main_arg1) := by
  after_results_simp

set_option maxHeartbeats 4000000 in
/-- No operation writes the third argument. -/
theorem after_arg2 (V : Valuation τ sig (Elt Ideal)) :
    after (ops (F := Ideal)) V (Proc.devRef .tc main_arg2) = V (Proc.devRef .tc main_arg2) := by
  after_results_simp

set_option maxHeartbeats 4000000 in
/-- No operation writes the fourth argument. -/
theorem after_arg3 (V : Valuation τ sig (Elt Ideal)) :
    after (ops (F := Ideal)) V (Proc.devRef .tc main_arg3) = V (Proc.devRef .tc main_arg3) := by
  after_results_simp

/-! ## The run -/

/-- On every device, from any memory with zero counters: every weakly fair execution of the reference program
    terminates, with the result buffer at `tail (front …)` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v107)
          = tail (front (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v107).trans (after_out _),
      (h c main_arg0).trans (after_arg0 _),
      (h c main_arg1).trans (after_arg1 _),
      (h c main_arg2).trans (after_arg2 _),
      (h c main_arg3).trans (after_arg3 _)⟩)
    (run_seq scopedRefs_eq scopedSems_eq defs main (fun _ => ops) main_eq (fun _ => ops_sub) m ρ)

end Cert.ReferenceIdeal.RefValue

end
-- ==== Proof.RefOut.lean ====
/-
  The reference's result is the specification's second arrangement.

  The front half of the reference gives, at term e, sample r, feature f, the specification's Cayley term; the tail adds
  the terms by product blade and scales each grade's blades by the root of the grade's mean square plus the small
  constant. Blade k of the product is therefore the specification's sum accR, and the result at (k, r, f) is the
  specification's rowR at sample r: the two sides are the same expression once the blade sums are identified.
-/
import proofs.«174987_j30442728194568_2_alg».proof.Proof.Spec
import proofs.«174987_j30442728194568_2_alg».proof.Proof.RefFront
import proofs.«174987_j30442728194568_2_alg».proof.Proof.RefTail

noncomputable section

namespace Cert.ReferenceIdeal.RefValue

open Idealize.ShloMosaic Idealize.ShloMosaic.ValueIdx
open Cert.ReferenceIdeal

/-- Blade k of the product over the front's terms is the specification's blade sum at sample r. -/
theorem accT_front (x : FVec Ideal S8x4096x512 .f32) (w : FVec Ideal S4x512x512 .f32) (b : FVec Ideal S1x1x512 .f32)
    (gp : FVec Ideal S512x20 .f32) (k : Fin 8) (r : Fin 4096) (f : Fin 512) :
    accT (front x w b gp) k r f
      = Cert.GradeNorm.accR (Cert.GradeNorm.xrow x r) (Cert.GradeNorm.wmat w) (Cert.GradeNorm.bvec b)
          (Cert.GradeNorm.spw gp) k f := by
  unfold accT Cert.GradeNorm.accR
  exact Finset.sum_congr rfl (fun e _ => front_apply x w b gp e r f)

/-- The reference's result array is the specification's second arrangement. -/
theorem out_eq_GR (x : FVec Ideal S8x4096x512 .f32) (w : FVec Ideal S4x512x512 .f32) (b : FVec Ideal S1x1x512 .f32)
    (gp : FVec Ideal S512x20 .f32) : tail (front x w b gp) = Cert.GradeNorm.GR x w b gp := by
  funext i
  obtain ⟨k, r, f, rfl⟩ : ∃ (k : Fin 8) (r : Fin 4096) (f : Fin 512), i = ix3 k r f := ⟨i 0, i 1, i 2, eq_ix3 i⟩
  rw [tail_apply, Cert.GradeNorm.GR_apply]
  simp only [accT_front]
  rfl

end Cert.ReferenceIdeal.RefValue

end
-- ==== Proof.lean ====
/-
  The claim: the fused grade-wise linear map, tanh GELU, steerable geometric product and grade-wise RMS normalisation
  kernel against its plain reference, at the exact instance.

  Both programs compute, for every sample, the same row function of the sample's eight blades, the four weight
  matrices, the bias row and the signed path weights. The kernel's run ends with the result array at that row function
  in the kernel's arrangement (eight Cayley terms per blade added in the order of the right factor; squared lanes
  added blade after blade; times the reciprocal count; times the reciprocal root), block by block over the sixteen
  blocks of 256 samples. The reference's run ends at the same row function in the reference's arrangement (the terms
  scattered by product blade; squares summed over a grade's blades and features; divided by the count; divided by the
  root). The two arrangements agree on the extended reals with no finiteness: addition and multiplication are
  commutative and associative there, dividing by a nonzero real is multiplying by its reciprocal, and x times the
  reciprocal root of v is x over the root of v for every 0 < v, which holds since v is a sum of squares times a
  positive constant plus a positive constant. The frames of the two kernel programs are the generated ones; the
  reference's frame is its run with the result dropped; each ledger entry says that the named reciprocal count is the
  rational 1/1536.
-/
import proofs.«174987_j30442728194568_2_alg».proof.Defs
import proofs.«174987_j30442728194568_2_alg».proof.Proof.Gen.Kernel
import proofs.«174987_j30442728194568_2_alg».proof.Proof.Gen.Kernel.Skeleton
import proofs.«174987_j30442728194568_2_alg».proof.Proof.Gen.Kernel.Launch
import proofs.«174987_j30442728194568_2_alg».proof.Proof.Gen.Kernel.Points
import proofs.«174987_j30442728194568_2_alg».proof.Proof.Gen.Kernel.Frame
import proofs.«174987_j30442728194568_2_alg».proof.Proof.Gen.KernelIdeal
import proofs.«174987_j30442728194568_2_alg».proof.Proof.Gen.KernelIdeal.Skeleton
import proofs.«174987_j30442728194568_2_alg».proof.Proof.Gen.KernelIdeal.Launch
import proofs.«174987_j30442728194568_2_alg».proof.Proof.Gen.KernelIdeal.Points
import proofs.«174987_j30442728194568_2_alg».proof.Proof.Gen.KernelIdeal.Frame
import proofs.«174987_j30442728194568_2_alg».proof.Proof.Gen.KernelIdeal.Value
import proofs.«174987_j30442728194568_2_alg».proof.Proof.Gen.ReferenceIdeal
import proofs.«174987_j30442728194568_2_alg».proof.Proof.Gen.Pre_finite_inputs
import proofs.«174987_j30442728194568_2_alg».proof.Proof.RowAlgebra
import proofs.«174987_j30442728194568_2_alg».proof.Proof.KernelArray
import proofs.«174987_j30442728194568_2_alg».proof.Proof.KernelBlock
import proofs.«174987_j30442728194568_2_alg».proof.Proof.RefRun
import proofs.«174987_j30442728194568_2_alg».proof.Proof.RefOut
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefValue.run m ρ)

/-- The ledger's two entries: the named reciprocal count of a three-blade grade is the rational 1/1536. -/
theorem preserves : Cert.preserves_Kernel_KernelIdeal :=
  ⟨IdealRules.named_const.statement Cert.KernelIdeal.κ "inv_1536" .f32 0x3A2AAAAB#32 ((1 / 1536 : ℝ) : EReal) rfl,
   IdealRules.named_const.statement Cert.KernelIdeal.κ "inv_1536" .f32 0x3A2AAAAB#32 ((1 / 1536 : ℝ) : EReal) rfl⟩

/-- Both runs end at one array: the row function of the arguments in the kernel's arrangement, which is the
    reference's arrangement of the same row function. -/
theorem algebraic : Cert.algebraic_KernelIdeal_ReferenceIdeal := by
  intro m ρ m' ρ' _ hagree
  refine ⟨_, Cert.KernelIdeal.KValue.run_of_block Cert.KernelIdeal.KValue.out_block m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2, Cert.ReferenceIdeal.RefValue.out_eq_GR]
  exact (Cert.GradeNorm.GK_eq_GR _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
